-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)) →
    ∃ (v0 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v129) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v229) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x34 : Shape := ⟨2, ![50000, 34]⟩
abbrev S2x800000 : Shape := ⟨2, ![2, 800000]⟩
abbrev S50000 : Shape := ⟨1, ![50000]⟩
abbrev S34x256 : Shape := ⟨2, ![34, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S64 : Shape := ⟨1, ![64]⟩
abbrev S128x128 : Shape := ⟨2, ![128, 128]⟩
abbrev S128x64 : Shape := ⟨2, ![128, 64]⟩
abbrev S64x4 : Shape := ⟨2, ![64, 4]⟩
abbrev S4 : Shape := ⟨1, ![4]⟩
abbrev S_ : Shape := ⟨0, ![]⟩

class Facts : Prop where
  bcast_S_S50000x34 : S_.BroadcastsInDim S50000x34 (![] : Fin 0 → Fin S50000x34.rank)
  reducesTo_S50000x34_S_d0_1 : S50000x34.ReducesTo [0, 1] S_
  h_S_ : 0 < S_.numel
  bcast_S_S34x256 : S_.BroadcastsInDim S34x256 (![] : Fin 0 → Fin S34x256.rank)
  reducesTo_S34x256_S_d0_1 : S34x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_

variable [Facts]

def fn_part9 {F : FTy → Type} [FloatOps F] (main_arg33 : FVec F S64x4 .f32) (main_arg34 : FVec F S4 .f32) (main_v153 : IVec S_ 1) : IVec S_ 1 :=
  let main_v154 : FVec F S64x4 .f32 := Host.absf main_arg33
  let main_cst_60 : FVec F S_ .f32 := constant S_ .f32 0x7F800000#32
  let main_v155 : FVec F S64x4 .f32 := broadcastInDim S64x4 ![] bcast_S_S64x4 main_cst_60
  let main_v156 : IVec S64x4 1 := cmpf .olt main_v154 main_v155
  let main_c_61 : IVec S_ 1 := constantI S_ 1 1#1
  let main_v157 : IVec S_ 1 := (fun x v => Host.reduce IntOp.andi x v reducesTo_S64x4_S_d0_1 h_S_) main_v156 main_c_61
  let main_v158 : IVec S_ 1 := andi main_v153 main_v157
  let main_v159 : FVec F S4 .f32 := Host.absf main_arg34
  let main_cst_62 : FVec F S_ .f32 := constant S_ .f32 0x7F800000#32
  let main_v160 : FVec F S4 .f32 := broadcastInDim S4 ![] bcast_S_S4 main_cst_62
  let main_v161 : IVec S4 1 := cmpf .olt main_v159 main_v160
  let main_c_63 : IVec S_ 1 := constantI S_ 1 1#1
  let main_v162 : IVec S_ 1 := (fun x v => Host.reduce IntOp.andi x v reducesTo_S4_S_d0 h_S_) main_v161 main_c_63
  let main_v163 : IVec S_ 1 := andi main_v158 main_v162
  main_v163

def fn_part8 {F : FTy → Type} [FloatOps F] (main_arg30 : FVec F S128 .f32) (main_arg31 : FVec F S128x64 .f32) (main_arg32 : FVec F S64 .f32) (main_arg33 : FVec F S64x4 .f32) (main_arg34 : FVec F S4 .f32) (main_v133 : IVec S_ 1) (main_v136 : IVec S128x128 1) : IVec S_ 1 :=
  let main_c_53 : IVec S_ 1 := constantI S_ 1 1#1
  let main_v137 : IVec S_ 1 := (fun x v => Host.reduce IntOp.andi x v reducesTo_S128x128_S_d0_1 h_S_) main_v136 main_c_53
  let main_v138 : IVec S_ 1 := andi main_v133 main_v137
  let main_v139 : FVec F S128 .f32 := Host.absf main_arg30
  let main_cst_54 : FVec F S_ .f32 := constant S_ .f32 0x7F800000#32
  let main_v140 : FVec F S128 .f32 := broadcastInDim S128 ![] bcast_S_S128 main_cst_54
  let main_v141 : IVec S128 1 := cmpf .olt main_v139 main_v140
  let main_c_55 : IVec S_ 1 := constantI S_ 1 1#1
  let main_v142 : IVec S_ 1 := (fun x v => Host.reduce IntOp.andi x v reducesTo_S128_S_d0 h_S_) main_v141 main_c_55
  let main_v143 : IVec S_ 1 := andi main_v138 main_v142
  let main_v144 : FVec F S128x64 .f32 := Host.absf main_arg31
  let main_cst_56 : FVec F S_ .f32 := constant S_ .f32 0x7F800000#32
  let main_v145 : FVec F S128x64 .f32 := broadcastInDim S128x64 ![] bcast_S_S128x64 main_cst_56
  let main_v146 : IVec S128x64 1 := cmpf .olt main_v144 main_v145
  let main_c_57 : IVec S_ 1 := constantI S_ 1 1#1
  let main_v147 : IVec S_ 1 := (fun x v => Host.reduce IntOp.andi x v reducesTo_S128x64_S_d0_1 h_S_) main_v146 main_c_57
  let main_v148 : IVec S_ 1 := andi main_v143 main_v147
  let main_v149 : FVec F S64 .f32 := Host.absf main_arg32
  let main_cst_58 : FVec F S_ .f32 := constant S_ .f32 0x7F800000#32
  let main_v150 : FVec F S64 .f32 := broadcastInDim S64 ![] bcast_S_S64 main_cst_58
  let main_v151 : IVec S64 1 := cmpf .olt main_v149 main_v150
  let main_c_59 : IVec S_ 1 := constantI S_ 1 1#1
  let main_v152 : IVec S_ 1 := (fun x v => Host.reduce IntOp.andi x v reducesTo_S64_S_d0 h_S_) main_v151 main_c_59
  let main_v153 : IVec S_ 1 := andi main_v148 main_v152
  fn_part9 (F := F) main_arg33 main_arg34 main_v153

def fn_part7 {F : FTy → Type} [FloatOps F] (main_arg27 : FVec F S64 .f32) (main_arg28 : FVec F S64 .f32) (main_arg29 : FVec F S128x128 .f32) (main_arg30 : FVec F S128 .f32) (main_arg31 : FVec F S128x64 .f32) (main_arg32 : FVec F S64 .f32) (main_arg33 : FVec F S64x4 .f32) (main_arg34 : FVec F S4 .f32) (main_v118 : IVec S_ 1) (main_v119 : FVec F S64 .f32) : IVec S_ 1 :=
  let main_cst_46 : FVec F S_ .f32 := constant S_ .f32 0x7F800000#32
  let main_v120 : FVec F S64 .f32 := broadcastInDim S64 ![] bcast_S_S64 main_cst_46
  let main_v121 : IVec S64 1 := cmpf .olt main_v119 main_v120
  let main_c_47 : IVec S_ 1 := constantI S_ 1 1#1
  let main_v122 : IVec S_ 1 := (fun x v => Host.reduce IntOp.andi x v reducesTo_S64_S_d0 h_S_) main_v121 main_c_47
  let main_v123 : IVec S_ 1 := andi main_v118 main_v122
  let main_v124 : FVec F S64 .f32 := Host.absf main_arg27
  let main_cst_48 : FVec F S_ .f32 := constant S_ .f32 0x7F800000#32
  let main_v125 : FVec F S64 .f32 := broadcastInDim S64 ![] bcast_S_S64 main_cst_48
  let main_v126 : IVec S64 1 := cmpf .olt main_v124 main_v125
  let main_c_49 : IVec S_ 1 := constantI S_ 1 1#1
  let main_v127 : IVec S_ 1 := (fun x v => Host.reduce IntOp.andi x v reducesTo_S64_S_d0 h_S_) main_v126 main_c_49
  let main_v128 : IVec S_ 1 := andi main_v123 main_v127
  let main_v129 : FVec F S64 .f32 := Host.absf main_arg28
  let main_cst_50 : FVec F S_ .f32 := constant S_ .f32 0x7F800000#32
  let main_v130 : FVec F S64 .f32 := broadcastInDim S64 ![] bcast_S_S64 main_cst_50
  let main_v131 : IVec S64 1 := cmpf .olt main_v129 main_v130
  let main_c_51 : IVec S_ 1 := constantI S_ 1 1#1
  let main_v132 : IVec S_ 1 := (fun x v => Host.reduce IntOp.andi x v reducesTo_S64_S_d0 h_S_) main_v131 main_c_51
  let main_v133 : IVec S_ 1 := andi main_v128 main_v132
  let main_v134 : FVec F S128x128 .f32 := Host.absf main_arg29
  let main_cst_52 : FVec F S_ .f32 := constant S_ .f32 0x7F800000#32
  let main_v135 : FVec F S128x128 .f32 := broadcastInDim S128x128 ![] bcast_S_S128x128 main_cst_52
  let main_v136 : IVec S128x128 1 := cmpf .olt main_v134 main_v135
  fn_part8 (F := F) main_arg30 main_arg31 main_arg32 main_arg33 main_arg34 main_v133 main_v136

def fn_part6 {F : FTy → Type} [FloatOps F] (main_arg23 : FVec F S128 .f32) (main_arg24 : FVec F S128 .f32) (main_arg25 : FVec F S64 .f32) (main_arg26 : FVec F S64 .f32) (main_arg27 : FVec F S64 .f32) (main_arg28 : FVec F S64 .f32) (main_arg29 : FVec F S128x128 .f32) (main_arg30 : FVec F S128 .f32) (main_arg31 : FVec F S128x64 .f32) (main_arg32 : FVec F S64 .f32) (main_arg33 : FVec F S64x4 .f32) (main_arg34 : FVec F S4 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg24
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S64 .f32 := Host.absf main_arg25
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  let main_v119 : FVec F S64 .f32 := Host.absf main_arg26
  fn_part7 (F := F) main_arg27 main_arg28 main_arg29 main_arg30 main_arg31 main_arg32 main_arg33 main_arg34 main_v118 main_v119

def fn_part5 {F : FTy → Type} [FloatOps F] (main_arg20 : FVec F S128 .f32) (main_arg21 : FVec F S128 .f32) (main_arg22 : FVec F S128 .f32) (main_arg23 : FVec F S128 .f32) (main_arg24 : FVec F S128 .f32) (main_arg25 : FVec F S64 .f32) (main_arg26 : FVec F S64 .f32) (main_arg27 : FVec F S64 .f32) (main_arg28 : FVec F S64 .f32) (main_arg29 : FVec F S128x128 .f32) (main_arg30 : FVec F S128 .f32) (main_arg31 : FVec F S128x64 .f32) (main_arg32 : FVec F S64 .f32) (main_arg33 : FVec F S64x4 .f32) (main_arg34 : FVec F S4 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg23 main_arg24 main_arg25 main_arg26 main_arg27 main_arg28 main_arg29 main_arg30 main_arg31 main_arg32 main_arg33 main_arg34 main_v98 main_v101 main_c_39

def fn_part4 {F : FTy → Type} [FloatOps F] (main_arg16 : FVec F S256 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S128 .f32) (main_arg24 : FVec F S128 .f32) (main_arg25 : FVec F S64 .f32) (main_arg26 : FVec F S64 .f32) (main_arg27 : FVec F S64 .f32) (main_arg28 : FVec F S64 .f32) (main_arg29 : FVec F S128x128 .f32) (main_arg30 : FVec F S128 .f32) (main_arg31 : FVec F S128x64 .f32) (main_arg32 : FVec F S64 .f32) (main_arg33 : FVec F S64x4 .f32) (main_arg34 : FVec F S4 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_arg29 main_arg30 main_arg31 main_arg32 main_arg33 main_arg34 main_v83 main_v84 main_cst_32

def fn_part3 {F : FTy → Type} [FloatOps F] (main_arg13 : FVec F S256 .f32) (main_arg14 : FVec F S256 .f32) (main_arg15 : FVec F S256 .f32) (main_arg16 : FVec F S256 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S128 .f32) (main_arg24 : FVec F S128 .f32) (main_arg25 : FVec F S64 .f32) (main_arg26 : FVec F S64 .f32) (main_arg27 : FVec F S64 .f32) (main_arg28 : FVec F S64 .f32) (main_arg29 : FVec F S128x128 .f32) (main_arg30 : FVec F S128 .f32) (main_arg31 : FVec F S128x64 .f32) (main_arg32 : FVec F S64 .f32) (main_arg33 : FVec F S64x4 .f32) (main_arg34 : FVec F S4 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg16 main_arg17 main_arg18 main_arg19 main_arg20 main_arg21 main_arg22 main_arg23 main_arg24 main_arg25 main_arg26 main_arg27 main_arg28 main_arg29 main_arg30 main_arg31 main_arg32 main_arg33 main_arg34 main_v63 main_v67

def fn_part2 {F : FTy → Type} [FloatOps F] (main_arg9 : FVec F S256 .f32) (main_arg10 : FVec F S256 .f32) (main_arg11 : FVec F S256 .f32) (main_arg12 : FVec F S256 .f32) (main_arg13 : FVec F S256 .f32) (main_arg14 : FVec F S256 .f32) (main_arg15 : FVec F S256 .f32) (main_arg16 : FVec F S256 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S128 .f32) (main_arg24 : FVec F S128 .f32) (main_arg25 : FVec F S64 .f32) (main_arg26 : FVec F S64 .f32) (main_arg27 : FVec F S64 .f32) (main_arg28 : FVec F S64 .f32) (main_arg29 : FVec F S128x128 .f32) (main_arg30 : FVec F S128 .f32) (main_arg31 : FVec F S128x64 .f32) (main_arg32 : FVec F S64 .f32) (main_arg33 : FVec F S64x4 .f32) (main_arg34 : FVec F S4 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_v48 main_v49 main_v50

def fn_part1 {F : FTy → Type} [FloatOps F] (main_arg6 : FVec F S256 .f32) (main_arg7 : FVec F S256x128 .f32) (main_arg8 : FVec F S128 .f32) (main_arg9 : FVec F S256 .f32) (main_arg10 : FVec F S256 .f32) (main_arg11 : FVec F S256 .f32) (main_arg12 : FVec F S256 .f32) (main_arg13 : FVec F S256 .f32) (main_arg14 : FVec F S256 .f32) (main_arg15 : FVec F S256 .f32) (main_arg16 : FVec F S256 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S128 .f32) (main_arg24 : FVec F S128 .f32) (main_arg25 : FVec F S64 .f32) (main_arg26 : FVec F S64 .f32) (main_arg27 : FVec F S64 .f32) (main_arg28 : FVec F S64 .f32) (main_arg29 : FVec F S128x128 .f32) (main_arg30 : FVec F S128 .f32) (main_arg31 : FVec F S128x64 .f32) (main_arg32 : FVec F S64 .f32) (main_arg33 : FVec F S64x4 .f32) (main_arg34 : FVec F S4 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_v33

def fn {F : FTy → Type} [FloatOps F] (main_arg0 : FVec F S50000x34 .f32) (main_arg1 : IVec S2x800000 32) (main_arg2 : IVec S50000 32) (main_arg3 : FVec F S34x256 .f32) (main_arg4 : FVec F S256 .f32) (main_arg5 : FVec F S256x256 .f32) (main_arg6 : FVec F S256 .f32) (main_arg7 : FVec F S256x128 .f32) (main_arg8 : FVec F S128 .f32) (main_arg9 : FVec F S256 .f32) (main_arg10 : FVec F S256 .f32) (main_arg11 : FVec F S256 .f32) (main_arg12 : FVec F S256 .f32) (main_arg13 : FVec F S256 .f32) (main_arg14 : FVec F S256 .f32) (main_arg15 : FVec F S256 .f32) (main_arg16 : FVec F S256 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S128 .f32) (main_arg24 : FVec F S128 .f32) (main_arg25 : FVec F S64 .f32) (main_arg26 : FVec F S64 .f32) (main_arg27 : FVec F S64 .f32) (main_arg28 : FVec F S64 .f32) (main_arg29 : FVec F S128x128 .f32) (main_arg30 : FVec F S128 .f32) (main_arg31 : FVec F S128x64 .f32) (main_arg32 : FVec F S64 .f32) (main_arg33 : FVec F S64x4 .f32) (main_arg34 : FVec F S4 .f32) : IVec S_ 1 :=
  let main_v0 : FVec F S50000x34 .f32 := Host.absf main_arg0
  let main_cst : FVec F S_ .f32 := constant S_ .f32 0x7F800000#32
  let main_v1 : FVec F S50000x34 .f32 := broadcastInDim S50000x34 ![] bcast_S_S50000x34 main_cst
  let main_v2 : IVec S50000x34 1 := cmpf .olt main_v0 main_v1
  let main_c : IVec S_ 1 := constantI S_ 1 1#1
  let main_v3 : IVec S_ 1 := (fun x v => Host.reduce IntOp.andi x v reducesTo_S50000x34_S_d0_1 h_S_) main_v2 main_c
  let main_v4 : FVec F S34x256 .f32 := Host.absf main_arg3
  let main_cst_0 : FVec F S_ .f32 := constant S_ .f32 0x7F800000#32
  let main_v5 : FVec F S34x256 .f32 := broadcastInDim S34x256 ![] bcast_S_S34x256 main_cst_0
  let main_v6 : IVec S34x256 1 := cmpf .olt main_v4 main_v5
  let main_c_1 : IVec S_ 1 := constantI S_ 1 1#1
  let main_v7 : IVec S_ 1 := (fun x v => Host.reduce IntOp.andi x v reducesTo_S34x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_v13 main_v16
-- ==== Kernel.lean ====
abbrev S50000x34 : Shape := ⟨2, ![50000, 34]⟩
abbrev S2x800000 : Shape := ⟨2, ![2, 800000]⟩
abbrev S50000 : Shape := ⟨1, ![50000]⟩
abbrev S34x256 : Shape := ⟨2, ![34, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S64 : Shape := ⟨1, ![64]⟩
abbrev S128x128 : Shape := ⟨2, ![128, 128]⟩
abbrev S128x64 : Shape := ⟨2, ![128, 64]⟩
abbrev S64x4 : Shape := ⟨2, ![64, 4]⟩
abbrev S4 : Shape := ⟨1, ![4]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x34 : Shape := ⟨2, ![2000, 34]⟩
abbrev S2000x256 : Shape := ⟨2, ![2000, 256]⟩
abbrev S850000x256 : Shape := ⟨2, ![850000, 256]⟩
abbrev S1x256 : Shape := ⟨2, ![1, 256]⟩
abbrev S50000x128 : Shape := ⟨2, ![50000, 128]⟩
abbrev S2000x128 : Shape := ⟨2, ![2000, 128]⟩
abbrev S850000x128 : Shape := ⟨2, ![850000, 128]⟩
abbrev S1x128 : Shape := ⟨2, ![1, 128]⟩
abbrev S500 : Shape := ⟨1, ![500]⟩
abbrev S50000x1 : Shape := ⟨2, ![50000, 1]⟩
abbrev S500x128 : Shape := ⟨2, ![500, 128]⟩
abbrev S500x1 : Shape := ⟨2, ![500, 1]⟩
abbrev S500x64 : Shape := ⟨2, ![500, 64]⟩
abbrev S1x64 : Shape := ⟨2, ![1, 64]⟩
abbrev S500x4 : Shape := ⟨2, ![500, 4]⟩
abbrev S1x4 : Shape := ⟨2, ![1, 4]⟩

abbrev nBuf : Space → Nat
  | .hbm => 196
  | .vmem => 42
  | .smem => 0
  | _ => 0

abbrev hbmTy0_0 (i : Nat) : BufTy := match i % 128 with
  | 0 => ⟨S50000x34, .f32⟩
  | 1 => ⟨S2x800000, .i32⟩
  | 2 => ⟨S50000, .i32⟩
  | 3 => ⟨S34x256, .f32⟩
  | 4 => ⟨S256, .f32⟩
  | 5 => ⟨S256x256, .f32⟩
  | 6 => ⟨S256, .f32⟩
  | 7 => ⟨S256x128, .f32⟩
  | 8 => ⟨S128, .f32⟩
  | 9 => ⟨S256, .f32⟩
  | 10 => ⟨S256, .f32⟩
  | 11 => ⟨S256, .f32⟩
  | 12 => ⟨S256, .f32⟩
  | 13 => ⟨S256, .f32⟩
  | 14 => ⟨S256, .f32⟩
  | 15 => ⟨S256, .f32⟩
  | 16 => ⟨S256, .f32⟩
  | 17 => ⟨S128, .f32⟩
  | 18 => ⟨S128, .f32⟩
  | 19 => ⟨S128, .f32⟩
  | 20 => ⟨S128, .f32⟩
  | 21 => ⟨S128, .f32⟩
  | 22 => ⟨S128, .f32⟩
  | 23 => ⟨S128, .f32⟩
  | 24 => ⟨S128, .f32⟩
  | 25 => ⟨S64, .f32⟩
  | 26 => ⟨S64, .f32⟩
  | 27 => ⟨S64, .f32⟩
  | 28 => ⟨S64, .f32⟩
  | 29 => ⟨S128x128, .f32⟩
  | 30 => ⟨S128, .f32⟩
  | 31 => ⟨S128x64, .f32⟩
  | 32 => ⟨S64, .f32⟩
  | 33 => ⟨S64x4, .f32⟩
  | 34 => ⟨S4, .f32⟩
  | 35 => ⟨S50000, .i32⟩
  | 36 => ⟨S1x800000, .i32⟩
  | 37 => ⟨S800000, .i32⟩
  | 38 => ⟨S850000, .i32⟩
  | 39 => ⟨S1x800000, .i32⟩
  | 40 => ⟨S800000, .i32⟩
  | 41 => ⟨S850000, .i32⟩
  | 42 => ⟨S_, .f32⟩
  | 43 => ⟨S850000, .f32⟩
  | 44 => ⟨S_, .f32⟩
  | 45 => ⟨S50000, .f32⟩
  | 46 => ⟨S850000x1, .i32⟩
  | 47 => ⟨S50000, .f32⟩
  | 48 => ⟨S_, .f32⟩
  | 49 => ⟨S50000, .f32⟩
  | 50 => ⟨S50000, .i1⟩
  | 51 => ⟨S50000, .f32⟩
  | 52 => ⟨S_, .f32⟩
  | 53 => ⟨S_, .f32⟩
  | 54 => ⟨S50000, .f32⟩
  | 55 => ⟨S50000, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000, .f32⟩
  | 65 => ⟨S_, .i32⟩
  | 66 => ⟨S850000, .i32⟩
  | 67 => ⟨S850000, .i1⟩
  | 68 => ⟨S_, .i32⟩
  | 69 => ⟨S850000, .i32⟩
  | 70 => ⟨S850000, .i32⟩
  | 71 => ⟨S850000, .i32⟩
  | 72 => ⟨S850000x1, .i32⟩
  | 73 => ⟨S850000, .f32⟩
  | 74 => ⟨S850000, .f32⟩
  | 75 => ⟨S50000x256, .f32⟩
  | 76 => ⟨S_, .i32⟩
  | 77 => ⟨S850000, .i32⟩
  | 78 => ⟨S850000, .i1⟩
  | 79 => ⟨S_, .i32⟩
  | 80 => ⟨S850000, .i32⟩
  | 81 => ⟨S850000, .i32⟩
  | 82 => ⟨S850000, .i32⟩
  | 83 => ⟨S850000x1, .i32⟩
  | 84 => ⟨S850000x256, .f32⟩
  | 85 => ⟨S850000x1, .f32⟩
  | 86 => ⟨S850000x256, .f32⟩
  | 87 => ⟨S850000x256, .f32⟩
  | 88 => ⟨S_, .f32⟩
  | 89 => ⟨S50000x256, .f32⟩
  | 90 => ⟨S850000x1, .i32⟩
  | 91 => ⟨S50000x256, .f32⟩
  | 92 => ⟨S50000x256, .f32⟩
  | 93 => ⟨S50000x256, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000x256, .f32⟩
  | 103 => ⟨S850000x1, .f32⟩
  | 104 => ⟨S850000x256, .f32⟩
  | 105 => ⟨S850000x256, .f32⟩
  | 106 => ⟨S_, .f32⟩
  | 107 => ⟨S50000x256, .f32⟩
  | 108 => ⟨S850000x1, .i32⟩
  | 109 => ⟨S50000x256, .f32⟩
  | 110 => ⟨S50000x256, .f32⟩
  | 111 => ⟨S50000x128, .f32⟩
  | 112 => ⟨S_, .i32⟩
  | 113 => ⟨S850000, .i32⟩
  | 114 => ⟨S850000, .i1⟩
  | 115 => ⟨S_, .i32⟩
  | 116 => ⟨S850000, .i32⟩
  | 117 => ⟨S850000, .i32⟩
  | 118 => ⟨S850000, .i32⟩
  | 119 => ⟨S850000x1, .i32⟩
  | 120 => ⟨S850000x128, .f32⟩
  | 121 => ⟨S850000x1, .f32⟩
  | 122 => ⟨S850000x128, .f32⟩
  | 123 => ⟨S850000x128, .f32⟩
  | 124 => ⟨S_, .f32⟩
  | 125 => ⟨S50000x128, .f32⟩
  | 126 => ⟨S850000x1, .i32⟩
  | 127 => ⟨S50000x128, .f32⟩
  | _ => ⟨S50000x34, .f32⟩

abbrev hbmTy0_1 (i : Nat) : BufTy := match i % 128 with
  | 0 => ⟨S50000x128, .f32⟩
  | 1 => ⟨S_, .f32⟩
  | 2 => ⟨S50000, .f32⟩
  | 3 => ⟨S_, .f32⟩
  | 4 => ⟨S500, .f32⟩
  | 5 => ⟨S50000x1, .i32⟩
  | 6 => ⟨S500, .f32⟩
  | 7 => ⟨S_, .f32⟩
  | 8 => ⟨S500x128, .f32⟩
  | 9 => ⟨S50000x1, .i32⟩
  | 10 => ⟨S500x128, .f32⟩
  | 11 => ⟨S_, .f32⟩
  | 12 => ⟨S_, .f32⟩
  | 13 => ⟨S500, .f32⟩
  | 14 => ⟨S500, .f32⟩
  | 15 => ⟨S500x1, .f32⟩
  | 16 => ⟨S500x128, .f32⟩
  | 17 => ⟨S500x128, .f32⟩
  | 18 => ⟨S500x128, .f32⟩
  | 19 => ⟨S1x128, .f32⟩
  | 20 => ⟨S500x128, .f32⟩
  | 21 => ⟨S500x128, .f32⟩
  | 22 => ⟨S1x128, .f32⟩
  | 23 => ⟨S500x128, .f32⟩
  | 24 => ⟨S500x128, .f32⟩
  | 25 => ⟨S_, .f32⟩
  | 26 => ⟨S128, .f32⟩
  | 27 => ⟨S128, .f32⟩
  | 28 => ⟨S128, .f32⟩
  | 29 => ⟨S1x128, .f32⟩
  | 30 => ⟨S500x128, .f32⟩
  | 31 => ⟨S500x128, .f32⟩
  | 32 => ⟨S1x128, .f32⟩
  | 33 => ⟨S500x128, .f32⟩
  | 34 => ⟨S500x128, .f32⟩
  | 35 => ⟨S1x128, .f32⟩
  | 36 => ⟨S500x128, .f32⟩
  | 37 => ⟨S500x128, .f32⟩
  | 38 => ⟨S_, .f32⟩
  | 39 => ⟨S500x128, .f32⟩
  | 40 => ⟨S500x128, .f32⟩
  | 41 => ⟨S500x64, .f32⟩
  | 42 => ⟨S1x64, .f32⟩
  | 43 => ⟨S500x64, .f32⟩
  | 44 => ⟨S500x64, .f32⟩
  | 45 => ⟨S1x64, .f32⟩
  | 46 => ⟨S500x64, .f32⟩
  | 47 => ⟨S500x64, .f32⟩
  | 48 => ⟨S_, .f32⟩
  | 49 => ⟨S64, .f32⟩
  | 50 => ⟨S64, .f32⟩
  | 51 => ⟨S64, .f32⟩
  | 52 => ⟨S1x64, .f32⟩
  | 53 => ⟨S500x64, .f32⟩
  | 54 => ⟨S500x64, .f32⟩
  | 55 => ⟨S1x64, .f32⟩
  | 56 => ⟨S500x64, .f32⟩
  | 57 => ⟨S500x64, .f32⟩
  | 58 => ⟨S1x64, .f32⟩
  | 59 => ⟨S500x64, .f32⟩
  | 60 => ⟨S500x64, .f32⟩
  | 61 => ⟨S_, .f32⟩
  | 62 => ⟨S500x64, .f32⟩
  | 63 => ⟨S500x64, .f32⟩
  | 64 => ⟨S500x4, .f32⟩
  | 65 => ⟨S1x4, .f32⟩
  | 66 => ⟨S500x4, .f32⟩
  | 67 => ⟨S500x4, .f32⟩
  | _ => ⟨S50000x34, .f32⟩

abbrev hbmTy (i : Nat) : BufTy := match i / 128 with
  | 0 => hbmTy0_0 i
  | 1 => hbmTy0_1 i
  | _ => ⟨S50000x34, .f32⟩

abbrev bufTy : (tb : Table) → Fin (tcTables nBuf tb) → BufTy
  | .hbm, ⟨i, _⟩ => hbmTy i
  | .local _ .vmem, ⟨0, _⟩ => ⟨S2000x34, .f32⟩
  | .local _ .vmem, ⟨1, _⟩ => ⟨S2000x34, .f32⟩
  | .local _ .vmem, ⟨2, _⟩ => ⟨S34x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256, .f32⟩
  | .local _ .vmem, ⟨8, _⟩ => ⟨S256, .f32⟩
  | .local _ .vmem, ⟨9, _⟩ => ⟨S256, .f32⟩
  | .local _ .vmem, ⟨10, _⟩ => ⟨S256, .f32⟩
  | .local _ .vmem, ⟨11, _⟩ => ⟨S256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S256x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S256, .f32⟩
  | .local _ .vmem, ⟨22, _⟩ => ⟨S256, .f32⟩
  | .local _ .vmem, ⟨23, _⟩ => ⟨S256, .f32⟩
  | .local _ .vmem, ⟨24, _⟩ => ⟨S256, .f32⟩
  | .local _ .vmem, ⟨25, _⟩ => ⟨S256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S256x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S128, .f32⟩
  | .local _ .vmem, ⟨36, _⟩ => ⟨S128, .f32⟩
  | .local _ .vmem, ⟨37, _⟩ => ⟨S128, .f32⟩
  | .local _ .vmem, ⟨38, _⟩ => ⟨S128, .f32⟩
  | .local _ .vmem, ⟨39, _⟩ => ⟨S128, .f32⟩
  | .local _ .vmem, ⟨40, _⟩ => ⟨S2000x128, .f32⟩
  | .local _ .vmem, ⟨41, _⟩ => ⟨S2000x128, .f32⟩
  | _, _ => ⟨S50000x34, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_cst : Ref sig .tc := ⟨.hbm, 42, rfl⟩
abbrev main_v7 : Ref sig .tc := ⟨.hbm, 43, rfl⟩
abbrev main_cst_0 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_cst_1 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_cst_2 : Ref sig .tc := ⟨.hbm, 52, rfl⟩
abbrev main_call0_v0 : Ref sig .tc := ⟨.hbm, 53, rfl⟩
abbrev main_call0_v1 : Ref sig .tc := ⟨.hbm, 54, rfl⟩
abbrev main_v14 : Ref sig .tc := ⟨.hbm, 55, rfl⟩
abbrev main_c : Ref sig .tc := ⟨.hbm, 56, rfl⟩
abbrev main_v15 : Ref sig .tc := ⟨.hbm, 57, rfl⟩
abbrev main_v16 : Ref sig .tc := ⟨.hbm, 58, rfl⟩
abbrev main_c_3 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_c_4 : Ref sig .tc := ⟨.hbm, 65, rfl⟩
abbrev main_v22 : Ref sig .tc := ⟨.hbm, 66, rfl⟩
abbrev main_v23 : Ref sig .tc := ⟨.hbm, 67, rfl⟩
abbrev main_c_5 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_c_6 : Ref sig .tc := ⟨.hbm, 76, rfl⟩
abbrev main_v31 : Ref sig .tc := ⟨.hbm, 77, rfl⟩
abbrev main_v32 : Ref sig .tc := ⟨.hbm, 78, rfl⟩
abbrev main_c_7 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_cst_8 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_c_9 : Ref sig .tc := ⟨.hbm, 94, rfl⟩
abbrev main_v46 : Ref sig .tc := ⟨.hbm, 95, rfl⟩
abbrev main_v47 : Ref sig .tc := ⟨.hbm, 96, rfl⟩
abbrev main_c_10 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_cst_11 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_c_12 : Ref sig .tc := ⟨.hbm, 112, rfl⟩
abbrev main_v61 : Ref sig .tc := ⟨.hbm, 113, rfl⟩
abbrev main_v62 : Ref sig .tc := ⟨.hbm, 114, rfl⟩
abbrev main_c_13 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_cst_14 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_cst_15 : Ref sig .tc := ⟨.hbm, 129, rfl⟩
abbrev main_v75 : Ref sig .tc := ⟨.hbm, 130, rfl⟩
abbrev main_cst_16 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_cst_17 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_cst_18 : Ref sig .tc := ⟨.hbm, 139, rfl⟩
abbrev main_call1_v0 : Ref sig .tc := ⟨.hbm, 140, rfl⟩
abbrev main_call1_v1 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_cst_19 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_call2_cst : Ref sig .tc := ⟨.hbm, 166, rfl⟩
abbrev main_call2_v0 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_cst_20 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_call3_cst : Ref sig .tc := ⟨.hbm, 189, rfl⟩
abbrev main_call3_v0 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg5_0 : Ref sig .tc := ⟨.vmem, 39, rfl⟩
abbrev cc5_stg6_0 : Ref sig .tc := ⟨.vmem, 40, rfl⟩
abbrev cc5_stg6_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem4_0 : DmaSem sig := 38
abbrev cc5_sem5_0 : DmaSem sig := 39
abbrev cc5_sem6_0 : DmaSem sig := 40
abbrev cc5_sem6_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x34 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S34x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x34_S2000x34_0_0 : ∀ a, (![0, 0] : Fin 2 → Nat) a + S2000x34.size a ≤ S2000x34.size a
  h_S2000x34 : 0 < S2000x34.numel
  bitsLt_bf16_f32 : FTy.bits .bf16 < FTy.bits .f32
  inb_S34x256_S34x256_0_0 : ∀ a, (![0, 0] : Fin 2 → Nat) a + S34x256.size a ≤ S34x256.size a
  h_S34x256 : 0 < S34x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S2000x256_S2000x256 : S2000x256.ShapeCasts S2000x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S2000x128_S2000x128 : S2000x128.ShapeCasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  bcast_S_S500 : S_.BroadcastsInDim S500 (![] : Fin 0 → Fin S500.rank)
  bcast_S50000_S50000x1_0 : S50000.BroadcastsInDim S50000x1 (![0] : Fin 1 → Fin S50000x1.rank)
  bcast_S_S500x128 : S_.BroadcastsInDim S500x128 (![] : Fin 0 → Fin S500x128.rank)
  bcast_S500_S500x1_0 : S500.BroadcastsInDim S500x1 (![0] : Fin 1 → Fin S500x1.rank)
  bcast_S500x1_S500x128_0_1 : S500x1.BroadcastsInDim S500x128 (![0, 1] : Fin 2 → Fin S500x128.rank)
  bcast_S128_S1x128_1 : S128.BroadcastsInDim S1x128 (![1] : Fin 1 → Fin S1x128.rank)
  bcast_S1x128_S500x128_0_1 : S1x128.BroadcastsInDim S500x128 (![0, 1] : Fin 2 → Fin S500x128.rank)
  bcast_S_S128 : S_.BroadcastsInDim S128 (![] : Fin 0 → Fin S128.rank)
  bcast_S64_S1x64_1 : S64.BroadcastsInDim S1x64 (![1] : Fin 1 → Fin S1x64.rank)
  bcast_S1x64_S500x64_0_1 : S1x64.BroadcastsInDim S500x64 (![0, 1] : Fin 2 → Fin S500x64.rank)
  bcast_S_S64 : S_.BroadcastsInDim S64 (![] : Fin 0 → Fin S64.rank)
  bcast_S_S500x64 : S_.BroadcastsInDim S500x64 (![] : Fin 0 → Fin S500x64.rank)
  bcast_S4_S1x4_1 : S4.BroadcastsInDim S1x4 (![1] : Fin 1 → Fin S1x4.rank)
  bcast_S1x4_S500x4_0_1 : S1x4.BroadcastsInDim S500x4 (![0, 1] : Fin 2 → Fin S500x4.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x34_S34x256_S2000x256_1_0_0_1_n_n_wf : DotDims.WF S2000x34 S34x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S500_S50000x1_S50000_n_0_0_1_wf : ScatterDims.WF S500 S50000x1 S50000 [] [0] [0] 1
  scatter_S500x128_S50000x1_S50000x128_1_0_0_1_wf : ScatterDims.WF S500x128 S50000x1 S50000x128 [1] [0] [0] 1
  dot_S500x128_S128x128_S500x128_1_0_0_1_n_n_wf : DotDims.WF S500x128 S128x128 S500x128 [1] [0] [0] [1] [] []
  dot_S500x128_S128x64_S500x64_1_0_0_1_n_n_wf : DotDims.WF S500x128 S128x64 S500x64 [1] [0] [0] [1] [] []
  dot_S500x64_S64x4_S500x4_1_0_0_1_n_n_wf : DotDims.WF S500x64 S64x4 S500x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x34.size a ≤ S50000x34.size a
  hwx0_0 : ∀ i : grid0.Coords, EltTy.bits .f32 = 32 ∨ (Rect.block (s := S50000x34) S2000x34.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S34x256.size a ≤ S34x256.size a
  hwx0_1 : ∀ i : grid0.Coords, EltTy.bits .f32 = 32 ∨ (Rect.block (s := S34x256) S34x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256.size a ≤ S256.size a
  hwx1_1 : ∀ i : grid1.Coords, EltTy.bits .f32 = 32 ∨ (Rect.block (s := S256) S256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .f32 = 32 ∨ (Rect.block (s := S50000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256.size a ≤ S256.size a
  hwx3_1 : ∀ i : grid3.Coords, EltTy.bits .f32 = 32 ∨ (Rect.block (s := S256) S256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256.size a ≤ S256.size a
  hwx3_2 : ∀ i : grid3.Coords, EltTy.bits .f32 = 32 ∨ (Rect.block (s := S256) S256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256.size a ≤ S256.size a
  hwx3_3 : ∀ i : grid3.Coords, EltTy.bits .f32 = 32 ∨ (Rect.block (s := S256) S256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256.size a ≤ S256.size a
  hwx3_4 : ∀ i : grid3.Coords, EltTy.bits .f32 = 32 ∨ (Rect.block (s := S256) S256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256.size a ≤ S256.size a
  hwx3_5 : ∀ i : grid3.Coords, EltTy.bits .f32 = 32 ∨ (Rect.block (s := S256) S256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x256.size a ≤ S50000x256.size a
  hwx3_6 : ∀ i : grid3.Coords, EltTy.bits .f32 = 32 ∨ (Rect.block (s := S50000x256) S2000x256.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128.size a ≤ S128.size a
  hwx5_1 : ∀ i : grid5.Coords, EltTy.bits .f32 = 32 ∨ (Rect.block (s := S128) S128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128.size a ≤ S128.size a
  hwx5_5 : ∀ i : grid5.Coords, EltTy.bits .f32 = 32 ∨ (Rect.block (s := S128) S128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x128.size a ≤ S50000x128.size a
  hwx5_6 : ∀ i : grid5.Coords, EltTy.bits .f32 = 32 ∨ (Rect.block (s := S50000x128) S2000x128.size (cc5_transform_6 i) (hinb5_6 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x34_S34x256_S2000x256_1_0_0_1_n_n : DotDims S2000x34 S34x256 S2000x256 where
  lhsContracting := [1]
  rhsContracting := [0]
  lhsNonContracting := [0]
  rhsNonContracting := [1]
  lhsBatch := []
  rhsBatch := []
  wf := dot_S2000x34_S34x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf
def dot_S500x128_S128x128_S500x128_1_0_0_1_n_n : DotDims S500x128 S128x128 S500x128 where
  lhsContracting := [1]
  rhsContracting := [0]
  lhsNonContracting := [0]
  rhsNonContracting := [1]
  lhsBatch := []
  rhsBatch := []
  wf := dot_S500x128_S128x128_S500x128_1_0_0_1_n_n_wf
def dot_S500x128_S128x64_S500x64_1_0_0_1_n_n : DotDims S500x128 S128x64 S500x64 where
  lhsContracting := [1]
  rhsContracting := [0]
  lhsNonContracting := [0]
  rhsNonContracting := [1]
  lhsBatch := []
  rhsBatch := []
  wf := dot_S500x128_S128x64_S500x64_1_0_0_1_n_n_wf
def dot_S500x64_S64x4_S500x4_1_0_0_1_n_n : DotDims S500x64 S64x4 S500x4 where
  lhsContracting := [1]
  rhsContracting := [0]
  lhsNonContracting := [0]
  rhsNonContracting := [1]
  lhsBatch := []
  rhsBatch := []
  wf := dot_S500x64_S64x4_S500x4_1_0_0_1_n_n_wf

abbrev win0_0 : Pipeline.Window sig grid0 :=
  Pipeline.Window.ofSpec (Memref.whole main_arg0) S2000x34.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S34x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v44) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg13) S256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg14) S256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg15) S256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg16) S256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v59) S2000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v59) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg17) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg18) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg19) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg20) S128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v74) S2000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S50000x34 : Shape := ⟨2, ![50000, 34]⟩
abbrev S2x800000 : Shape := ⟨2, ![2, 800000]⟩
abbrev S50000 : Shape := ⟨1, ![50000]⟩
abbrev S34x256 : Shape := ⟨2, ![34, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S64 : Shape := ⟨1, ![64]⟩
abbrev S128x128 : Shape := ⟨2, ![128, 128]⟩
abbrev S128x64 : Shape := ⟨2, ![128, 64]⟩
abbrev S64x4 : Shape := ⟨2, ![64, 4]⟩
abbrev S4 : Shape := ⟨1, ![4]⟩
abbrev S1x800000 : Shape := ⟨2, ![1, 800000]⟩
abbrev S800000 : Shape := ⟨1, ![800000]⟩
abbrev S850000 : Shape := ⟨1, ![850000]⟩
abbrev S50000x256 : Shape := ⟨2, ![50000, 256]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩
abbrev S500 : Shape := ⟨1, ![500]⟩
abbrev S50000x1 : Shape := ⟨2, ![50000, 1]⟩
abbrev S500x128 : Shape := ⟨2, ![500, 128]⟩
abbrev S500x1 : Shape := ⟨2, ![500, 1]⟩
abbrev S500x64 : Shape := ⟨2, ![500, 64]⟩
abbrev S1x64 : Shape := ⟨2, ![1, 64]⟩
abbrev S500x4 : Shape := ⟨2, ![500, 4]⟩
abbrev S1x4 : Shape := ⟨2, ![1, 4]⟩

abbrev nBuf : Space → Nat
  | .hbm => 325
  | .vmem => 0
  | .smem => 0
  | _ => 0

abbrev hbmTy0_0 (i : Nat) : BufTy := match i % 128 with
  | 0 => ⟨S50000x34, .f32⟩
  | 1 => ⟨S2x800000, .i32⟩
  | 2 => ⟨S50000, .i32⟩
  | 3 => ⟨S34x256, .f32⟩
  | 4 => ⟨S256, .f32⟩
  | 5 => ⟨S256x256, .f32⟩
  | 6 => ⟨S256, .f32⟩
  | 7 => ⟨S256x128, .f32⟩
  | 8 => ⟨S128, .f32⟩
  | 9 => ⟨S256, .f32⟩
  | 10 => ⟨S256, .f32⟩
  | 11 => ⟨S256, .f32⟩
  | 12 => ⟨S256, .f32⟩
  | 13 => ⟨S256, .f32⟩
  | 14 => ⟨S256, .f32⟩
  | 15 => ⟨S256, .f32⟩
  | 16 => ⟨S256, .f32⟩
  | 17 => ⟨S128, .f32⟩
  | 18 => ⟨S128, .f32⟩
  | 19 => ⟨S128, .f32⟩
  | 20 => ⟨S128, .f32⟩
  | 21 => ⟨S128, .f32⟩
  | 22 => ⟨S128, .f32⟩
  | 23 => ⟨S128, .f32⟩
  | 24 => ⟨S128, .f32⟩
  | 25 => ⟨S64, .f32⟩
  | 26 => ⟨S64, .f32⟩
  | 27 => ⟨S64, .f32⟩
  | 28 => ⟨S64, .f32⟩
  | 29 => ⟨S128x128, .f32⟩
  | 30 => ⟨S128, .f32⟩
  | 31 => ⟨S128x64, .f32⟩
  | 32 => ⟨S64, .f32⟩
  | 33 => ⟨S64x4, .f32⟩
  | 34 => ⟨S4, .f32⟩
  | 35 => ⟨S50000, .i32⟩
  | 36 => ⟨S1x800000, .i32⟩
  | 37 => ⟨S800000, .i32⟩
  | 38 => ⟨S850000, .i32⟩
  | 39 => ⟨S1x800000, .i32⟩
  | 40 => ⟨S800000, .i32⟩
  | 41 => ⟨S850000, .i32⟩
  | 42 => ⟨S50000x256, .f32⟩
  | 43 => ⟨S_, .f32⟩
  | 44 => ⟨S850000, .f32⟩
  | 45 => ⟨S_, .f32⟩
  | 46 => ⟨S50000, .f32⟩
  | 47 => ⟨S850000x1, .i32⟩
  | 48 => ⟨S50000, .f32⟩
  | 49 => ⟨S_, .f32⟩
  | 50 => ⟨S50000, .f32⟩
  | 51 => ⟨S50000, .i1⟩
  | 52 => ⟨S50000, .f32⟩
  | 53 => ⟨S_, .f32⟩
  | 54 => ⟨S_, .f32⟩
  | 55 => ⟨S50000, .f32⟩
  | 56 => ⟨S50000, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000, .f32⟩
  | 66 => ⟨S_, .i32⟩
  | 67 => ⟨S850000, .i32⟩
  | 68 => ⟨S850000, .i1⟩
  | 69 => ⟨S_, .i32⟩
  | 70 => ⟨S850000, .i32⟩
  | 71 => ⟨S850000, .i32⟩
  | 72 => ⟨S850000, .i32⟩
  | 73 => ⟨S850000x1, .i32⟩
  | 74 => ⟨S850000, .f32⟩
  | 75 => ⟨S850000, .f32⟩
  | 76 => ⟨S_, .i32⟩
  | 77 => ⟨S850000, .i32⟩
  | 78 => ⟨S850000, .i1⟩
  | 79 => ⟨S_, .i32⟩
  | 80 => ⟨S850000, .i32⟩
  | 81 => ⟨S850000, .i32⟩
  | 82 => ⟨S850000, .i32⟩
  | 83 => ⟨S850000x1, .i32⟩
  | 84 => ⟨S850000x256, .f32⟩
  | 85 => ⟨S850000x1, .f32⟩
  | 86 => ⟨S850000x256, .f32⟩
  | 87 => ⟨S850000x256, .f32⟩
  | 88 => ⟨S_, .f32⟩
  | 89 => ⟨S50000x256, .f32⟩
  | 90 => ⟨S850000x1, .i32⟩
  | 91 => ⟨S50000x256, .f32⟩
  | 92 => ⟨S1x256, .f32⟩
  | 93 => ⟨S50000x256, .f32⟩
  | 94 => ⟨S50000x256, .f32⟩
  | 95 => ⟨S1x256, .f32⟩
  | 96 => ⟨S50000x256, .f32⟩
  | 97 => ⟨S50000x256, .f32⟩
  | 98 => ⟨S_, .f32⟩
  | 99 => ⟨S256, .f32⟩
  | 100 => ⟨S256, .f32⟩
  | 101 => ⟨S256, .f32⟩
  | 102 => ⟨S1x256, .f32⟩
  | 103 => ⟨S50000x256, .f32⟩
  | 104 => ⟨S50000x256, .f32⟩
  | 105 => ⟨S1x256, .f32⟩
  | 106 => ⟨S50000x256, .f32⟩
  | 107 => ⟨S50000x256, .f32⟩
  | 108 => ⟨S1x256, .f32⟩
  | 109 => ⟨S50000x256, .f32⟩
  | 110 => ⟨S50000x256, .f32⟩
  | 111 => ⟨S_, .f32⟩
  | 112 => ⟨S50000x256, .f32⟩
  | 113 => ⟨S50000x256, .f32⟩
  | 114 => ⟨S50000x256, .f32⟩
  | 115 => ⟨S_, .f32⟩
  | 116 => ⟨S850000, .f32⟩
  | 117 => ⟨S_, .f32⟩
  | 118 => ⟨S50000, .f32⟩
  | 119 => ⟨S850000x1, .i32⟩
  | 120 => ⟨S50000, .f32⟩
  | 121 => ⟨S_, .f32⟩
  | 122 => ⟨S50000, .f32⟩
  | 123 => ⟨S50000, .i1⟩
  | 124 => ⟨S50000, .f32⟩
  | 125 => ⟨S_, .f32⟩
  | 126 => ⟨S_, .f32⟩
  | 127 => ⟨S50000, .f32⟩
  | _ => ⟨S50000x34, .f32⟩

abbrev hbmTy0_1 (i : Nat) : BufTy := match i % 128 with
  | 0 => ⟨S50000, .f32⟩
  | 1 => ⟨S_, .i32⟩
  | 2 => ⟨S850000, .i32⟩
  | 3 => ⟨S850000, .i1⟩
  | 4 => ⟨S_, .i32⟩
  | 5 => ⟨S850000, .i32⟩
  | 6 => ⟨S850000, .i32⟩
  | 7 => ⟨S850000, .i32⟩
  | 8 => ⟨S850000x1, .i32⟩
  | 9 => ⟨S850000, .f32⟩
  | 10 => ⟨S_, .i32⟩
  | 11 => ⟨S850000, .i32⟩
  | 12 => ⟨S850000, .i1⟩
  | 13 => ⟨S_, .i32⟩
  | 14 => ⟨S850000, .i32⟩
  | 15 => ⟨S850000, .i32⟩
  | 16 => ⟨S850000, .i32⟩
  | 17 => ⟨S850000x1, .i32⟩
  | 18 => ⟨S850000, .f32⟩
  | 19 => ⟨S850000, .f32⟩
  | 20 => ⟨S_, .i32⟩
  | 21 => ⟨S850000, .i32⟩
  | 22 => ⟨S850000, .i1⟩
  | 23 => ⟨S_, .i32⟩
  | 24 => ⟨S850000, .i32⟩
  | 25 => ⟨S850000, .i32⟩
  | 26 => ⟨S850000, .i32⟩
  | 27 => ⟨S850000x1, .i32⟩
  | 28 => ⟨S850000x256, .f32⟩
  | 29 => ⟨S850000x1, .f32⟩
  | 30 => ⟨S850000x256, .f32⟩
  | 31 => ⟨S850000x256, .f32⟩
  | 32 => ⟨S_, .f32⟩
  | 33 => ⟨S50000x256, .f32⟩
  | 34 => ⟨S850000x1, .i32⟩
  | 35 => ⟨S50000x256, .f32⟩
  | 36 => ⟨S1x256, .f32⟩
  | 37 => ⟨S50000x256, .f32⟩
  | 38 => ⟨S50000x256, .f32⟩
  | 39 => ⟨S1x256, .f32⟩
  | 40 => ⟨S50000x256, .f32⟩
  | 41 => ⟨S50000x256, .f32⟩
  | 42 => ⟨S_, .f32⟩
  | 43 => ⟨S256, .f32⟩
  | 44 => ⟨S256, .f32⟩
  | 45 => ⟨S256, .f32⟩
  | 46 => ⟨S1x256, .f32⟩
  | 47 => ⟨S50000x256, .f32⟩
  | 48 => ⟨S50000x256, .f32⟩
  | 49 => ⟨S1x256, .f32⟩
  | 50 => ⟨S50000x256, .f32⟩
  | 51 => ⟨S50000x256, .f32⟩
  | 52 => ⟨S1x256, .f32⟩
  | 53 => ⟨S50000x256, .f32⟩
  | 54 => ⟨S50000x256, .f32⟩
  | 55 => ⟨S_, .f32⟩
  | 56 => ⟨S50000x256, .f32⟩
  | 57 => ⟨S50000x256, .f32⟩
  | 58 => ⟨S50000x128, .f32⟩
  | 59 => ⟨S_, .f32⟩
  | 60 => ⟨S850000, .f32⟩
  | 61 => ⟨S_, .f32⟩
  | 62 => ⟨S50000, .f32⟩
  | 63 => ⟨S850000x1, .i32⟩
  | 64 => ⟨S50000, .f32⟩
  | 65 => ⟨S_, .f32⟩
  | 66 => ⟨S50000, .f32⟩
  | 67 => ⟨S50000, .i1⟩
  | 68 => ⟨S50000, .f32⟩
  | 69 => ⟨S_, .f32⟩
  | 70 => ⟨S_, .f32⟩
  | 71 => ⟨S50000, .f32⟩
  | 72 => ⟨S50000, .f32⟩
  | 73 => ⟨S_, .i32⟩
  | 74 => ⟨S850000, .i32⟩
  | 75 => ⟨S850000, .i1⟩
  | 76 => ⟨S_, .i32⟩
  | 77 => ⟨S850000, .i32⟩
  | 78 => ⟨S850000, .i32⟩
  | 79 => ⟨S850000, .i32⟩
  | 80 => ⟨S850000x1, .i32⟩
  | 81 => ⟨S850000, .f32⟩
  | 82 => ⟨S_, .i32⟩
  | 83 => ⟨S850000, .i32⟩
  | 84 => ⟨S850000, .i1⟩
  | 85 => ⟨S_, .i32⟩
  | 86 => ⟨S850000, .i32⟩
  | 87 => ⟨S850000, .i32⟩
  | 88 => ⟨S850000, .i32⟩
  | 89 => ⟨S850000x1, .i32⟩
  | 90 => ⟨S850000, .f32⟩
  | 91 => ⟨S850000, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000x128, .f32⟩
  | 101 => ⟨S850000x1, .f32⟩
  | 102 => ⟨S850000x128, .f32⟩
  | 103 => ⟨S850000x128, .f32⟩
  | 104 => ⟨S_, .f32⟩
  | 105 => ⟨S50000x128, .f32⟩
  | 106 => ⟨S850000x1, .i32⟩
  | 107 => ⟨S50000x128, .f32⟩
  | 108 => ⟨S1x128, .f32⟩
  | 109 => ⟨S50000x128, .f32⟩
  | 110 => ⟨S50000x128, .f32⟩
  | 111 => ⟨S1x128, .f32⟩
  | 112 => ⟨S50000x128, .f32⟩
  | 113 => ⟨S50000x128, .f32⟩
  | 114 => ⟨S_, .f32⟩
  | 115 => ⟨S128, .f32⟩
  | 116 => ⟨S128, .f32⟩
  | 117 => ⟨S128, .f32⟩
  | 118 => ⟨S1x128, .f32⟩
  | 119 => ⟨S50000x128, .f32⟩
  | 120 => ⟨S50000x128, .f32⟩
  | 121 => ⟨S1x128, .f32⟩
  | 122 => ⟨S50000x128, .f32⟩
  | 123 => ⟨S50000x128, .f32⟩
  | 124 => ⟨S1x128, .f32⟩
  | 125 => ⟨S50000x128, .f32⟩
  | 126 => ⟨S50000x128, .f32⟩
  | 127 => ⟨S_, .f32⟩
  | _ => ⟨S50000x34, .f32⟩

abbrev hbmTy0_2 (i : Nat) : BufTy := match i % 128 with
  | 0 => ⟨S50000x128, .f32⟩
  | 1 => ⟨S50000x128, .f32⟩
  | 2 => ⟨S_, .f32⟩
  | 3 => ⟨S50000, .f32⟩
  | 4 => ⟨S_, .f32⟩
  | 5 => ⟨S500, .f32⟩
  | 6 => ⟨S50000x1, .i32⟩
  | 7 => ⟨S500, .f32⟩
  | 8 => ⟨S_, .f32⟩
  | 9 => ⟨S500x128, .f32⟩
  | 10 => ⟨S50000x1, .i32⟩
  | 11 => ⟨S500x128, .f32⟩
  | 12 => ⟨S_, .f32⟩
  | 13 => ⟨S_, .f32⟩
  | 14 => ⟨S500, .f32⟩
  | 15 => ⟨S500, .f32⟩
  | 16 => ⟨S500x1, .f32⟩
  | 17 => ⟨S500x128, .f32⟩
  | 18 => ⟨S500x128, .f32⟩
  | 19 => ⟨S500x128, .f32⟩
  | 20 => ⟨S1x128, .f32⟩
  | 21 => ⟨S500x128, .f32⟩
  | 22 => ⟨S500x128, .f32⟩
  | 23 => ⟨S1x128, .f32⟩
  | 24 => ⟨S500x128, .f32⟩
  | 25 => ⟨S500x128, .f32⟩
  | 26 => ⟨S_, .f32⟩
  | 27 => ⟨S128, .f32⟩
  | 28 => ⟨S128, .f32⟩
  | 29 => ⟨S128, .f32⟩
  | 30 => ⟨S1x128, .f32⟩
  | 31 => ⟨S500x128, .f32⟩
  | 32 => ⟨S500x128, .f32⟩
  | 33 => ⟨S1x128, .f32⟩
  | 34 => ⟨S500x128, .f32⟩
  | 35 => ⟨S500x128, .f32⟩
  | 36 => ⟨S1x128, .f32⟩
  | 37 => ⟨S500x128, .f32⟩
  | 38 => ⟨S500x128, .f32⟩
  | 39 => ⟨S_, .f32⟩
  | 40 => ⟨S500x128, .f32⟩
  | 41 => ⟨S500x128, .f32⟩
  | 42 => ⟨S500x64, .f32⟩
  | 43 => ⟨S1x64, .f32⟩
  | 44 => ⟨S500x64, .f32⟩
  | 45 => ⟨S500x64, .f32⟩
  | 46 => ⟨S1x64, .f32⟩
  | 47 => ⟨S500x64, .f32⟩
  | 48 => ⟨S500x64, .f32⟩
  | 49 => ⟨S_, .f32⟩
  | 50 => ⟨S64, .f32⟩
  | 51 => ⟨S64, .f32⟩
  | 52 => ⟨S64, .f32⟩
  | 53 => ⟨S1x64, .f32⟩
  | 54 => ⟨S500x64, .f32⟩
  | 55 => ⟨S500x64, .f32⟩
  | 56 => ⟨S1x64, .f32⟩
  | 57 => ⟨S500x64, .f32⟩
  | 58 => ⟨S500x64, .f32⟩
  | 59 => ⟨S1x64, .f32⟩
  | 60 => ⟨S500x64, .f32⟩
  | 61 => ⟨S500x64, .f32⟩
  | 62 => ⟨S_, .f32⟩
  | 63 => ⟨S500x64, .f32⟩
  | 64 => ⟨S500x64, .f32⟩
  | 65 => ⟨S500x4, .f32⟩
  | 66 => ⟨S1x4, .f32⟩
  | 67 => ⟨S500x4, .f32⟩
  | 68 => ⟨S500x4, .f32⟩
  | _ => ⟨S50000x34, .f32⟩

abbrev hbmTy (i : Nat) : BufTy := match i / 128 with
  | 0 => hbmTy0_0 i
  | 1 => hbmTy0_1 i
  | 2 => hbmTy0_2 i
  | _ => ⟨S50000x34, .f32⟩

abbrev bufTy : (tb : Table) → Fin (tcTables nBuf tb) → BufTy
  | .hbm, ⟨i, _⟩ => hbmTy i
  | _, _ => ⟨S50000x34, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst : Ref sig .tc := ⟨.hbm, 43, rfl⟩
abbrev main_v8 : Ref sig .tc := ⟨.hbm, 44, rfl⟩
abbrev main_cst_0 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_cst_1 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_cst_2 : Ref sig .tc := ⟨.hbm, 53, rfl⟩
abbrev main_call0_v0 : Ref sig .tc := ⟨.hbm, 54, rfl⟩
abbrev main_call0_v1 : Ref sig .tc := ⟨.hbm, 55, rfl⟩
abbrev main_v15 : Ref sig .tc := ⟨.hbm, 56, rfl⟩
abbrev main_c : Ref sig .tc := ⟨.hbm, 57, rfl⟩
abbrev main_v16 : Ref sig .tc := ⟨.hbm, 58, rfl⟩
abbrev main_v17 : Ref sig .tc := ⟨.hbm, 59, rfl⟩
abbrev main_c_3 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_c_4 : Ref sig .tc := ⟨.hbm, 66, rfl⟩
abbrev main_v23 : Ref sig .tc := ⟨.hbm, 67, rfl⟩
abbrev main_v24 : Ref sig .tc := ⟨.hbm, 68, rfl⟩
abbrev main_c_5 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_c_6 : Ref sig .tc := ⟨.hbm, 76, rfl⟩
abbrev main_v31 : Ref sig .tc := ⟨.hbm, 77, rfl⟩
abbrev main_v32 : Ref sig .tc := ⟨.hbm, 78, rfl⟩
abbrev main_c_7 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_cst_8 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_cst_9 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_call1_cst : Ref sig .tc := ⟨.hbm, 111, rfl⟩
abbrev main_call1_v0 : Ref sig .tc := ⟨.hbm, 112, rfl⟩
abbrev main_v62 : Ref sig .tc := ⟨.hbm, 113, rfl⟩
abbrev main_v63 : Ref sig .tc := ⟨.hbm, 114, rfl⟩
abbrev main_cst_10 : Ref sig .tc := ⟨.hbm, 115, rfl⟩
abbrev main_v64 : Ref sig .tc := ⟨.hbm, 116, rfl⟩
abbrev main_cst_11 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_cst_12 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_cst_13 : Ref sig .tc := ⟨.hbm, 125, rfl⟩
abbrev main_call2_v0 : Ref sig .tc := ⟨.hbm, 126, rfl⟩
abbrev main_call2_v1 : Ref sig .tc := ⟨.hbm, 127, rfl⟩
abbrev main_v71 : Ref sig .tc := ⟨.hbm, 128, rfl⟩
abbrev main_c_14 : Ref sig .tc := ⟨.hbm, 129, rfl⟩
abbrev main_v72 : Ref sig .tc := ⟨.hbm, 130, rfl⟩
abbrev main_v73 : Ref sig .tc := ⟨.hbm, 131, rfl⟩
abbrev main_c_15 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_c_16 : Ref sig .tc := ⟨.hbm, 138, rfl⟩
abbrev main_v79 : Ref sig .tc := ⟨.hbm, 139, rfl⟩
abbrev main_v80 : Ref sig .tc := ⟨.hbm, 140, rfl⟩
abbrev main_c_17 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_c_18 : Ref sig .tc := ⟨.hbm, 148, rfl⟩
abbrev main_v87 : Ref sig .tc := ⟨.hbm, 149, rfl⟩
abbrev main_v88 : Ref sig .tc := ⟨.hbm, 150, rfl⟩
abbrev main_c_19 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_cst_20 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_cst_21 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_call3_cst : Ref sig .tc := ⟨.hbm, 183, rfl⟩
abbrev main_call3_v0 : Ref sig .tc := ⟨.hbm, 184, rfl⟩
abbrev main_v118 : Ref sig .tc := ⟨.hbm, 185, rfl⟩
abbrev main_v119 : Ref sig .tc := ⟨.hbm, 186, rfl⟩
abbrev main_cst_22 : Ref sig .tc := ⟨.hbm, 187, rfl⟩
abbrev main_v120 : Ref sig .tc := ⟨.hbm, 188, rfl⟩
abbrev main_cst_23 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_cst_24 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_cst_25 : Ref sig .tc := ⟨.hbm, 197, rfl⟩
abbrev main_call4_v0 : Ref sig .tc := ⟨.hbm, 198, rfl⟩
abbrev main_call4_v1 : Ref sig .tc := ⟨.hbm, 199, rfl⟩
abbrev main_v127 : Ref sig .tc := ⟨.hbm, 200, rfl⟩
abbrev main_c_26 : Ref sig .tc := ⟨.hbm, 201, rfl⟩
abbrev main_v128 : Ref sig .tc := ⟨.hbm, 202, rfl⟩
abbrev main_v129 : Ref sig .tc := ⟨.hbm, 203, rfl⟩
abbrev main_c_27 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_c_28 : Ref sig .tc := ⟨.hbm, 210, rfl⟩
abbrev main_v135 : Ref sig .tc := ⟨.hbm, 211, rfl⟩
abbrev main_v136 : Ref sig .tc := ⟨.hbm, 212, rfl⟩
abbrev main_c_29 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_c_30 : Ref sig .tc := ⟨.hbm, 220, rfl⟩
abbrev main_v143 : Ref sig .tc := ⟨.hbm, 221, rfl⟩
abbrev main_v144 : Ref sig .tc := ⟨.hbm, 222, rfl⟩
abbrev main_c_31 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_cst_32 : Ref sig .tc := ⟨.hbm, 232, rfl⟩
abbrev main_v153 : Ref sig .tc := ⟨.hbm, 233, rfl⟩
abbrev main_v154 : Ref sig .tc := ⟨.hbm, 234, rfl⟩
abbrev main_v155 : Ref sig .tc := ⟨.hbm, 235, rfl⟩
abbrev main_v156 : Ref sig .tc := ⟨.hbm, 236, rfl⟩
abbrev main_v157 : Ref sig .tc := ⟨.hbm, 237, rfl⟩
abbrev main_v158 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_cst_33 : Ref sig .tc := ⟨.hbm, 242, rfl⟩
abbrev main_v162 : Ref sig .tc := ⟨.hbm, 243, rfl⟩
abbrev main_v163 : Ref sig .tc := ⟨.hbm, 244, rfl⟩
abbrev main_v164 : Ref sig .tc := ⟨.hbm, 245, rfl⟩
abbrev main_v165 : Ref sig .tc := ⟨.hbm, 246, rfl⟩
abbrev main_v166 : Ref sig .tc := ⟨.hbm, 247, rfl⟩
abbrev main_v167 : Ref sig .tc := ⟨.hbm, 248, rfl⟩
abbrev main_v168 : Ref sig .tc := ⟨.hbm, 249, rfl⟩
abbrev main_v169 : Ref sig .tc := ⟨.hbm, 250, rfl⟩
abbrev main_v170 : Ref sig .tc := ⟨.hbm, 251, rfl⟩
abbrev main_v171 : Ref sig .tc := ⟨.hbm, 252, rfl⟩
abbrev main_v172 : Ref sig .tc := ⟨.hbm, 253, rfl⟩
abbrev main_v173 : Ref sig .tc := ⟨.hbm, 254, rfl⟩
abbrev main_call5_cst : Ref sig .tc := ⟨.hbm, 255, rfl⟩
abbrev main_call5_v0 : Ref sig .tc := ⟨.hbm, 256, rfl⟩
abbrev main_v174 : Ref sig .tc := ⟨.hbm, 257, rfl⟩
abbrev main_cst_34 : Ref sig .tc := ⟨.hbm, 258, rfl⟩
abbrev main_v175 : Ref sig .tc := ⟨.hbm, 259, rfl⟩
abbrev main_cst_35 : Ref sig .tc := ⟨.hbm, 260, rfl⟩
abbrev main_v176 : Ref sig .tc := ⟨.hbm, 261, rfl⟩
abbrev main_v177 : Ref sig .tc := ⟨.hbm, 262, rfl⟩
abbrev main_v178 : Ref sig .tc := ⟨.hbm, 263, rfl⟩
abbrev main_cst_36 : Ref sig .tc := ⟨.hbm, 264, rfl⟩
abbrev main_v179 : Ref sig .tc := ⟨.hbm, 265, rfl⟩
abbrev main_v180 : Ref sig .tc := ⟨.hbm, 266, rfl⟩
abbrev main_v181 : Ref sig .tc := ⟨.hbm, 267, rfl⟩
abbrev main_cst_37 : Ref sig .tc := ⟨.hbm, 268, rfl⟩
abbrev main_call6_v0 : Ref sig .tc := ⟨.hbm, 269, rfl⟩
abbrev main_call6_v1 : Ref sig .tc := ⟨.hbm, 270, rfl⟩
abbrev main_v182 : Ref sig .tc := ⟨.hbm, 271, rfl⟩
abbrev main_v183 : Ref sig .tc := ⟨.hbm, 272, rfl⟩
abbrev main_v184 : Ref sig .tc := ⟨.hbm, 273, rfl⟩
abbrev main_v185 : Ref sig .tc := ⟨.hbm, 274, rfl⟩
abbrev main_v186 : Ref sig .tc := ⟨.hbm, 275, rfl⟩
abbrev main_v187 : Ref sig .tc := ⟨.hbm, 276, rfl⟩
abbrev main_v188 : Ref sig .tc := ⟨.hbm, 277, rfl⟩
abbrev main_v189 : Ref sig .tc := ⟨.hbm, 278, rfl⟩
abbrev main_v190 : Ref sig .tc := ⟨.hbm, 279, rfl⟩
abbrev main_v191 : Ref sig .tc := ⟨.hbm, 280, rfl⟩
abbrev main_v192 : Ref sig .tc := ⟨.hbm, 281, rfl⟩
abbrev main_cst_38 : Ref sig .tc := ⟨.hbm, 282, rfl⟩
abbrev main_v193 : Ref sig .tc := ⟨.hbm, 283, rfl⟩
abbrev main_v194 : Ref sig .tc := ⟨.hbm, 284, rfl⟩
abbrev main_v195 : Ref sig .tc := ⟨.hbm, 285, rfl⟩
abbrev main_v196 : Ref sig .tc := ⟨.hbm, 286, rfl⟩
abbrev main_v197 : Ref sig .tc := ⟨.hbm, 287, rfl⟩
abbrev main_v198 : Ref sig .tc := ⟨.hbm, 288, rfl⟩
abbrev main_v199 : Ref sig .tc := ⟨.hbm, 289, rfl⟩
abbrev main_v200 : Ref sig .tc := ⟨.hbm, 290, rfl⟩
abbrev main_v201 : Ref sig .tc := ⟨.hbm, 291, rfl⟩
abbrev main_v202 : Ref sig .tc := ⟨.hbm, 292, rfl⟩
abbrev main_v203 : Ref sig .tc := ⟨.hbm, 293, rfl⟩
abbrev main_v204 : Ref sig .tc := ⟨.hbm, 294, rfl⟩
abbrev main_call7_cst : Ref sig .tc := ⟨.hbm, 295, rfl⟩
abbrev main_call7_v0 : Ref sig .tc := ⟨.hbm, 296, rfl⟩
abbrev main_v205 : Ref sig .tc := ⟨.hbm, 297, rfl⟩
abbrev main_v206 : Ref sig .tc := ⟨.hbm, 298, rfl⟩
abbrev main_v207 : Ref sig .tc := ⟨.hbm, 299, rfl⟩
abbrev main_v208 : Ref sig .tc := ⟨.hbm, 300, rfl⟩
abbrev main_v209 : Ref sig .tc := ⟨.hbm, 301, rfl⟩
abbrev main_v210 : Ref sig .tc := ⟨.hbm, 302, rfl⟩
abbrev main_v211 : Ref sig .tc := ⟨.hbm, 303, rfl⟩
abbrev main_v212 : Ref sig .tc := ⟨.hbm, 304, rfl⟩
abbrev main_cst_39 : Ref sig .tc := ⟨.hbm, 305, rfl⟩
abbrev main_v213 : Ref sig .tc := ⟨.hbm, 306, rfl⟩
abbrev main_v214 : Ref sig .tc := ⟨.hbm, 307, rfl⟩
abbrev main_v215 : Ref sig .tc := ⟨.hbm, 308, rfl⟩
abbrev main_v216 : Ref sig .tc := ⟨.hbm, 309, rfl⟩
abbrev main_v217 : Ref sig .tc := ⟨.hbm, 310, rfl⟩
abbrev main_v218 : Ref sig .tc := ⟨.hbm, 311, rfl⟩
abbrev main_v219 : Ref sig .tc := ⟨.hbm, 312, rfl⟩
abbrev main_v220 : Ref sig .tc := ⟨.hbm, 313, rfl⟩
abbrev main_v221 : Ref sig .tc := ⟨.hbm, 314, rfl⟩
abbrev main_v222 : Ref sig .tc := ⟨.hbm, 315, rfl⟩
abbrev main_v223 : Ref sig .tc := ⟨.hbm, 316, rfl⟩
abbrev main_v224 : Ref sig .tc := ⟨.hbm, 317, rfl⟩
abbrev main_call8_cst : Ref sig .tc := ⟨.hbm, 318, rfl⟩
abbrev main_call8_v0 : Ref sig .tc := ⟨.hbm, 319, rfl⟩
abbrev main_v225 : Ref sig .tc := ⟨.hbm, 320, rfl⟩
abbrev main_v226 : Ref sig .tc := ⟨.hbm, 321, rfl⟩
abbrev main_v227 : Ref sig .tc := ⟨.hbm, 322, rfl⟩
abbrev main_v228 : Ref sig .tc := ⟨.hbm, 323, rfl⟩
abbrev main_v229 : Ref sig .tc := ⟨.hbm, 324, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256 : S_.BroadcastsInDim S256 (![] : Fin 0 → Fin S256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S_S500 : S_.BroadcastsInDim S500 (![] : Fin 0 → Fin S500.rank)
  bcast_S50000_S50000x1_0 : S50000.BroadcastsInDim S50000x1 (![0] : Fin 1 → Fin S50000x1.rank)
  bcast_S_S500x128 : S_.BroadcastsInDim S500x128 (![] : Fin 0 → Fin S500x128.rank)
  bcast_S500_S500x1_0 : S500.BroadcastsInDim S500x1 (![0] : Fin 1 → Fin S500x1.rank)
  bcast_S500x1_S500x128_0_1 : S500x1.BroadcastsInDim S500x128 (![0, 1] : Fin 2 → Fin S500x128.rank)
  bcast_S1x128_S500x128_0_1 : S1x128.BroadcastsInDim S500x128 (![0, 1] : Fin 2 → Fin S500x128.rank)
  bcast_S64_S1x64_1 : S64.BroadcastsInDim S1x64 (![1] : Fin 1 → Fin S1x64.rank)
  bcast_S1x64_S500x64_0_1 : S1x64.BroadcastsInDim S500x64 (![0, 1] : Fin 2 → Fin S500x64.rank)
  bcast_S_S64 : S_.BroadcastsInDim S64 (![] : Fin 0 → Fin S64.rank)
  bcast_S_S500x64 : S_.BroadcastsInDim S500x64 (![] : Fin 0 → Fin S500x64.rank)
  bcast_S4_S1x4_1 : S4.BroadcastsInDim S1x4 (![1] : Fin 1 → Fin S1x4.rank)
  bcast_S1x4_S500x4_0_1 : S1x4.BroadcastsInDim S500x4 (![0, 1] : Fin 2 → Fin S500x4.rank)
  dot_S50000x34_S34x256_S50000x256_1_0_0_1_n_n_wf : DotDims.WF S50000x34 S34x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S500_S50000x1_S50000_n_0_0_1_wf : ScatterDims.WF S500 S50000x1 S50000 [] [0] [0] 1
  scatter_S500x128_S50000x1_S50000x128_1_0_0_1_wf : ScatterDims.WF S500x128 S50000x1 S50000x128 [1] [0] [0] 1
  dot_S500x128_S128x128_S500x128_1_0_0_1_n_n_wf : DotDims.WF S500x128 S128x128 S500x128 [1] [0] [0] [1] [] []
  dot_S500x128_S128x64_S500x64_1_0_0_1_n_n_wf : DotDims.WF S500x128 S128x64 S500x64 [1] [0] [0] [1] [] []
  dot_S500x64_S64x4_S500x4_1_0_0_1_n_n_wf : DotDims.WF S500x64 S64x4 S500x4 [1] [0] [0] [1] [] []

variable [Facts₀]

def dot_S50000x34_S34x256_S50000x256_1_0_0_1_n_n : DotDims S50000x34 S34x256 S50000x256 where
  lhsContracting := [1]
  rhsContracting := [0]
  lhsNonContracting := [0]
  rhsNonContracting := [1]
  lhsBatch := []
  rhsBatch := []
  wf := dot_S50000x34_S34x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf
def dot_S500x128_S128x128_S500x128_1_0_0_1_n_n : DotDims S500x128 S128x128 S500x128 where
  lhsContracting := [1]
  rhsContracting := [0]
  lhsNonContracting := [0]
  rhsNonContracting := [1]
  lhsBatch := []
  rhsBatch := []
  wf := dot_S500x128_S128x128_S500x128_1_0_0_1_n_n_wf
def dot_S500x128_S128x64_S500x64_1_0_0_1_n_n : DotDims S500x128 S128x64 S500x64 where
  lhsContracting := [1]
  rhsContracting := [0]
  lhsNonContracting := [0]
  rhsNonContracting := [1]
  lhsBatch := []
  rhsBatch := []
  wf := dot_S500x128_S128x64_S500x64_1_0_0_1_n_n_wf
def dot_S500x64_S64x4_S500x4_1_0_0_1_n_n : DotDims S500x64 S64x4 S500x4 where
  lhsContracting := [1]
  rhsContracting := [0]
  lhsNonContracting := [0]
  rhsNonContracting := [1]
  lhsBatch := []
  rhsBatch := []
  wf := dot_S500x64_S64x4_S500x4_1_0_0_1_n_n_wf

class Facts : Prop extends Facts₀ where

variable [Facts]
-- ==== Proof.KernelRun.lean ====
/-
  The kernel program's run, with every surviving buffer kept.

  The program is nineteen segments in a row: stretches of host operations and six device regions. The contents of a
  core's buffers at each boundary form a fold from the launch memory: a host stretch applies its operations, a
  region replaces its output array by what its grid points wrote back. From any memory with zero counters, every
  weakly fair execution ends, faults nowhere, and leaves each buffer that outlives the regions at the LAST stage of
  that fold. Read at the result buffer this is the program's result; read at an argument it is the argument, since
  nothing writes one.

  The launch theorem for a list of segments asks for: the program as that list; each pipeline entered once; the
  launch resources split into the pipelines' staging cells; a thread state before the first segment and after the
  last, chaining through the segments' own pre- and postconditions; the first state made from what a launch deals;
  and the last state read against a final memory.
-/
import proofs.«169095_j43130061586774_1_alg».proof.Proof.Gen.KernelIdeal.Frame

set_option maxRecDepth 16384

noncomputable section

namespace Cert.Gcn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The resources a launch hands out for the six pipelines' staging cells. -/
abbrev launchRes : UR sig nD τ := initOf (Pipeline.cells cfgs cellOf_inj) (Pipeline.launchToks cfgs cellOf_inj)

/-- A core before the first segment: the surviving buffers at their launch contents, a generator register, nothing owed. -/
abbrev first (c : Dev nD) : sProp 𝕄 :=
  iprop(StableHlo.held (c : Thread nD τ) (Pipeline.ucRefs τ sig) (W0 m ρ c) ∗ R c)

/-- What a final memory holds on core c: each surviving buffer at the last stage of the fold. -/
abbrev atEnd (c : Dev nD) (s : MemSt nD τ sig (Elt F)) : Prop :=
  ∀ b ∈ Pipeline.ucRefs τ sig, s.mem (((c : Thread nD τ)).1, b) = W19 m ρ c b

/-- The launch resources are the staging cells' resources; no core needs a ghost resource of its own. -/
theorem launch_split :
    (ownU (launchRes) : sProp 𝕄) ⊢ |={Set.univ}=> iprop(BI.own (emb₁ (launchRes)) ∗ bigSep Finset.univ fun _ : Dev nD => (BI.emp : sProp 𝕄)) := by
  iintro Hres
  imodintro
  isplitl [Hres]
  · iapply (show (ownU (launchRes) : sProp 𝕄) ⊢ BI.own (emb₁ (launchRes)) from .rfl)
    iexact Hres
  · iapply (show (BI.emp : sProp 𝕄) ⊢ bigSep Finset.univ (fun _ : Dev nD => (BI.emp : sProp 𝕄)) from by rw [BI.bigSep_emp_const])
    iempintro

/-- What a launch deals to every core makes the first thread state: the buffers are held at the launch contents,
    the register is where the launch put it, and the empty debt is a debt of nothing. -/
theorem first_of_launch :
    iprop((bigSep Finset.univ fun c : Dev nD => iprop(unscopedBufs c (fun b => m ((c : Thread nD τ).loc b)) ∗ unscopedSems0 c
          ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ |={Set.univ}=> bigSep Finset.univ (first m ρ) := by
  refine Pipeline.initEach L lv fun c => ?_
  rw [show unscopedBufs c (fun b => m ((c : Thread nD τ).loc b)) = StableHlo.held (c : Thread nD τ) (Pipeline.ucRefs τ sig) (W0 m ρ c)
    from Pipeline.unscopedBufs_held c (W0 m ρ c)]
  iintro ⟨⟨Hbufs, -, Hdebt, -, Hreg, -⟩, -⟩
  imodintro
  isplitl [Hbufs]
  · iexact Hbufs
  isplitl [Hreg]
  · iexists _
    iexact Hreg
  · iexists ∅
    iexact Hdebt

/-- The last thread state, beside the state interpretation of a final state, says what that state's memory holds. -/
theorem read_last (c : Dev nD) (s' : Phys nD τ sig (Elt F)) :
    iprop(Tₙ m ρ c ∗ SI s') ⊢ |={Set.univ}=> iprop(⌜atEnd m ρ c s'.mem⌝ ∗ SI s') := by
  iintro ⟨⟨Hbufs, -⟩, Hsi⟩
  unfold StableHlo.held
  imodintro
  iapply (pointsTo_read_all (Pipeline.ucRefs τ sig) (fun b => (((c : Thread nD τ)).1, b)) (W19 m ρ c) s')
  isplitl [Hbufs] <;> iassumption

/-- Every segment starts in the state its predecessor ends in; after the last one the buffers and the register are
    regrouped beside the debt of nothing. -/
theorem links : Pipeline.Seg.Chains (first m ρ) (segs m ρ)
    fun c => iprop(Tₙ m ρ c ∗ ∃ W, owes (c : Thread nD τ) (0 : CellTallies nD τ sig Unit) W) :=
  ⟨fun _ => .rfl, fun _ => .rfl, fun _ => .rfl, fun _ => .rfl, fun _ => .rfl, fun _ => .rfl, fun _ => .rfl,
   fun _ => .rfl, fun _ => .rfl, fun _ => .rfl, fun _ => .rfl, fun _ => .rfl, fun _ => .rfl, fun _ => .rfl,
   fun _ => .rfl, fun _ => .rfl, fun _ => .rfl, fun _ => .rfl, fun _ => .rfl, fun c => by
    dsimp only [Pipeline.Seg.post, hseg, Pipeline.HostSeg.ofOps]
    iintro ⟨Hbufs, Hreg, Hdebt⟩
    isplitl [Hbufs Hreg]
    · isplitl [Hbufs]
      · iexact Hbufs
      · iexact Hreg
    · iexact Hdebt⟩

set_option backward.isDefEq.respectTransparency.types false in
/-- THE RUN: every weakly fair execution of the program ends, and each surviving buffer of each core then holds
    the last stage of the fold of buffer contents through the nineteen segments. -/
theorem run_all : θ_run defs (onTc (τ := τ) (main (F := F))) ⟨m, fun _ => 0, ρ⟩
    (fun r => ∀ c : Dev nD, atEnd m ρ c r.2) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := launchRes) (hu₀ := launch_split)
    (T₀ := first m ρ) (Tₙ := Tₙ m ρ) (hch := links m ρ)
    (hinit := first_of_launch m ρ)
    (QY := atEnd m ρ) (hfin := read_last m ρ)
    (hQ := fun s h => h)

end Cert.Gcn.KernelRun

end
-- ==== Proof.Chains.lean ====
/-
  The graph network both programs compute, written once as functions of whole arrays.

  Nodes 0 … 49999 carry feature rows; the edge list (two rows of 800000 node numbers: sources, targets) gets one
  self loop per node appended (850000 edges). With d(v) the number of edges arriving at v and w(e) =
  d(src e)^(-1/2) · d(dst e)^(-1/2) (zero where d = 0), one layer maps features h to
  max(((Σ_{e → v} w(e) · (h·W)[src e] + b) − μ) · (σ² + ε)^(-1/2) · γ + β, 0). Three layers, the mean over each graph of
  the batch (a sum over the nodes of a graph divided by max(count, 1)), and a head of two more normalised layers and a
  linear map follow. Negative node numbers count from the end (i ↦ i + 50000 for i < 0).

  Every function below is spelled with the very operations the reference program applies, in its order, so that the
  reference's composed result unfolds to G literally; the kernel program's host stretches apply the same operations,
  and its six device regions compute the products and the normalised-ramp stages, which is what the other modules show.
-/
import proofs.«169095_j43130061586774_1_alg».proof.ReferenceIdeal
import Idealize.ShloMosaic.PureOps.Ideal

noncomputable section

namespace Cert.Gcn

open Cert.ReferenceIdeal Idealize.ShloMosaic

variable {F : FTy → Type} [FloatOps F] [Cert.ReferenceIdeal.Facts₀]

open Cert.ReferenceIdeal.Facts₀

/-- Whole arrays of 32-bit integers and of floats, as the host programs hold them. -/
abbrev CI (S : Shape) : Type := (⟨S, .i32⟩ : BufTy).Contents (Elt F)
abbrev CF (S : Shape) : Type := (⟨S, .f32⟩ : BufTy).Contents (Elt F)

/-! ## Edges -/

/-- The source of every edge: row 0 of the edge list, then the self loops 0 … 49999. -/
def srcOf (e : CI (F := F) S2x800000) : CI (F := F) S850000 :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The target of every edge: row 1 of the edge list, then the self loops. -/
def dstOf (e : CI (F := F) S2x800000) : CI (F := F) S850000 :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A negative node number counts from the end: i ↦ i + 50000 where i < 0. -/
def wrapIdx (i : CI (F := F) S850000) : CI (F := F) S850000 :=
  select (cmpi .slt i (broadcastInDim S850000 ![] bcast_S_S850000 (constantI S_ 32 0#32))) (addi i (broadcastInDim S850000 ![] bcast_S_S850000 (constantI S_ 32 50000#32))) i

/-- The number of edges arriving at each node. -/
def degOf (dst : CI (F := F) S850000) : CF (F := F) S50000 :=
  Host.scatterAdd scatter_S50000_S850000x1_S850000_n_0_0_1 (broadcastInDim S50000 ![] bcast_S_S50000 (constant S_ .f32 0x00000000#32)) (broadcastInDim S850000x1 ![0] bcast_S850000_S850000x1_0 dst) (broadcastInDim S850000 ![] bcast_S_S850000 (constant S_ .f32 0x3F800000#32))

/-- d^(-1/2) where d > 0, zero elsewhere. -/
def dinvOf (dst : CI (F := F) S850000) : CF (F := F) S50000 :=
  select (cmpf .ogt (degOf dst) (broadcastInDim S50000 ![] bcast_S_S50000 (constant S_ .f32 0x00000000#32))) (Host.rsqrt (degOf dst)) (broadcastInDim S50000 ![] bcast_S_S50000 (id (constant S_ .f32 0x00000000#32)))

/-- The weight of every edge: d(src)^(-1/2) · d(dst)^(-1/2). -/
def normOf (src dst : CI (F := F) S850000) : CF (F := F) S850000 :=
  mulf (Host.gather gather_S50000_S850000x1_S850000_n_0_n_n_0_1_1 (dinvOf dst) (broadcastInDim S850000x1 ![0] bcast_S850000_S850000x1_0 (wrapIdx src))) (Host.gather gather_S50000_S850000x1_S850000_n_0_n_n_0_1_1 (dinvOf dst) (broadcastInDim S850000x1 ![0] bcast_S850000_S850000x1_0 (wrapIdx dst)))

/-! ## One layer's aggregation: Σ over the edges arriving at a node of weight · the source's row -/

def agg256 (xw : CF (F := F) S50000x256) (src dst : CI (F := F) S850000) (nrm : CF (F := F) S850000) : CF (F := F) S50000x256 :=
  Host.scatterAdd scatter_S50000x256_S850000x1_S850000x256_1_0_0_1 (broadcastInDim S50000x256 ![] bcast_S_S50000x256 (constant S_ .f32 0x00000000#32)) (broadcastInDim S850000x1 ![0] bcast_S850000_S850000x1_0 dst) (mulf (Host.gather gather_S50000x256_S850000x1_S850000x256_1_0_n_n_0_1_1256 xw (broadcastInDim S850000x1 ![0] bcast_S850000_S850000x1_0 (wrapIdx src))) (broadcastInDim S850000x256 ![0, 1] bcast_S850000x1_S850000x256_0_1 (broadcastInDim S850000x1 ![0] bcast_S850000_S850000x1_0 nrm)))

def agg128 (xw : CF (F := F) S50000x128) (src dst : CI (F := F) S850000) (nrm : CF (F := F) S850000) : CF (F := F) S50000x128 :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 dst) (mulf (Host.gather gather_S50000x128_S850000x1_S850000x128_1_0_n_n_0_1_1128 xw (broadcastInDim S850000x1 ![0] bcast_S850000_S850000x1_0 (wrapIdx src))) (broadcastInDim S850000x128 ![0, 1] bcast_S850000x1_S850000x128_0_1 (broadcastInDim S850000x1 ![0] bcast_S850000_S850000x1_0 nrm)))

/-! ## The dense products -/

def mm1 (x : CF (F := F) S50000x34) (w : CF (F := F) S34x256) : CF (F := F) S50000x256 :=
  Host.dotGeneral dot_S50000x34_S34x256_S50000x256_1_0_0_1_n_n none x w
def mm2 (x : CF (F := F) S50000x256) (w : CF (F := F) S256x256) : CF (F := F) S50000x256 :=
  Host.dotGeneral dot_S50000x256_S256x256_S50000x256_1_0_0_1_n_n none x w
def mm3 (x : CF (F := F) S50000x256) (w : CF (F := F) S256x128) : CF (F := F) S50000x128 :=
  Host.dotGeneral dot_S50000x256_S256x128_S50000x128_1_0_0_1_n_n none x w

/-! ## Bias, normalisation by running statistics, ramp: max(((a + b) − μ) · (σ² + ε)^(-1/2) · γ + β, 0), row by row -/

/-- A vector of 256 column values laid over all 50000 rows. -/
def rows256 (v : CF (F := F) S256) : CF (F := F) S50000x256 :=
  broadcastInDim S50000x256 ![0, 1] bcast_S1x256_S50000x256_0_1 (broadcastInDim S1x256 ![1] bcast_S256_S1x256_1 v)
def rows128 (v : CF (F := F) S128) : CF (F := F) S50000x128 :=
  broadcastInDim S50000x128 ![0, 1] bcast_S1x128_S50000x128_0_1 (broadcastInDim S1x128 ![1] bcast_S128_S1x128_1 v)

def bnrelu256 (a : CF (F := F) S50000x256) (b g β μ var : CF (F := F) S256) : CF (F := F) S50000x256 :=
  maximumf (addf (mulf (mulf (subf (addf a (rows256 b)) (rows256 μ)) (rows256 (Host.rsqrt (addf var (broadcastInDim S256 ![] bcast_S_S256 (constant S_ .f32 0x3727C5AC#32)))))) (rows256 g)) (rows256 β)) (broadcastInDim S50000x256 ![] bcast_S_S50000x256 (constant S_ .f32 0x00000000#32))

def bnrelu128 (a : CF (F := F) S50000x128) (b g β μ var : CF (F := F) S128) : CF (F := F) S50000x128 :=
  maximumf (addf (mulf (mulf (subf (addf a (rows128 b)) (rows128 μ)) (rows128 (Host.rsqrt (addf var (broadcastInDim S128 ![] bcast_S_S128 (constant S_ .f32 0x3727C5AC#32)))))) (rows128 g)) (rows128 β)) (broadcastInDim S50000x128 ![] bcast_S_S50000x128 (constant S_ .f32 0x00000000#32))

/-! ## The head: the mean over each graph, two normalised layers, a linear map -/

def r500x128 (v : CF (F := F) S128) : CF (F := F) S500x128 :=
  broadcastInDim S500x128 ![0, 1] bcast_S1x128_S500x128_0_1 (broadcastInDim S1x128 ![1] bcast_S128_S1x128_1 v)
def r500x64 (v : CF (F := F) S64) : CF (F := F) S500x64 :=
  broadcastInDim S500x64 ![0, 1] bcast_S1x64_S500x64_0_1 (broadcastInDim S1x64 ![1] bcast_S64_S1x64_1 v)

/-- The sum of each graph's node rows divided by max(number of its nodes, 1). -/
def pooled (h : CF (F := F) S50000x128) (batch : CI (F := F) S50000) : CF (F := F) S500x128 :=
  Host.divf (Host.scatterAdd scatter_S500x128_S50000x1_S50000x128_1_0_0_1 (broadcastInDim S500x128 ![] bcast_S_S500x128 (constant S_ .f32 0x00000000#32)) (broadcastInDim S50000x1 ![0] bcast_S50000_S50000x1_0 batch) h) (broadcastInDim S500x128 ![0, 1] bcast_S500x1_S500x128_0_1 (broadcastInDim S500x1 ![0] bcast_S500_S500x1_0 (maximumf (broadcastInDim S500 ![] bcast_S_S500 (id (constant S_ .f32 0x3F800000#32))) (Host.scatterAdd scatter_S500_S50000x1_S50000_n_0_0_1 (broadcastInDim S500 ![] bcast_S_S500 (constant S_ .f32 0x00000000#32)) (broadcastInDim S50000x1 ![0] bcast_S50000_S50000x1_0 batch) (broadcastInDim S50000 ![] bcast_S_S50000 (constant S_ .f32 0x3F800000#32))))))

def head1 (p : CF (F := F) S500x128) (w : CF (F := F) S128x128) (b g β μ var : CF (F := F) S128) : CF (F := F) S500x128 :=
  maximumf (addf (mulf (mulf (subf (addf (Host.dotGeneral dot_S500x128_S128x128_S500x128_1_0_0_1_n_n none p w) (r500x128 b)) (r500x128 μ)) (r500x128 (Host.rsqrt (addf var (broadcastInDim S128 ![] bcast_S_S128 (constant S_ .f32 0x3727C5AC#32)))))) (r500x128 g)) (r500x128 β)) (broadcastInDim S500x128 ![] bcast_S_S500x128 (constant S_ .f32 0x00000000#32))

def head2 (p : CF (F := F) S500x128) (w : CF (F := F) S128x64) (b g β μ var : CF (F := F) S64) : CF (F := F) S500x64 :=
  maximumf (addf (mulf (mulf (subf (addf (Host.dotGeneral dot_S500x128_S128x64_S500x64_1_0_0_1_n_n none p w) (r500x64 b)) (r500x64 μ)) (r500x64 (Host.rsqrt (addf var (broadcastInDim S64 ![] bcast_S_S64 (constant S_ .f32 0x3727C5AC#32)))))) (r500x64 g)) (r500x64 β)) (broadcastInDim S500x64 ![] bcast_S_S500x64 (constant S_ .f32 0x00000000#32))

def headOut (p : CF (F := F) S500x64) (w : CF (F := F) S64x4) (b : CF (F := F) S4) : CF (F := F) S500x4 :=
  addf (Host.dotGeneral dot_S500x64_S64x4_S500x4_1_0_0_1_n_n none p w) (broadcastInDim S500x4 ![0, 1] bcast_S1x4_S500x4_0_1 (broadcastInDim S1x4 ![1] bcast_S4_S1x4_1 b))

/-- The head applied to the last layer's node features. -/
def headOf (h : CF (F := F) S50000x128) (batch : CI (F := F) S50000)
    (g4 β4 μ4 v4 : CF (F := F) S128) (g5 β5 μ5 v5 : CF (F := F) S64)
    (w1 : CF (F := F) S128x128) (b1 : CF (F := F) S128) (w2 : CF (F := F) S128x64) (b2 : CF (F := F) S64)
    (wo : CF (F := F) S64x4) (bo : CF (F := F) S4) : CF (F := F) S500x4 :=
  headOut (head2 (head1 (pooled h batch) w1 b1 g4 β4 μ4 v4) w2 b2 g5 β5 μ5 v5) wo bo

/-! ## The three layers -/

def layer1 (x : CF (F := F) S50000x34) (src dst : CI (F := F) S850000) (w : CF (F := F) S34x256) (b g β μ var : CF (F := F) S256) : CF (F := F) S50000x256 :=
  bnrelu256 (agg256 (mm1 x w) src dst (normOf src dst)) b g β μ var
def layer2 (h : CF (F := F) S50000x256) (src dst : CI (F := F) S850000) (w : CF (F := F) S256x256) (b g β μ var : CF (F := F) S256) : CF (F := F) S50000x256 :=
  bnrelu256 (agg256 (mm2 h w) src dst (normOf src dst)) b g β μ var
def layer3 (h : CF (F := F) S50000x256) (src dst : CI (F := F) S850000) (w : CF (F := F) S256x128) (b g β μ var : CF (F := F) S128) : CF (F := F) S50000x128 :=
  bnrelu128 (agg128 (mm3 h w) src dst (normOf src dst)) b g β μ var

/-- The whole network as one function of the thirty-five argument arrays. -/
def G (x : CF (F := F) S50000x34) (e : CI (F := F) S2x800000) (batch : CI (F := F) S50000)
    (W1 : CF (F := F) S34x256) (b1 : CF (F := F) S256) (W2 : CF (F := F) S256x256) (b2 : CF (F := F) S256)
    (W3 : CF (F := F) S256x128) (b3 : CF (F := F) S128)
    (g1 β1 μ1 v1 g2 β2 μ2 v2 : CF (F := F) S256) (g3 β3 μ3 v3 g4 β4 μ4 v4 : CF (F := F) S128) (g5 β5 μ5 v5 : CF (F := F) S64)
    (w1 : CF (F := F) S128x128) (c1 : CF (F := F) S128) (w2 : CF (F := F) S128x64) (c2 : CF (F := F) S64)
    (wo : CF (F := F) S64x4) (co : CF (F := F) S4) : CF (F := F) S500x4 :=
  headOf (layer3 (layer2 (layer1 x (srcOf e) (dstOf e) W1 b1 g1 β1 μ1 v1) (srcOf e) (dstOf e) W2 b2 g2 β2 μ2 v2)
      (srcOf e) (dstOf e) W3 b3 g3 β3 μ3 v3) batch g4 β4 μ4 v4 g5 β5 μ5 v5 w1 c1 w2 c2 wo co

end Cert.Gcn

end
-- ==== Proof.Stretches.lean ====
/-
  The kernel program's host stretches, each read at the one buffer a later segment needs.

  Whatever a core's buffers hold when a stretch starts (W), after the stretch the named buffer holds the network's
  stage of what W holds at the stretch's inputs: the stretches before the first region build the edge sources and
  targets (row 0 / row 1 of the edge list, self loops appended) and the edge weights d(src)^(-1/2) · d(dst)^(-1/2);
  the stretch before each normalising region gathers the product's rows at the sources, scales by the weights and
  adds them up per target; the last stretches take the per-graph mean and apply the head. Each stretch applies the
  same operations, in the same order, as the stage's definition: the two spellings unfold to one term.
-/
import proofs.«169095_j43130061586774_1_alg».proof.Proof.Chains
import proofs.«169095_j43130061586774_1_alg».proof.Proof.Gen.ReferenceIdeal
import proofs.«169095_j43130061586774_1_alg».proof.Proof.Gen.KernelIdeal.Launch
import Idealize.ShloMosaic.Lib.StableHlo.Run

set_option maxRecDepth 16384
set_option maxHeartbeats 4000000

noncomputable section

namespace Cert.Gcn.Stretch

open Cert.KernelIdeal Cert.KernelIdeal.Gen Idealize.ShloMosaic Idealize.ShloMosaic.TcCoe Idealize.SL.Sem Idealize.ShloMosaic.StableHlo

variable {F : FTy → Type} [FloatOps F]

/-! ## Before the first region: the edges and their weights -/

/-- The edge sources: row 0 of the edge list, then the self loops. -/
theorem sources (W : Valuation τ sig (Elt F)) :
    StableHlo.after (hostOps0_2 (F := F)) (StableHlo.after (hostOps0_1 (F := F)) (StableHlo.after (hostOps0 (F := F)) W)) (Proc.devRef .tc main_v3)
      = Cert.Gcn.srcOf (F := F) (W (Proc.devRef .tc main_arg1)) := by
  dsimp only [hostOps0, hostOps0_1, hostOps0_2]
  after_results_simp
  rfl

/-- The edge targets: row 1 of the edge list, then the self loops. -/
theorem targets (W : Valuation τ sig (Elt F)) :
    StableHlo.after (hostOps0_2 (F := F)) (StableHlo.after (hostOps0_1 (F := F)) (StableHlo.after (hostOps0 (F := F)) W)) (Proc.devRef .tc main_v6)
      = Cert.Gcn.dstOf (F := F) (W (Proc.devRef .tc main_arg1)) := by
  dsimp only [hostOps0, hostOps0_1, hostOps0_2]
  after_results_simp
  rfl

/-- The edge weights: the inverse square roots of the two end points' degrees, multiplied. -/
theorem weights (W : Valuation τ sig (Elt F)) :
    StableHlo.after (hostOps0_2 (F := F)) (StableHlo.after (hostOps0_1 (F := F)) (StableHlo.after (hostOps0 (F := F)) W)) (Proc.devRef .tc main_v29)
      = Cert.Gcn.normOf (F := F) (Cert.Gcn.srcOf (W (Proc.devRef .tc main_arg1))) (Cert.Gcn.dstOf (W (Proc.devRef .tc main_arg1))) := by
  dsimp only [hostOps0, hostOps0_1, hostOps0_2]
  after_results_simp
  rfl

/-! ## Between the regions: one layer's weighted aggregation of the product's rows -/

theorem aggregate1 (W : Valuation τ sig (Elt F)) :
    StableHlo.after (hostOps1 (F := F)) W (Proc.devRef .tc main_v43)
      = Cert.Gcn.agg256 (F := F) (W (Proc.devRef .tc main_v30)) (W (Proc.devRef .tc main_v3)) (W (Proc.devRef .tc main_v6)) (W (Proc.devRef .tc main_v29)) := by
  dsimp only [hostOps1]
  after_results_simp
  rfl

theorem aggregate2 (W : Valuation τ sig (Elt F)) :
    StableHlo.after (hostOps3 (F := F)) W (Proc.devRef .tc main_v58)
      = Cert.Gcn.agg256 (F := F) (W (Proc.devRef .tc main_v45)) (W (Proc.devRef .tc main_v3)) (W (Proc.devRef .tc main_v6)) (W (Proc.devRef .tc main_v29)) := by
  dsimp only [hostOps3]
  after_results_simp
  rfl

theorem aggregate3 (W : Valuation τ sig (Elt F)) :
    StableHlo.after (hostOps5 (F := F)) W (Proc.devRef .tc main_v73)
      = Cert.Gcn.agg128 (F := F) (W (Proc.devRef .tc main_v60)) (W (Proc.devRef .tc main_v3)) (W (Proc.devRef .tc main_v6)) (W (Proc.devRef .tc main_v29)) := by
  dsimp only [hostOps5]
  after_results_simp
  rfl

/-! ## After the last region: the per-graph mean and the head -/

theorem head (W : Valuation τ sig (Elt F)) :
    StableHlo.after (hostOps6_6 (F := F)) (StableHlo.after (hostOps6_5 (F := F)) (StableHlo.after (hostOps6_4 (F := F)) (StableHlo.after (hostOps6_3 (F := F))
      (StableHlo.after (hostOps6_2 (F := F)) (StableHlo.after (hostOps6_1 (F := F)) (StableHlo.after (hostOps6 (F := F)) W)))))) (Proc.devRef .tc main_v129)
      = Cert.Gcn.headOf (F := F) (W (Proc.devRef .tc main_v74)) (W (Proc.devRef .tc main_arg2)) (W (Proc.devRef .tc main_arg21)) (W (Proc.devRef .tc main_arg22)) (W (Proc.devRef .tc main_arg23)) (W (Proc.devRef .tc main_arg24)) (W (Proc.devRef .tc main_arg25)) (W (Proc.devRef .tc main_arg26)) (W (Proc.devRef .tc main_arg27)) (W (Proc.devRef .tc main_arg28)) (W (Proc.devRef .tc main_arg29)) (W (Proc.devRef .tc main_arg30)) (W (Proc.devRef .tc main_arg31)) (W (Proc.devRef .tc main_arg32)) (W (Proc.devRef .tc main_arg33)) (W (Proc.devRef .tc main_arg34)) := by
  dsimp only [hostOps6, hostOps6_1, hostOps6_2, hostOps6_3, hostOps6_4, hostOps6_5, hostOps6_6]
  after_results_simp
  rfl

end Cert.Gcn.Stretch

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.LibDenseProduct.lean ====
/-
  The dense product as one function of its two matrices, and the two spellings of it the programs use.

  For an m×k matrix A and a k×n matrix B, mm A B has at row a and column b the entry ∑ c, A(a, c) · B(c, b), over the
  extended reals. The host's plain dot_general of A and B is this array, and so is the kernel's matrix unit applied
  to A and B with the zero accumulator; the number format of either operand plays no part at the ideal values. A block of
  rows of mm A B is mm of the same rows of A with B: row a of the product reads row a of A only.
-/
import proofs.«169095_j43130061586774_1_alg».proof.Proof.LibMatmulPlain

noncomputable section

namespace Cert.LibDenseProduct

open Idealize.ShloMosaic Idealize.ShloMosaic.ValueIdx

variable {m k n : Nat} {φ₁ φ₂ : FTy}

/-- The product of an m×k and a k×n matrix, entry by entry. -/
def mm (A : FVec Ideal ⟨2, ![m, k]⟩ φ₁) (B : FVec Ideal ⟨2, ![k, n]⟩ φ₂) : FVec Ideal ⟨2, ![m, n]⟩ .f32 :=
  fun i => ∑ c : Fin k, A (ix2 (i 0) c) * B (ix2 c (i 1))

theorem mm_apply (A : FVec Ideal ⟨2, ![m, k]⟩ φ₁) (B : FVec Ideal ⟨2, ![k, n]⟩ φ₂) (a : Fin m) (b : Fin n) :
    mm A B (ix2 a b) = ∑ c : Fin k, A (ix2 a c) * B (ix2 c b) := rfl

/-- The host's plain product is `mm`. -/
theorem dotGeneral_plain_eq (prec : Option ContractPrecision) (A : FVec Ideal ⟨2, ![m, k]⟩ φ₁) (B : FVec Ideal ⟨2, ![k, n]⟩ φ₂) :
    Host.dotGeneral (DotDims.plain m k n) prec A B = mm A B := by
  funext i
  rw [eq_ix2 i]
  exact StackMember.dotGeneral_plain_apply prec A B _ _

/-- The matrix unit's plain product into the zero accumulator is `mm`. -/
theorem matmul_plain_zero_eq (prec : Option ContractPrecision) (A : FVec Ideal ⟨2, ![m, k]⟩ φ₁) (B : FVec Ideal ⟨2, ![k, n]⟩ φ₂) :
    matmul (DotDims.plain m k n) prec A B (constant (F := Ideal) ⟨2, ![m, n]⟩ .f32 0x00000000#32) = mm A B := by
  funext i
  rw [eq_ix2 i]
  exact Cert.LibMatmulPlain.matmul_plain_zero_apply prec A B _ _

/-- Rows of a product: if a small left factor `x0` holds, in its row `j 0`, row `i 0` of the large one `X`, then the small
    product at `j` is the large product at `i` whenever the two indices name the same column. -/
theorem mm_rows {M : Nat} (X : FVec Ideal ⟨2, ![M, k]⟩ φ₁) (W : FVec Ideal ⟨2, ![k, n]⟩ φ₂)
    (x0 : FVec Ideal ⟨2, ![m, k]⟩ φ₁) (j : (⟨2, ![m, n]⟩ : Shape).Idx) (i : (⟨2, ![M, n]⟩ : Shape).Idx)
    (hx : ∀ c : Fin k, x0 (ix2 (j 0) c) = X (ix2 (i 0) c)) (h1 : (j 1 : Fin n) = i 1) : mm x0 W j = mm X W i := by
  unfold mm
  refine Finset.sum_congr rfl fun c _ => ?_
  rw [hx c]
  exact congrArg (fun b : Fin n => X (ix2 (i 0) c) * W (ix2 c b)) h1

end Cert.LibDenseProduct

end
-- ==== Proof.RegionMM0.lean ====
/-
  The first dense product, block by block.

  The device computes the product of the 50000×34 feature matrix X with the 34×256 weight W in 25 steps: step t
  reads rows 2000·t … 2000·t + 1999 of X and the whole of W, rounds both to a shorter float format (the identity on the
  extended reals), multiplies them into a zero accumulator and writes the 2000×256 result to the same rows of the
  output. Entry (p, q) of such a block is ∑ c, X(2000·t + p, c) · W(c, q), which is entry (2000·t + p, q) of the whole
  product X·W: a row of a product reads that row of the left factor only. Every row r lies in the block of step
  r / 2000, so after the 25 steps the output array is X·W, which is also what the host's dot_general of X and W is.
-/
import proofs.«169095_j43130061586774_1_alg».proof.Proof.Chains
import proofs.«169095_j43130061586774_1_alg».proof.Proof.Gen.ReferenceIdeal
import proofs.«169095_j43130061586774_1_alg».proof.Proof.Gen.KernelIdeal.Frame
import proofs.«169095_j43130061586774_1_alg».proof.Proof.LibDenseProduct
import Idealize.ShloMosaic.Lib.Pipeline.Value
import Idealize.ShloMosaic.Lib.ValueIdx

noncomputable section

namespace Cert.Gcn.RegionMM

open Cert.KernelIdeal Cert.KernelIdeal.Gen Idealize.ShloMosaic Idealize.ShloMosaic.TcCoe Idealize.SL.Sem
open Idealize.ShloMosaic.ValueIdx Cert.LibDenseProduct

variable (V : (c : Dev nD) → (b : Ref sig .tc) → Buf (Elt Ideal) ((c : Thread nD τ).loc b))

/-- The offsets (0, 0), as the constant function. -/
private theorem zero_offsets : (![0, 0] : Fin 2 → Nat) = fun _ => 0 := funext fun a => by fin_cases a <;> rfl

/-- One step's value: the product of the 2000 rows it read with the weight (rounding to the shorter format changes
    nothing on the extended reals; the accumulator starts at zero). -/
theorem step_product0 (x0 : Vec Ideal S2000x34 .f32) (x1 : Vec Ideal S34x256 .f32) :
    k0_pay1 (F := Ideal) x0 x1 = mm (m := 2000) (k := 34) (n := 256) (φ₁ := .f32) (φ₂ := .f32) x0 x1 := by
  unfold k0_pay1
  show matmul (DotDims.plain 2000 34 256) none (truncf .bf16 x0 bitsLt_bf16_f32) (truncf .bf16 x1 bitsLt_bf16_f32) (constant (F := Ideal) ⟨2, ![2000, 256]⟩ .f32 0x00000000#32) = _
  rw [matmul_plain_zero_eq]
  rfl

/-- The host's product of the whole matrices is the same sum, entry by entry. -/
theorem host_product0 (X : Cert.Gcn.CF (F := Ideal) Cert.ReferenceIdeal.S50000x34) (W : Cert.Gcn.CF (F := Ideal) Cert.ReferenceIdeal.S34x256) :
    Cert.Gcn.mm1 (F := Ideal) X W = mm (m := 50000) (k := 34) (n := 256) (φ₁ := .f32) (φ₂ := .f32) X W := by
  unfold Cert.Gcn.mm1
  exact dotGeneral_plain_eq none X W

/-- Where step t reads and writes: block t of the rows of X and of the output, the one block of W. -/
theorem block_indices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The weight's block is the whole weight at every step. -/
theorem weight_block0 (c : Dev nD) (t : Fin cfg0.N) : (iblk0 (F := Ideal) V c 1 t : Vec Ideal S34x256 .f32) = V c main_arg3 := by
  obtain ⟨-, -, e2, e3, -, -⟩ := block_indices0 t
  funext y
  unfold iblk0
  rw [View.read_apply]
  show V c main_arg3 (((cfg0.win 1).blk t).view.emb y) = V c main_arg3 y
  congr 1
  funext a; apply Fin.ext
  match a with
  | ⟨0, _⟩ => show win0_1.index t (0 : Fin 2) * 34 + 1 * (y 0).val = (y 0).val; omega
  | ⟨1, _⟩ => show win0_1.index t (1 : Fin 2) * 256 + 1 * (y 1).val = (y 1).val; omega

/-- What step t writes back is rows 2000·t … 2000·t + 1999 of the whole product. -/
theorem written_block0 (c : Dev nD) (t : Fin cfg0.N) :
    (dat0 (F := Ideal) V c).flushed 2 t = ((cfg0.win 2).blk t).view.read (Elt Ideal)
      (mm (m := 50000) (k := 34) (n := 256) (φ₁ := .f32) (φ₂ := .f32) (V c main_arg0) (V c main_arg3)) := by
  show (cfg0.win 2).cut (grid0.coords t) ((dat0 V c).after 2 t) = _
  rw [after0_2]
  unfold out0_2
  rw [View.canon_unit_zero zero_offsets]
  simp only [View.ld_unit_zero (S := S2000x34) zero_offsets, View.ld_unit_zero (S := S34x256) zero_offsets]
  rw [step_product0, weight_block0]
  obtain ⟨e0, e1, -, -, e4, e5⟩ := block_indices0 t
  funext j
  show mm (m := 2000) (k := 34) (n := 256) (φ₁ := .f32) (φ₂ := .f32) (iblk0 V c 0 t : Vec Ideal S2000x34 .f32) (V c main_arg3) j
    = mm (m := 50000) (k := 34) (n := 256) (φ₁ := .f32) (φ₂ := .f32) (V c main_arg0) (V c main_arg3) (((cfg0.win 2).blk t).view.emb j)
  refine mm_rows (m := 2000) (M := 50000) (k := 34) (n := 256) (φ₁ := .f32) (φ₂ := .f32) (V c main_arg0) (V c main_arg3)
    (iblk0 V c 0 t : Vec Ideal S2000x34 .f32) j (((cfg0.win 2).blk t).view.emb j) (fun k => ?_) ?_
  · -- row (j 0) of the block read is row 2000·t + (j 0) of X
    unfold iblk0
    rw [View.read_apply]
    show V c main_arg0 (((cfg0.win 0).blk t).view.emb (ix2 (j 0) k)) = V c main_arg0 (ix2 ((((cfg0.win 2).blk t).view.emb j) 0) k)
    congr 1
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 34 + 1 * k.val = k.val; omega
  · -- the column is the same
    apply Fin.ext
    show (j 1).val = win0_2.index t (1 : Fin 2) * 256 + 1 * (j 1).val
    omega

/-- An index of the output lies in step t's block iff each coordinate lies in the block's range. -/
theorem mem_row_block0 (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v30).slice (win0_2.rect t)).set ↔ _
  rw [View.set_slice_whole, Rect.mem_set_unit]
  exact Iff.rfl

/-- Row r is written by step r / 2000. -/
theorem rows_covered0 (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  obtain ⟨t, ht⟩ : ∃ t : Fin cfg0.N, t.val = (i 0).val / 2000 := ⟨⟨(i 0).val / 2000, by omega⟩, rfl⟩
  obtain ⟨-, -, -, -, e4, e5⟩ := block_indices0 t
  refine ⟨t, flush0_2 t, ?_⟩
  rw [mem_row_block0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- After the 25 steps the output array is the whole product, as the host spells it. -/
theorem region0 (c : Dev nD) : (dat0 (F := Ideal) V c).arrAt 2 cfg0.N = Cert.Gcn.mm1 (F := Ideal) (V c main_arg0) (V c main_arg3) := by
  rw [host_product0]
  exact (dat0 V c).arrAt_eq_of_cover 2 _ (fun t _ => written_block0 V c t) rows_covered0

end Cert.Gcn.RegionMM

end
-- ==== Proof.RegionMM2.lean ====
/-
  The second dense product, block by block.

  The device computes the product of the 50000×256 feature matrix X with the 256×256 weight W in 25 steps: step t
  reads rows 2000·t … 2000·t + 1999 of X and the whole of W, rounds both to a shorter float format (the identity on the
  extended reals), multiplies them into a zero accumulator and writes the 2000×256 result to the same rows of the
  output. Entry (p, q) of such a block is ∑ c, X(2000·t + p, c) · W(c, q), which is entry (2000·t + p, q) of the whole
  product X·W: a row of a product reads that row of the left factor only. Every row r lies in the block of step
  r / 2000, so after the 25 steps the output array is X·W, which is also what the host's dot_general of X and W is.
-/
import proofs.«169095_j43130061586774_1_alg».proof.Proof.Chains
import proofs.«169095_j43130061586774_1_alg».proof.Proof.Gen.ReferenceIdeal
import proofs.«169095_j43130061586774_1_alg».proof.Proof.Gen.KernelIdeal.Frame
import proofs.«169095_j43130061586774_1_alg».proof.Proof.LibDenseProduct
import Idealize.ShloMosaic.Lib.Pipeline.Value
import Idealize.ShloMosaic.Lib.ValueIdx

noncomputable section

namespace Cert.Gcn.RegionMM

open Cert.KernelIdeal Cert.KernelIdeal.Gen Idealize.ShloMosaic Idealize.ShloMosaic.TcCoe Idealize.SL.Sem
open Idealize.ShloMosaic.ValueIdx Cert.LibDenseProduct

variable (V : (c : Dev nD) → (b : Ref sig .tc) → Buf (Elt Ideal) ((c : Thread nD τ).loc b))

/-- The offsets (0, 0), as the constant function. -/
private theorem zero_offsets : (![0, 0] : Fin 2 → Nat) = fun _ => 0 := funext fun a => by fin_cases a <;> rfl

/-- One step's value: the product of the 2000 rows it read with the weight (rounding to the shorter format changes
    nothing on the extended reals; the accumulator starts at zero). -/
theorem step_product2 (x0 : Vec Ideal S2000x256 .f32) (x1 : Vec Ideal S256x256 .f32) :
    k2_pay1 (F := Ideal) x0 x1 = mm (m := 2000) (k := 256) (n := 256) (φ₁ := .f32) (φ₂ := .f32) x0 x1 := by
  unfold k2_pay1
  show matmul (DotDims.plain 2000 256 256) none (truncf .bf16 (shapeCast S2000x256 x0 shapeCasts_S2000x256_S2000x256) bitsLt_bf16_f32) (truncf .bf16 x1 bitsLt_bf16_f32) (constant (F := Ideal) ⟨2, ![2000, 256]⟩ .f32 0x00000000#32) = _
  rw [matmul_plain_zero_eq, shapeCast_self]
  rfl

/-- The host's product of the whole matrices is the same sum, entry by entry. -/
theorem host_product2 (X : Cert.Gcn.CF (F := Ideal) Cert.ReferenceIdeal.S50000x256) (W : Cert.Gcn.CF (F := Ideal) Cert.ReferenceIdeal.S256x256) :
    Cert.Gcn.mm2 (F := Ideal) X W = mm (m := 50000) (k := 256) (n := 256) (φ₁ := .f32) (φ₂ := .f32) X W := by
  unfold Cert.Gcn.mm2
  exact dotGeneral_plain_eq none X W

/-- Where step t reads and writes: block t of the rows of X and of the output, the one block of W. -/
theorem block_indices2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The weight's block is the whole weight at every step. -/
theorem weight_block2 (c : Dev nD) (t : Fin cfg2.N) : (iblk2 (F := Ideal) V c 1 t : Vec Ideal S256x256 .f32) = V c main_arg5 := by
  obtain ⟨-, -, e2, e3, -, -⟩ := block_indices2 t
  funext y
  unfold iblk2
  rw [View.read_apply]
  show V c main_arg5 (((cfg2.win 1).blk t).view.emb y) = V c main_arg5 y
  congr 1
  funext a; apply Fin.ext
  match a with
  | ⟨0, _⟩ => show win2_1.index t (0 : Fin 2) * 256 + 1 * (y 0).val = (y 0).val; omega
  | ⟨1, _⟩ => show win2_1.index t (1 : Fin 2) * 256 + 1 * (y 1).val = (y 1).val; omega

/-- What step t writes back is rows 2000·t … 2000·t + 1999 of the whole product. -/
theorem written_block2 (c : Dev nD) (t : Fin cfg2.N) :
    (dat2 (F := Ideal) V c).flushed 2 t = ((cfg2.win 2).blk t).view.read (Elt Ideal)
      (mm (m := 50000) (k := 256) (n := 256) (φ₁ := .f32) (φ₂ := .f32) (V c main_v44) (V c main_arg5)) := by
  show (cfg2.win 2).cut (grid2.coords t) ((dat2 V c).after 2 t) = _
  rw [after2_2]
  unfold out2_2
  rw [View.canon_unit_zero zero_offsets]
  simp only [View.ld_unit_zero (S := S2000x256) zero_offsets, View.ld_unit_zero (S := S256x256) zero_offsets]
  rw [step_product2, weight_block2]
  obtain ⟨e0, e1, -, -, e4, e5⟩ := block_indices2 t
  funext j
  show mm (m := 2000) (k := 256) (n := 256) (φ₁ := .f32) (φ₂ := .f32) (iblk2 V c 0 t : Vec Ideal S2000x256 .f32) (V c main_arg5) j
    = mm (m := 50000) (k := 256) (n := 256) (φ₁ := .f32) (φ₂ := .f32) (V c main_v44) (V c main_arg5) (((cfg2.win 2).blk t).view.emb j)
  refine mm_rows (m := 2000) (M := 50000) (k := 256) (n := 256) (φ₁ := .f32) (φ₂ := .f32) (V c main_v44) (V c main_arg5)
    (iblk2 V c 0 t : Vec Ideal S2000x256 .f32) j (((cfg2.win 2).blk t).view.emb j) (fun k => ?_) ?_
  · -- row (j 0) of the block read is row 2000·t + (j 0) of X
    unfold iblk2
    rw [View.read_apply]
    show V c main_v44 (((cfg2.win 0).blk t).view.emb (ix2 (j 0) k)) = V c main_v44 (ix2 ((((cfg2.win 2).blk t).view.emb j) 0) k)
    congr 1
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 256 + 1 * k.val = k.val; omega
  · -- the column is the same
    apply Fin.ext
    show (j 1).val = win2_2.index t (1 : Fin 2) * 256 + 1 * (j 1).val
    omega

/-- An index of the output lies in step t's block iff each coordinate lies in the block's range. -/
theorem mem_row_block2 (t : Fin cfg2.N) (i : S50000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v45).slice (win2_2.rect t)).set ↔ _
  rw [View.set_slice_whole, Rect.mem_set_unit]
  exact Iff.rfl

/-- Row r is written by step r / 2000. -/
theorem rows_covered2 (i : S50000x256.Idx) : ∃ t : Fin cfg2.N, (cfg2.win 2).flush t = true ∧ i ∈ ((cfg2.win 2).blk t).view.set := by
  have hi0 : (i 0).val < 50000 := (i 0).isLt
  have hi1 : (i 1).val < 256 := (i 1).isLt
  have hN : cfg2.N = 25 := N_2
  obtain ⟨t, ht⟩ : ∃ t : Fin cfg2.N, t.val = (i 0).val / 2000 := ⟨⟨(i 0).val / 2000, by omega⟩, rfl⟩
  obtain ⟨-, -, -, -, e4, e5⟩ := block_indices2 t
  refine ⟨t, flush2_2 t, ?_⟩
  rw [mem_row_block2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 256 ≤ (i 1).val ∧ (i 1).val < win2_2.index t (1 : Fin 2) * 256 + 256; omega

/-- After the 25 steps the output array is the whole product, as the host spells it. -/
theorem region2 (c : Dev nD) : (dat2 (F := Ideal) V c).arrAt 2 cfg2.N = Cert.Gcn.mm2 (F := Ideal) (V c main_v44) (V c main_arg5) := by
  rw [host_product2]
  exact (dat2 V c).arrAt_eq_of_cover 2 _ (fun t _ => written_block2 V c t) rows_covered2

end Cert.Gcn.RegionMM

end
-- ==== Proof.RegionMM4.lean ====
/-
  The third dense product, block by block.

  The device computes the product of the 50000×256 feature matrix X with the 256×128 weight W in 25 steps: step t
  reads rows 2000·t … 2000·t + 1999 of X and the whole of W, rounds both to a shorter float format (the identity on the
  extended reals), multiplies them into a zero accumulator and writes the 2000×128 result to the same rows of the
  output. Entry (p, q) of such a block is ∑ c, X(2000·t + p, c) · W(c, q), which is entry (2000·t + p, q) of the whole
  product X·W: a row of a product reads that row of the left factor only. Every row r lies in the block of step
  r / 2000, so after the 25 steps the output array is X·W, which is also what the host's dot_general of X and W is.
-/
import proofs.«169095_j43130061586774_1_alg».proof.Proof.Chains
import proofs.«169095_j43130061586774_1_alg».proof.Proof.Gen.ReferenceIdeal
import proofs.«169095_j43130061586774_1_alg».proof.Proof.Gen.KernelIdeal.Frame
import proofs.«169095_j43130061586774_1_alg».proof.Proof.LibDenseProduct
import Idealize.ShloMosaic.Lib.Pipeline.Value
import Idealize.ShloMosaic.Lib.ValueIdx

noncomputable section

namespace Cert.Gcn.RegionMM

open Cert.KernelIdeal Cert.KernelIdeal.Gen Idealize.ShloMosaic Idealize.ShloMosaic.TcCoe Idealize.SL.Sem
open Idealize.ShloMosaic.ValueIdx Cert.LibDenseProduct

variable (V : (c : Dev nD) → (b : Ref sig .tc) → Buf (Elt Ideal) ((c : Thread nD τ).loc b))

/-- The offsets (0, 0), as the constant function. -/
private theorem zero_offsets : (![0, 0] : Fin 2 → Nat) = fun _ => 0 := funext fun a => by fin_cases a <;> rfl

/-- One step's value: the product of the 2000 rows it read with the weight (rounding to the shorter format changes
    nothing on the extended reals; the accumulator starts at zero). -/
theorem step_product4 (x0 : Vec Ideal S2000x256 .f32) (x1 : Vec Ideal S256x128 .f32) :
    k4_pay1 (F := Ideal) x0 x1 = mm (m := 2000) (k := 256) (n := 128) (φ₁ := .f32) (φ₂ := .f32) x0 x1 := by
  unfold k4_pay1
  show matmul (DotDims.plain 2000 256 128) none (truncf .bf16 (shapeCast S2000x256 x0 shapeCasts_S2000x256_S2000x256) bitsLt_bf16_f32) (truncf .bf16 x1 bitsLt_bf16_f32) (constant (F := Ideal) ⟨2, ![2000, 128]⟩ .f32 0x00000000#32) = _
  rw [matmul_plain_zero_eq, shapeCast_self]
  rfl

/-- The host's product of the whole matrices is the same sum, entry by entry. -/
theorem host_product4 (X : Cert.Gcn.CF (F := Ideal) Cert.ReferenceIdeal.S50000x256) (W : Cert.Gcn.CF (F := Ideal) Cert.ReferenceIdeal.S256x128) :
    Cert.Gcn.mm3 (F := Ideal) X W = mm (m := 50000) (k := 256) (n := 128) (φ₁ := .f32) (φ₂ := .f32) X W := by
  unfold Cert.Gcn.mm3
  exact dotGeneral_plain_eq none X W

/-- Where step t reads and writes: block t of the rows of X and of the output, the one block of W. -/
theorem block_indices4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The weight's block is the whole weight at every step. -/
theorem weight_block4 (c : Dev nD) (t : Fin cfg4.N) : (iblk4 (F := Ideal) V c 1 t : Vec Ideal S256x128 .f32) = V c main_arg7 := by
  obtain ⟨-, -, e2, e3, -, -⟩ := block_indices4 t
  funext y
  unfold iblk4
  rw [View.read_apply]
  show V c main_arg7 (((cfg4.win 1).blk t).view.emb y) = V c main_arg7 y
  congr 1
  funext a; apply Fin.ext
  match a with
  | ⟨0, _⟩ => show win4_1.index t (0 : Fin 2) * 256 + 1 * (y 0).val = (y 0).val; omega
  | ⟨1, _⟩ => show win4_1.index t (1 : Fin 2) * 128 + 1 * (y 1).val = (y 1).val; omega

/-- What step t writes back is rows 2000·t … 2000·t + 1999 of the whole product. -/
theorem written_block4 (c : Dev nD) (t : Fin cfg4.N) :
    (dat4 (F := Ideal) V c).flushed 2 t = ((cfg4.win 2).blk t).view.read (Elt Ideal)
      (mm (m := 50000) (k := 256) (n := 128) (φ₁ := .f32) (φ₂ := .f32) (V c main_v59) (V c main_arg7)) := by
  show (cfg4.win 2).cut (grid4.coords t) ((dat4 V c).after 2 t) = _
  rw [after4_2]
  unfold out4_2
  rw [View.canon_unit_zero zero_offsets]
  simp only [View.ld_unit_zero (S := S2000x256) zero_offsets, View.ld_unit_zero (S := S256x128) zero_offsets]
  rw [step_product4, weight_block4]
  obtain ⟨e0, e1, -, -, e4, e5⟩ := block_indices4 t
  funext j
  show mm (m := 2000) (k := 256) (n := 128) (φ₁ := .f32) (φ₂ := .f32) (iblk4 V c 0 t : Vec Ideal S2000x256 .f32) (V c main_arg7) j
    = mm (m := 50000) (k := 256) (n := 128) (φ₁ := .f32) (φ₂ := .f32) (V c main_v59) (V c main_arg7) (((cfg4.win 2).blk t).view.emb j)
  refine mm_rows (m := 2000) (M := 50000) (k := 256) (n := 128) (φ₁ := .f32) (φ₂ := .f32) (V c main_v59) (V c main_arg7)
    (iblk4 V c 0 t : Vec Ideal S2000x256 .f32) j (((cfg4.win 2).blk t).view.emb j) (fun k => ?_) ?_
  · -- row (j 0) of the block read is row 2000·t + (j 0) of X
    unfold iblk4
    rw [View.read_apply]
    show V c main_v59 (((cfg4.win 0).blk t).view.emb (ix2 (j 0) k)) = V c main_v59 (ix2 ((((cfg4.win 2).blk t).view.emb j) 0) k)
    congr 1
    funext a; apply Fin.ext
    match a with
    | ⟨0, _⟩ => show win4_0.index t (0 : Fin 2) * 2000 + 1 * (j 0).val = win4_2.index t (0 : Fin 2) * 2000 + 1 * (j 0).val; omega
    | ⟨1, _⟩ => show win4_0.index t (1 : Fin 2) * 256 + 1 * k.val = k.val; omega
  · -- the column is the same
    apply Fin.ext
    show (j 1).val = win4_2.index t (1 : Fin 2) * 128 + 1 * (j 1).val
    omega

/-- An index of the output lies in step t's block iff each coordinate lies in the block's range. -/
theorem mem_row_block4 (t : Fin cfg4.N) (i : S50000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole main_v60).slice (win4_2.rect t)).set ↔ _
  rw [View.set_slice_whole, Rect.mem_set_unit]
  exact Iff.rfl

/-- Row r is written by step r / 2000. -/
theorem rows_covered4 (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 25 := N_4
  obtain ⟨t, ht⟩ : ∃ t : Fin cfg4.N, t.val = (i 0).val / 2000 := ⟨⟨(i 0).val / 2000, by omega⟩, rfl⟩
  obtain ⟨-, -, -, -, e4, e5⟩ := block_indices4 t
  refine ⟨t, flush4_2 t, ?_⟩
  rw [mem_row_block4]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 128 ≤ (i 1).val ∧ (i 1).val < win4_2.index t (1 : Fin 2) * 128 + 128; omega

/-- After the 25 steps the output array is the whole product, as the host spells it. -/
theorem region4 (c : Dev nD) : (dat4 (F := Ideal) V c).arrAt 2 cfg4.N = Cert.Gcn.mm3 (F := Ideal) (V c main_v59) (V c main_arg7) := by
  rw [host_product4]
  exact (dat4 V c).arrAt_eq_of_cover 2 _ (fun t _ => written_block4 V c t) rows_covered4

end Cert.Gcn.RegionMM

end
-- ==== Proof.NormRamp256.lean ====
/-
  One entry of a normalised-ramp stage over 256 columns.

  With eps the float whose word is 0x3727C5AC, the stage sends an aggregate a (50000 rows of 256), a bias b and
  the four statistics vectors gamma, beta, mu, var (256 entries each) to the array whose entry (r, q) is
      max(((a(r,q) + b(q)) - mu(q)) * (var(q) + eps)^(-1/2) * gamma(q) + beta(q), 0).
  Two spellings of it are read here at an entry. The whole-array one lays each vector over the rows (a vector as
  one row, the row over all rows) and applies the arithmetic to whole arrays: its entry (r, q) is the formula above.
  The block one takes 2000 rows at a time, recasts each vector as a single row and repeats it over the block's 2000 rows:
  its entry (p, q) is the same formula of the block's entry (p, q) and of the vectors' q-th entries. Over the
  extended reals the two reciprocal square roots are one function, so both read to the same scalar expression, named
  point below.
-/
import proofs.«169095_j43130061586774_1_alg».proof.Proof.Chains
import proofs.«169095_j43130061586774_1_alg».proof.Proof.Gen.ReferenceIdeal
import proofs.«169095_j43130061586774_1_alg».proof.Proof.Gen.KernelIdeal.Skeleton
import Idealize.ShloMosaic.PureOps.Ideal
import Idealize.ShloMosaic.Lib.ValueLayout
import Idealize.ShloMosaic.Lib.ValueIdx

noncomputable section

namespace Cert.Gcn.RegionBN.W256

open Idealize.ShloMosaic Idealize.ShloMosaic.ValueIdx

/-- The stage at one entry: max(((a + b) - mu) * (var + eps)^(-1/2) * gamma + beta, 0). -/
def point (a b mu var g be : EReal) : EReal :=
  max ((((a + b) - mu) * Ideal.rsqrt (var + Ideal.ofBits .f32 0x3727C5AC#32)) * g + be) (Ideal.ofBits .f32 0x00000000#32)

section WholeArray
open Cert.ReferenceIdeal Cert.Gcn

/-- A vector laid over all rows reads, at (r, q), its q-th entry. -/
theorem rows256_apply (v : CF (F := Ideal) S256) (r : Fin 50000) (q : Fin 256) :
    rows256 (F := Ideal) v (ix2 r q) = v (ix1 q) := by
  unfold rows256
  refine (broadcastInDim_apply _ _ _ (ix2 r q) (ix2 (0 : Fin 1) q) fun ax => ?_).trans
    (broadcastInDim_apply _ _ _ (ix2 (0 : Fin 1) q) (ix1 q) fun ax => ?_)
  · match ax with
    | ⟨0, _⟩ => rfl
    | ⟨1, _⟩ => rfl
  · match ax with
    | ⟨0, _⟩ => rfl

/-- The whole-array stage at (r, q) is point of the aggregate's entry (r, q) and the vectors' q-th entries. -/
theorem bnrelu256_apply (a : CF (F := Ideal) S50000x256) (b g be mu var : CF (F := Ideal) S256) (r : Fin 50000) (q : Fin 256) :
    bnrelu256 (F := Ideal) a b g be mu var (ix2 r q)
      = point (a (ix2 r q)) (b (ix1 q)) (mu (ix1 q)) (var (ix1 q)) (g (ix1 q)) (be (ix1 q)) := by
  unfold bnrelu256 point
  simp only [maximumf_apply, addf_apply, mulf_apply, subf_apply, rows256_apply]
  rfl

end WholeArray

section Block
open Cert.KernelIdeal Cert.KernelIdeal.Gen

/-- The first 256-column stage's stored block at (p, q): point of the loaded block's entry (p, q) and the loaded
    vectors' q-th entries (the vectors in the order the body names them: bias, mu, var, gamma, beta). -/
theorem pay1_apply (a : Vec Ideal S2000x256 .f32) (b mu var g be : Vec Ideal S256 .f32) (p : Fin 2000) (q : Fin 256) :
    k1_pay1 (F := Ideal) a b mu var g be (ix2 p q)
      = point (a (ix2 p q)) (b (ix1 q)) (mu (ix1 q)) (var (ix1 q)) (g (ix1 q)) (be (ix1 q)) := by
  unfold k1_pay1 point
  simp only [maximumf_apply, addf_apply, mulf_apply, subf_apply, broadcast_apply, shapeCast_self,
    broadcastTo_1b_ab_apply, shapeCast_a_1a_apply]
  rfl

/-- The second 256-column stage's stored block at (p, q): the same expression. -/
theorem pay3_apply (a : Vec Ideal S2000x256 .f32) (b mu var g be : Vec Ideal S256 .f32) (p : Fin 2000) (q : Fin 256) :
    k3_pay1 (F := Ideal) a b mu var g be (ix2 p q)
      = point (a (ix2 p q)) (b (ix1 q)) (mu (ix1 q)) (var (ix1 q)) (g (ix1 q)) (be (ix1 q)) := by
  unfold k3_pay1 point
  simp only [maximumf_apply, addf_apply, mulf_apply, subf_apply, broadcast_apply, shapeCast_self,
    broadcastTo_1b_ab_apply, shapeCast_a_1a_apply]
  rfl

/-- The zero offsets of a rank-2 and of a rank-1 rectangle, as constant functions. -/
theorem zero2 : (![0, 0] : Fin 2 → Nat) = fun _ => 0 := funext fun a => by fin_cases a <;> rfl
theorem zero1 : (![0] : Fin 1 → Nat) = fun _ => 0 := funext fun a => by fin_cases a; rfl

/-- Two blocks of 2000 rows by 256 columns that agree at every (p, q) are equal. -/
theorem ext_block (X Y : (⟨2, ![2000, 256]⟩ : Shape).Idx → EReal)
    (h : ∀ (p : Fin 2000) (q : Fin 256), X (ix2 p q) = Y (ix2 p q)) : X = Y := by
  funext j; rw [eq_ix2 j]; exact h _ _

end Block

end Cert.Gcn.RegionBN.W256

end
-- ==== Proof.RegionBN1.lean ====
/-
  The first normalised-ramp stage over 256 columns, block by block, is the whole-array stage.

  The stage runs over 25 blocks of 2000 rows. At block t the body holds rows 2000 t ... 2000 t + 1999 of the aggregate
  and the five whole vectors, and stores, at (p, q), the stage's scalar expression of the aggregate's entry
  (2000 t + p, q) and the vectors' q-th entries: that is entry (2000 t + p, q) of the whole-array stage. Row r lies in
  block r / 2000, so the 25 blocks fill the 50000 rows and the array written back is the whole-array stage.
-/
import proofs.«169095_j43130061586774_1_alg».proof.Proof.NormRamp256
import proofs.«169095_j43130061586774_1_alg».proof.Proof.Gen.KernelIdeal.Frame
import Idealize.ShloMosaic.Lib.Pipeline.Value

noncomputable section

namespace Cert.Gcn.RegionBN

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- Where each window's block sits at block t: the aggregate's and the result's at rows 2000 t, columns from 0; every
    vector whole. -/
theorem blocks1 : ∀ t : Fin cfg1.N, win1_0.index t (0 : Fin 2) = t.val ∧ win1_0.index t (1 : Fin 2) = 0
    ∧ win1_6.index t (0 : Fin 2) = t.val ∧ win1_6.index t (1 : Fin 2) = 0
    ∧ win1_1.index t (0 : Fin 1) = 0 ∧ win1_2.index t (0 : Fin 1) = 0 ∧ win1_3.index t (0 : Fin 1) = 0
    ∧ win1_4.index t (0 : Fin 1) = 0 ∧ win1_5.index t (0 : Fin 1) = 0 :=
  (by decide +kernel : ∀ t : Fin grid1.N, _)

/-- What block t writes back is block t of the whole-array stage of the arrays the stage starts from. -/
theorem written1 (c : Dev nD) (t : Fin cfg1.N) :
    (dat1 (F := Ideal) V c).flushed 6 t = ((cfg1.win 6).blk t).view.read (Elt Ideal)
      (Cert.Gcn.bnrelu256 (F := Ideal) (V c main_v43) (V c main_arg4) (V c main_arg9) (V c main_arg10) (V c main_arg11) (V c main_arg12)) := by
  show (cfg1.win 6).cut (grid1.coords t) ((dat1 V c).after 6 t) = _
  rw [after1_6]
  unfold out1_6
  rw [View.canon_unit_zero W256.zero2]
  simp only [View.ld_unit_zero (S := S2000x256) W256.zero2, View.ld_unit_zero (S := S256) W256.zero1]
  obtain ⟨e00, e01, e60, e61, e1, e2, e3, e4, e5⟩ := blocks1 t
  refine W256.ext_block _ _ fun p q => ?_
  refine (W256.pay1_apply _ _ _ _ _ _ p q).trans ?_
  have hN : t.val < 25 := lt_of_lt_of_eq t.isLt (show cfg1.N = 25 from N_1)
  have hr : t.val * 2000 + p.val < 50000 := by have := p.isLt; omega
  -- the block's entry (p, q) is the array's entry (2000 t + p, q)
  have hemb : ((View.whole main_v44).slice ((win1 6).rect t)).emb (ix2 p q) = ix2 (⟨t.val * 2000 + p.val, hr⟩ : Fin 50000) q := by
    funext a; apply Fin.ext
    match a with
    | ⟨0, _⟩ => show win1_6.index t (0 : Fin 2) * 2000 + 1 * p.val = t.val * 2000 + p.val; rw [e60]; omega
    | ⟨1, _⟩ => show win1_6.index t (1 : Fin 2) * 256 + 1 * q.val = q.val; rw [e61]; omega
  refine Eq.trans ?_ (congrArg (Cert.Gcn.bnrelu256 (F := Ideal) (V c main_v43) (V c main_arg4) (V c main_arg9) (V c main_arg10) (V c main_arg11) (V c main_arg12)) hemb).symm
  rw [W256.bnrelu256_apply]
  -- each loaded block, read where the result's block sits
  have b0 : iblk1 V c 0 t (ix2 p q) = V c main_v43 (ix2 (⟨t.val * 2000 + p.val, hr⟩ : Fin 50000) q) := by
    show V c main_v43 (((cfg1.win 0).blk t).view.emb (ix2 p q)) = _
    refine congrArg _ (funext fun a => Fin.ext ?_)
    match a with
    | ⟨0, _⟩ => show win1_0.index t (0 : Fin 2) * 2000 + 1 * p.val = t.val * 2000 + p.val; rw [e00]; omega
    | ⟨1, _⟩ => show win1_0.index t (1 : Fin 2) * 256 + 1 * q.val = q.val; rw [e01]; omega
  have b1 : iblk1 V c 1 t (ix1 q) = V c main_arg4 (ix1 q) := by
    show V c main_arg4 (((cfg1.win 1).blk t).view.emb (ix1 q)) = _
    refine congrArg _ (funext fun a => Fin.ext ?_)
    match a with
    | ⟨0, _⟩ => show win1_1.index t (0 : Fin 1) * 256 + 1 * q.val = q.val; rw [e1]; omega
  have b2 : iblk1 V c 2 t (ix1 q) = V c main_arg9 (ix1 q) := by
    show V c main_arg9 (((cfg1.win 2).blk t).view.emb (ix1 q)) = _
    refine congrArg _ (funext fun a => Fin.ext ?_)
    match a with
    | ⟨0, _⟩ => show win1_2.index t (0 : Fin 1) * 256 + 1 * q.val = q.val; rw [e2]; omega
  have b3 : iblk1 V c 3 t (ix1 q) = V c main_arg10 (ix1 q) := by
    show V c main_arg10 (((cfg1.win 3).blk t).view.emb (ix1 q)) = _
    refine congrArg _ (funext fun a => Fin.ext ?_)
    match a with
    | ⟨0, _⟩ => show win1_3.index t (0 : Fin 1) * 256 + 1 * q.val = q.val; rw [e3]; omega
  have b4 : iblk1 V c 4 t (ix1 q) = V c main_arg11 (ix1 q) := by
    show V c main_arg11 (((cfg1.win 4).blk t).view.emb (ix1 q)) = _
    refine congrArg _ (funext fun a => Fin.ext ?_)
    match a with
    | ⟨0, _⟩ => show win1_4.index t (0 : Fin 1) * 256 + 1 * q.val = q.val; rw [e4]; omega
  have b5 : iblk1 V c 5 t (ix1 q) = V c main_arg12 (ix1 q) := by
    show V c main_arg12 (((cfg1.win 5).blk t).view.emb (ix1 q)) = _
    refine congrArg _ (funext fun a => Fin.ext ?_)
    match a with
    | ⟨0, _⟩ => show win1_5.index t (0 : Fin 1) * 256 + 1 * q.val = q.val; rw [e5]; omega
  rw [b0, b1, b2, b3, b4, b5]

/-- An entry of the array is in block t iff, on each axis, it is within the block's extent from the block's offset. -/
theorem mem_block1 (t : Fin cfg1.N) (i : S50000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v44).slice (win1_6.rect t)).set ↔ _
  rw [View.set_slice_whole, Rect.mem_set_unit]
  exact Iff.rfl

/-- After the 25 blocks the result array is the whole-array stage: row r is written by block r / 2000. -/
theorem region1 (c : Dev nD) : (dat1 (F := Ideal) V c).arrAt 6 cfg1.N = Cert.Gcn.bnrelu256 (F := Ideal) (V c main_v43) (V c main_arg4) (V c main_arg9) (V c main_arg10) (V c main_arg11) (V c main_arg12) :=
  (dat1 V c).arrAt_eq_of_cover 6 _ (fun t _ => written1 V c t) fun i => by
    have h0 : (i 0 : Nat) < 50000 := (i 0).isLt
    have h1 : (i 1 : Nat) < 256 := (i 1).isLt
    have hN : cfg1.N = 25 := N_1
    have ht : (i 0 : Nat) / 2000 < cfg1.N := by rw [hN]; omega
    obtain ⟨_, _, e60, e61, _⟩ := blocks1 ⟨(i 0 : Nat) / 2000, ht⟩
    refine ⟨⟨(i 0 : Nat) / 2000, ht⟩, flush1_6 _, ?_⟩
    rw [mem_block1]
    intro a
    match a with
    | ⟨0, _⟩ =>
      show win1_6.index ⟨(i 0 : Nat) / 2000, ht⟩ (0 : Fin 2) * 2000 ≤ (i 0 : Nat) ∧ (i 0 : Nat) < win1_6.index ⟨(i 0 : Nat) / 2000, ht⟩ (0 : Fin 2) * 2000 + 2000
      rw [e60]; show (i 0 : Nat) / 2000 * 2000 ≤ (i 0 : Nat) ∧ (i 0 : Nat) < (i 0 : Nat) / 2000 * 2000 + 2000; omega
    | ⟨1, _⟩ =>
      show win1_6.index ⟨(i 0 : Nat) / 2000, ht⟩ (1 : Fin 2) * 256 ≤ (i 1 : Nat) ∧ (i 1 : Nat) < win1_6.index ⟨(i 0 : Nat) / 2000, ht⟩ (1 : Fin 2) * 256 + 256
      rw [e61]; omega

end Cert.Gcn.RegionBN

end
-- ==== Proof.RegionBN3.lean ====
/-
  The second normalised-ramp stage over 256 columns, block by block, is the whole-array stage.

  The stage runs over 25 blocks of 2000 rows. At block t the body holds rows 2000 t ... 2000 t + 1999 of the aggregate
  and the five whole vectors, and stores, at (p, q), the stage's scalar expression of the aggregate's entry
  (2000 t + p, q) and the vectors' q-th entries: that is entry (2000 t + p, q) of the whole-array stage. Row r lies in
  block r / 2000, so the 25 blocks fill the 50000 rows and the array written back is the whole-array stage.
-/
import proofs.«169095_j43130061586774_1_alg».proof.Proof.NormRamp256
import proofs.«169095_j43130061586774_1_alg».proof.Proof.Gen.KernelIdeal.Frame
import Idealize.ShloMosaic.Lib.Pipeline.Value

noncomputable section

namespace Cert.Gcn.RegionBN

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- Where each window's block sits at block t: the aggregate's and the result's at rows 2000 t, columns from 0; every
    vector whole. -/
theorem blocks3 : ∀ t : Fin cfg3.N, win3_0.index t (0 : Fin 2) = t.val ∧ win3_0.index t (1 : Fin 2) = 0
    ∧ win3_6.index t (0 : Fin 2) = t.val ∧ win3_6.index t (1 : Fin 2) = 0
    ∧ win3_1.index t (0 : Fin 1) = 0 ∧ win3_2.index t (0 : Fin 1) = 0 ∧ win3_3.index t (0 : Fin 1) = 0
    ∧ win3_4.index t (0 : Fin 1) = 0 ∧ win3_5.index t (0 : Fin 1) = 0 :=
  (by decide +kernel : ∀ t : Fin grid3.N, _)

/-- What block t writes back is block t of the whole-array stage of the arrays the stage starts from. -/
theorem written3 (c : Dev nD) (t : Fin cfg3.N) :
    (dat3 (F := Ideal) V c).flushed 6 t = ((cfg3.win 6).blk t).view.read (Elt Ideal)
      (Cert.Gcn.bnrelu256 (F := Ideal) (V c main_v58) (V c main_arg6) (V c main_arg13) (V c main_arg14) (V c main_arg15) (V c main_arg16)) := by
  show (cfg3.win 6).cut (grid3.coords t) ((dat3 V c).after 6 t) = _
  rw [after3_6]
  unfold out3_6
  rw [View.canon_unit_zero W256.zero2]
  simp only [View.ld_unit_zero (S := S2000x256) W256.zero2, View.ld_unit_zero (S := S256) W256.zero1]
  obtain ⟨e00, e01, e60, e61, e1, e2, e3, e4, e5⟩ := blocks3 t
  refine W256.ext_block _ _ fun p q => ?_
  refine (W256.pay3_apply _ _ _ _ _ _ p q).trans ?_
  have hN : t.val < 25 := lt_of_lt_of_eq t.isLt (show cfg3.N = 25 from N_3)
  have hr : t.val * 2000 + p.val < 50000 := by have := p.isLt; omega
  -- the block's entry (p, q) is the array's entry (2000 t + p, q)
  have hemb : ((View.whole main_v59).slice ((win3 6).rect t)).emb (ix2 p q) = ix2 (⟨t.val * 2000 + p.val, hr⟩ : Fin 50000) q := by
    funext a; apply Fin.ext
    match a with
    | ⟨0, _⟩ => show win3_6.index t (0 : Fin 2) * 2000 + 1 * p.val = t.val * 2000 + p.val; rw [e60]; omega
    | ⟨1, _⟩ => show win3_6.index t (1 : Fin 2) * 256 + 1 * q.val = q.val; rw [e61]; omega
  refine Eq.trans ?_ (congrArg (Cert.Gcn.bnrelu256 (F := Ideal) (V c main_v58) (V c main_arg6) (V c main_arg13) (V c main_arg14) (V c main_arg15) (V c main_arg16)) hemb).symm
  rw [W256.bnrelu256_apply]
  -- each loaded block, read where the result's block sits
  have b0 : iblk3 V c 0 t (ix2 p q) = V c main_v58 (ix2 (⟨t.val * 2000 + p.val, hr⟩ : Fin 50000) q) := by
    show V c main_v58 (((cfg3.win 0).blk t).view.emb (ix2 p q)) = _
    refine congrArg _ (funext fun a => Fin.ext ?_)
    match a with
    | ⟨0, _⟩ => show win3_0.index t (0 : Fin 2) * 2000 + 1 * p.val = t.val * 2000 + p.val; rw [e00]; omega
    | ⟨1, _⟩ => show win3_0.index t (1 : Fin 2) * 256 + 1 * q.val = q.val; rw [e01]; omega
  have b1 : iblk3 V c 1 t (ix1 q) = V c main_arg6 (ix1 q) := by
    show V c main_arg6 (((cfg3.win 1).blk t).view.emb (ix1 q)) = _
    refine congrArg _ (funext fun a => Fin.ext ?_)
    match a with
    | ⟨0, _⟩ => show win3_1.index t (0 : Fin 1) * 256 + 1 * q.val = q.val; rw [e1]; omega
  have b2 : iblk3 V c 2 t (ix1 q) = V c main_arg13 (ix1 q) := by
    show V c main_arg13 (((cfg3.win 2).blk t).view.emb (ix1 q)) = _
    refine congrArg _ (funext fun a => Fin.ext ?_)
    match a with
    | ⟨0, _⟩ => show win3_2.index t (0 : Fin 1) * 256 + 1 * q.val = q.val; rw [e2]; omega
  have b3 : iblk3 V c 3 t (ix1 q) = V c main_arg14 (ix1 q) := by
    show V c main_arg14 (((cfg3.win 3).blk t).view.emb (ix1 q)) = _
    refine congrArg _ (funext fun a => Fin.ext ?_)
    match a with
    | ⟨0, _⟩ => show win3_3.index t (0 : Fin 1) * 256 + 1 * q.val = q.val; rw [e3]; omega
  have b4 : iblk3 V c 4 t (ix1 q) = V c main_arg15 (ix1 q) := by
    show V c main_arg15 (((cfg3.win 4).blk t).view.emb (ix1 q)) = _
    refine congrArg _ (funext fun a => Fin.ext ?_)
    match a with
    | ⟨0, _⟩ => show win3_4.index t (0 : Fin 1) * 256 + 1 * q.val = q.val; rw [e4]; omega
  have b5 : iblk3 V c 5 t (ix1 q) = V c main_arg16 (ix1 q) := by
    show V c main_arg16 (((cfg3.win 5).blk t).view.emb (ix1 q)) = _
    refine congrArg _ (funext fun a => Fin.ext ?_)
    match a with
    | ⟨0, _⟩ => show win3_5.index t (0 : Fin 1) * 256 + 1 * q.val = q.val; rw [e5]; omega
  rw [b0, b1, b2, b3, b4, b5]

/-- An entry of the array is in block t iff, on each axis, it is within the block's extent from the block's offset. -/
theorem mem_block3 (t : Fin cfg3.N) (i : S50000x256.Idx) :
    i ∈ ((cfg3.win 6).blk t).view.set ↔ ∀ a : Fin 2, win3_6.index t a * S2000x256.size a ≤ (i a).val ∧ (i a).val < win3_6.index t a * S2000x256.size a + S2000x256.size a := by
  show i ∈ ((View.whole main_v59).slice (win3_6.rect t)).set ↔ _
  rw [View.set_slice_whole, Rect.mem_set_unit]
  exact Iff.rfl

/-- After the 25 blocks the result array is the whole-array stage: row r is written by block r / 2000. -/
theorem region3 (c : Dev nD) : (dat3 (F := Ideal) V c).arrAt 6 cfg3.N = Cert.Gcn.bnrelu256 (F := Ideal) (V c main_v58) (V c main_arg6) (V c main_arg13) (V c main_arg14) (V c main_arg15) (V c main_arg16) :=
  (dat3 V c).arrAt_eq_of_cover 6 _ (fun t _ => written3 V c t) fun i => by
    have h0 : (i 0 : Nat) < 50000 := (i 0).isLt
    have h1 : (i 1 : Nat) < 256 := (i 1).isLt
    have hN : cfg3.N = 25 := N_3
    have ht : (i 0 : Nat) / 2000 < cfg3.N := by rw [hN]; omega
    obtain ⟨_, _, e60, e61, _⟩ := blocks3 ⟨(i 0 : Nat) / 2000, ht⟩
    refine ⟨⟨(i 0 : Nat) / 2000, ht⟩, flush3_6 _, ?_⟩
    rw [mem_block3]
    intro a
    match a with
    | ⟨0, _⟩ =>
      show win3_6.index ⟨(i 0 : Nat) / 2000, ht⟩ (0 : Fin 2) * 2000 ≤ (i 0 : Nat) ∧ (i 0 : Nat) < win3_6.index ⟨(i 0 : Nat) / 2000, ht⟩ (0 : Fin 2) * 2000 + 2000
      rw [e60]; show (i 0 : Nat) / 2000 * 2000 ≤ (i 0 : Nat) ∧ (i 0 : Nat) < (i 0 : Nat) / 2000 * 2000 + 2000; omega
    | ⟨1, _⟩ =>
      show win3_6.index ⟨(i 0 : Nat) / 2000, ht⟩ (1 : Fin 2) * 256 ≤ (i 1 : Nat) ∧ (i 1 : Nat) < win3_6.index ⟨(i 0 : Nat) / 2000, ht⟩ (1 : Fin 2) * 256 + 256
      rw [e61]; omega

end Cert.Gcn.RegionBN

end
-- ==== Proof.RegionBN5.lean ====
/- Region 5: the last layer's bias, normalisation by running statistics, and ramp, on 128 columns.

   The region walks 25 grid points. At point t it reads rows 2000·t … 2000·t + 1999 of the aggregate a (all 128
   columns) and the five 128-vectors b, γ, β, μ, σ² whole, and writes back the block whose entry (p, q) is
       max(((a(2000·t + p, q) + b(q)) − μ(q)) · (σ²(q) + ε)^(-1/2) · γ(q) + β(q), 0).
   The whole-array stage has at entry (r, q) the same expression of a(r, q) and the vectors' q-th entries: a vector
   laid over rows reads its column's entry, in the block's spelling and in the array's alike, and the sum with ε, the
   inverse square root and the maximum against zero are the same functions of the extended reals on both sides.
   Row r lies in the block of point r / 2000, so the 25 blocks fill the 50000 rows, and after the 25 write-backs the
   output array is the whole-array stage of the arrays the region found. -/
import proofs.«169095_j43130061586774_1_alg».proof.Proof.Chains
import proofs.«169095_j43130061586774_1_alg».proof.Proof.Gen.ReferenceIdeal
import proofs.«169095_j43130061586774_1_alg».proof.Proof.Gen.KernelIdeal.Frame
import Idealize.ShloMosaic.Lib.Pipeline.Value
import Idealize.ShloMosaic.Lib.ValueIdx
import Idealize.ShloMosaic.Lib.ValueLayout

noncomputable section

namespace Cert.Gcn.RegionBN

open Cert.KernelIdeal Cert.KernelIdeal.Gen Idealize.ShloMosaic Idealize.ShloMosaic.TcCoe Idealize.SL.Sem
open Idealize.ShloMosaic.ValueIdx

namespace R5

/-! ## One entry, on both sides -/

/-- One entry of the normalised ramp: max(((a + b) − μ) · (σ² + ε)^(-1/2) · γ + β, 0). -/
def bnAt (a b g β μ var : Ideal .f32) : Ideal .f32 :=
  max ((((a + b) - μ) * Ideal.rsqrt (var + Ideal.ofBits .f32 0x3727C5AC#32)) * g + β) (Ideal.ofBits .f32 0x00000000#32)

/-- A 128-vector laid over the 2000 rows of a block reads its column's entry. -/
theorem blockRow_apply (v : FVec Ideal S128 .f32) (p : Fin 2000) (q : Fin 128) :
    broadcastTo S2000x128 (shapeCast S1x128 v shapeCasts_S128_S1x128) broadcasts_S1x128_S2000x128 (ix2 p q) = v (ix1 q) :=
  (broadcastTo_1b_ab_apply _ _ p q).trans (shapeCast_a_1a_apply v _ 0 q)

/-- The block's arithmetic at entry (p, q). -/
theorem pay_apply (x0 : Vec Ideal S2000x128 .f32) (b μ var g β : Vec Ideal S128 .f32) (p : Fin 2000) (q : Fin 128) :
    k5_pay1 x0 b μ var g β (ix2 p q)
      = bnAt (x0 (ix2 p q)) (b (ix1 q)) (g (ix1 q)) (β (ix1 q)) (μ (ix1 q)) (var (ix1 q)) := by
  unfold k5_pay1 bnAt
  simp only [maximumf_apply, addf_apply, mulf_apply, subf_apply, blockRow_apply, shapeCast_self, broadcast_apply]
  rfl

/-- A 128-vector laid over all 50000 rows reads its column's entry. -/
theorem rows128_apply (v : Cert.Gcn.CF (F := Ideal) Cert.ReferenceIdeal.S128) (r : Fin 50000) (q : Fin 128) :
    Cert.Gcn.rows128 (F := Ideal) v (ix2 r q) = v (ix1 q) := by
  unfold Cert.Gcn.rows128
  refine (broadcastInDim_apply _ _ _ (ix2 r q) (ix2 (0 : Fin 1) q) fun a => ?_).trans
    (broadcastInDim_apply _ _ v (ix2 (0 : Fin 1) q) (ix1 q) fun a => ?_)
  · match a with
    | ⟨0, _⟩ => rfl
    | ⟨1, _⟩ => rfl
  · match a with
    | ⟨0, _⟩ => rfl

/-- The whole-array stage at entry (r, q). -/
theorem bnrelu128_apply (a : Cert.Gcn.CF (F := Ideal) Cert.ReferenceIdeal.S50000x128)
    (b g β μ var : Cert.Gcn.CF (F := Ideal) Cert.ReferenceIdeal.S128) (r : Fin 50000) (q : Fin 128) :
    Cert.Gcn.bnrelu128 (F := Ideal) a b g β μ var (ix2 r q)
      = bnAt (a (ix2 r q)) (b (ix1 q)) (g (ix1 q)) (β (ix1 q)) (μ (ix1 q)) (var (ix1 q)) := by
  unfold Cert.Gcn.bnrelu128 bnAt
  simp only [maximumf_apply, addf_apply, mulf_apply, subf_apply, rows128_apply]
  rfl

/-! ## From blocks to the array -/

theorem zeros2 : (![0, 0] : Fin 2 → Nat) = fun _ => 0 := funext fun a => by fin_cases a <;> rfl
theorem zeros1 : (![0] : Fin 1 → Nat) = fun _ => 0 := funext fun a => by fin_cases a; rfl

/-- Over the 25 grid points: the aggregate's window and the output's move together, one block of 2000 rows per point,
    all 128 columns; the five vectors' windows stay at their one block. -/
theorem idx_facts : ∀ t : Fin cfg5.N,
    win5_6.index t (0 : Fin 2) = t.val ∧ win5_6.index t (1 : Fin 2) = 0
    ∧ win5_0.index t (0 : Fin 2) = t.val ∧ win5_0.index t (1 : Fin 2) = 0
    ∧ win5_1.index t (0 : Fin 1) = 0 ∧ win5_2.index t (0 : Fin 1) = 0 ∧ win5_3.index t (0 : Fin 1) = 0
    ∧ win5_4.index t (0 : Fin 1) = 0 ∧ win5_5.index t (0 : Fin 1) = 0 :=
  (by decide +kernel : ∀ t : Fin grid5.N, _)

/-- Entry (p, q) of a block's result is entry (r, q) of the whole-array stage, once the block's aggregate entry is the
    array's at (r, q) and the five vectors' blocks are the vectors. -/
theorem block_entry (x0 : Vec Ideal S2000x128 .f32) (x1 x2 x3 x4 x5 : Vec Ideal S128 .f32)
    (A : Cert.Gcn.CF (F := Ideal) Cert.ReferenceIdeal.S50000x128)
    (B G Bt Mu Vr : Cert.Gcn.CF (F := Ideal) Cert.ReferenceIdeal.S128)
    (p : Fin 2000) (q : Fin 128) (r : Fin 50000)
    (h0 : x0 (ix2 p q) = A (ix2 r q)) (h1 : x1 (ix1 q) = B (ix1 q)) (h2 : x2 (ix1 q) = G (ix1 q))
    (h3 : x3 (ix1 q) = Bt (ix1 q)) (h4 : x4 (ix1 q) = Mu (ix1 q)) (h5 : x5 (ix1 q) = Vr (ix1 q)) :
    k5_pay1 x0 x1 x4 x5 x2 x3 (ix2 p q) = Cert.Gcn.bnrelu128 (F := Ideal) A B G Bt Mu Vr (ix2 r q) := by
  rw [pay_apply, bnrelu128_apply, h0, h1, h2, h3, h4, h5]

variable (V : (c : Dev nD) → (b : Ref sig .tc) → Buf (Elt Ideal) ((c : Thread nD τ).loc b))

/-- What grid point t writes back is block t of the whole-array stage of the arrays the region finds. -/
theorem flushed_eq (c : Dev nD) (t : Fin cfg5.N) :
    (dat5 (F := Ideal) V c).flushed 6 t = ((cfg5.win 6).blk t).view.read (Elt Ideal)
      (Cert.Gcn.bnrelu128 (F := Ideal) (V c main_v73) (V c main_arg8) (V c main_arg17) (V c main_arg18) (V c main_arg19) (V c main_arg20)) := by
  show (cfg5.win 6).cut (grid5.coords t) ((dat5 V c).after 6 t) = _
  rw [after5_6]
  unfold out5_6
  rw [View.canon_unit_zero zeros2]
  simp only [View.ld_unit_zero (S := S2000x128) zeros2, View.ld_unit_zero (S := S128) zeros1]
  funext j
  obtain ⟨e60, e61, e00, e01, e1, e2, e3, e4, e5⟩ := idx_facts t
  have hj0 : (j 0).val < 2000 := (j 0).isLt
  have hj1 : (j 1).val < 128 := (j 1).isLt
  have ht : t.val < 25 := lt_of_lt_of_eq t.isLt N_5
  have hx : (win5 6).xinj (grid5.coords t) j = ix2 (⟨(j 0).val, hj0⟩ : Fin 2000) (⟨(j 1).val, hj1⟩ : Fin 128) := by
    funext a
    match a with
    | ⟨0, _⟩ => rfl
    | ⟨1, _⟩ => rfl
  have hemb : ((cfg5.win 6).blk t).view.emb j
      = ix2 (⟨t.val * 2000 + (j 0).val, by omega⟩ : Fin 50000) (⟨(j 1).val, hj1⟩ : Fin 128) := by
    funext a; apply Fin.ext
    match a with
    | ⟨0, _⟩ => show win5_6.index t (0 : Fin 2) * 2000 + 1 * (j 0).val = t.val * 2000 + (j 0).val; omega
    | ⟨1, _⟩ => show win5_6.index t (1 : Fin 2) * 128 + 1 * (j 1).val = (j 1).val; omega
  show k5_pay1 (iblk5 V c 0 t) (iblk5 V c 1 t) (iblk5 V c 4 t) (iblk5 V c 5 t) (iblk5 V c 2 t) (iblk5 V c 3 t)
        ((win5 6).xinj (grid5.coords t) j)
      = Cert.Gcn.bnrelu128 (F := Ideal) (V c main_v73) (V c main_arg8) (V c main_arg17) (V c main_arg18) (V c main_arg19) (V c main_arg20)
        (((cfg5.win 6).blk t).view.emb j)
  rw [hx, hemb]
  refine block_entry (iblk5 V c 0 t) (iblk5 V c 1 t) (iblk5 V c 2 t) (iblk5 V c 3 t) (iblk5 V c 4 t) (iblk5 V c 5 t)
    (V c main_v73) (V c main_arg8) (V c main_arg17) (V c main_arg18) (V c main_arg19) (V c main_arg20) _ _ _ ?_ ?_ ?_ ?_ ?_ ?_
  · show V c main_v73 (((cfg5.win 0).blk t).view.emb (ix2 (⟨(j 0).val, hj0⟩ : Fin 2000) (⟨(j 1).val, hj1⟩ : Fin 128))) = _
    refine congrArg (V c main_v73) ?_
    funext a; apply Fin.ext
    match a with
    | ⟨0, _⟩ => show win5_0.index t (0 : Fin 2) * 2000 + 1 * (j 0).val = t.val * 2000 + (j 0).val; omega
    | ⟨1, _⟩ => show win5_0.index t (1 : Fin 2) * 128 + 1 * (j 1).val = (j 1).val; omega
  · show V c main_arg8 (((cfg5.win 1).blk t).view.emb (ix1 (⟨(j 1).val, hj1⟩ : Fin 128))) = _
    refine congrArg (V c main_arg8) ?_
    funext a; apply Fin.ext
    match a with
    | ⟨0, _⟩ => show win5_1.index t (0 : Fin 1) * 128 + 1 * (j 1).val = (j 1).val; omega
  · show V c main_arg17 (((cfg5.win 2).blk t).view.emb (ix1 (⟨(j 1).val, hj1⟩ : Fin 128))) = _
    refine congrArg (V c main_arg17) ?_
    funext a; apply Fin.ext
    match a with
    | ⟨0, _⟩ => show win5_2.index t (0 : Fin 1) * 128 + 1 * (j 1).val = (j 1).val; omega
  · show V c main_arg18 (((cfg5.win 3).blk t).view.emb (ix1 (⟨(j 1).val, hj1⟩ : Fin 128))) = _
    refine congrArg (V c main_arg18) ?_
    funext a; apply Fin.ext
    match a with
    | ⟨0, _⟩ => show win5_3.index t (0 : Fin 1) * 128 + 1 * (j 1).val = (j 1).val; omega
  · show V c main_arg19 (((cfg5.win 4).blk t).view.emb (ix1 (⟨(j 1).val, hj1⟩ : Fin 128))) = _
    refine congrArg (V c main_arg19) ?_
    funext a; apply Fin.ext
    match a with
    | ⟨0, _⟩ => show win5_4.index t (0 : Fin 1) * 128 + 1 * (j 1).val = (j 1).val; omega
  · show V c main_arg20 (((cfg5.win 5).blk t).view.emb (ix1 (⟨(j 1).val, hj1⟩ : Fin 128))) = _
    refine congrArg (V c main_arg20) ?_
    funext a; apply Fin.ext
    match a with
    | ⟨0, _⟩ => show win5_5.index t (0 : Fin 1) * 128 + 1 * (j 1).val = (j 1).val; omega

/-- An entry of the output array lies in grid point t's block iff each coordinate lies in the block's range. -/
theorem mem_blk (t : Fin cfg5.N) (i : S50000x128.Idx) :
    i ∈ ((cfg5.win 6).blk t).view.set ↔ ∀ a : Fin 2, win5_6.index t a * S2000x128.size a ≤ (i a).val
      ∧ (i a).val < win5_6.index t a * S2000x128.size a + S2000x128.size a := by
  show i ∈ ((View.whole main_v74).slice (win5_6.rect t)).set ↔ _
  rw [View.set_slice_whole, Rect.mem_set_unit]
  exact Iff.rfl

/-- Row r lies in the block of grid point r / 2000: the 25 blocks of 2000 rows fill the 50000 rows. -/
theorem cover (i : S50000x128.Idx) :
    ∃ t : Fin cfg5.N, (cfg5.win 6).flush t = true ∧ i ∈ ((cfg5.win 6).blk t).view.set := by
  have hi0 : (i 0).val < 50000 := (i 0).isLt
  have hi1 : (i 1).val < 128 := (i 1).isLt
  have hN : (i 0).val / 2000 < cfg5.N := lt_of_lt_of_eq (by omega : (i 0).val / 2000 < 25) N_5.symm
  obtain ⟨e60, e61, -⟩ := idx_facts ⟨(i 0).val / 2000, hN⟩
  have e60' : win5_6.index ⟨(i 0).val / 2000, hN⟩ (0 : Fin 2) = (i 0).val / 2000 := e60
  refine ⟨⟨(i 0).val / 2000, hN⟩, flush5_6 _, ?_⟩
  rw [mem_blk]
  intro a
  match a with
  | ⟨0, _⟩ =>
    show win5_6.index ⟨(i 0).val / 2000, hN⟩ (0 : Fin 2) * 2000 ≤ (i 0).val
      ∧ (i 0).val < win5_6.index ⟨(i 0).val / 2000, hN⟩ (0 : Fin 2) * 2000 + 2000
    omega
  | ⟨1, _⟩ =>
    show win5_6.index ⟨(i 0).val / 2000, hN⟩ (1 : Fin 2) * 128 ≤ (i 1).val
      ∧ (i 1).val < win5_6.index ⟨(i 0).val / 2000, hN⟩ (1 : Fin 2) * 128 + 128
    omega

end R5

variable (V : (c : Dev nD) → (b : Ref sig .tc) → Buf (Elt Ideal) ((c : Thread nD τ).loc b))

/-- After its 25 grid points, region 5's output array is the whole-array normalised ramp of the arrays it found. -/
theorem region5 (c : Dev nD) :
    (dat5 (F := Ideal) V c).arrAt 6 cfg5.N = Cert.Gcn.bnrelu128 (F := Ideal) (V c main_v73) (V c main_arg8) (V c main_arg17) (V c main_arg18) (V c main_arg19) (V c main_arg20) :=
  (dat5 V c).arrAt_eq_of_cover 6 _ (fun t _ => R5.flushed_eq V c t) R5.cover

end Cert.Gcn.RegionBN
-- ==== Proof.Keep.lean ====
/- Buffers that nothing writes keep their contents along the run.

   The run of the kernel program folds a core's buffer contents through host stretches and regions.  A host
   stretch changes only the buffers its operations write; a region changes only its windows' arrays.  So a buffer
   outside the literal list of a stretch's results, and outside a region's arrays, holds after the step what it held
   before.  Composing the steps: each program argument still holds its launch contents where a region first reads
   it, and the three edge arrays (sources, targets, weights), computed before the first region, are unchanged at the
   exits of regions 0, 2 and 4. -/
import proofs.«169095_j43130061586774_1_alg».proof.Proof.Gen.KernelIdeal.Frame
import Idealize.ShloMosaic.Lib.StableHlo.Run

noncomputable section

namespace Cert.Gcn.Keep

open Cert.KernelIdeal Cert.KernelIdeal.Gen Idealize.ShloMosaic Idealize.ShloMosaic.TcCoe Idealize.SL.Sem

variable {F : FTy → Type} [FloatOps F]

/-! ## What each host stretch writes -/

/-- A one-element set of device buffers lies in the image of any list of references holding that reference. -/
theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The results of the stretch before the degree normalisation's selection. -/
def written0 : List (Ref sig .tc) :=
  [main_v0, main_v1, main_v2, main_v3, main_v4, main_v5, main_v6, main_cst, main_v7, main_cst_0, main_v8, main_v9,
   main_v10, main_cst_1, main_v11, main_v12, main_v13, main_cst_2]
/-- The results of the selection (the called function's three operations). -/
def written0_1 : List (Ref sig .tc) := [main_call0_v0, main_call0_v1, main_v14]
/-- The results of the stretch computing the edge weights. -/
def written0_2 : List (Ref sig .tc) :=
  [main_c, main_v15, main_v16, main_c_3, main_v17, main_v18, main_v19, main_v20, main_v21, main_c_4, main_v22,
   main_v23, main_c_5, main_v24, main_v25, main_v26, main_v27, main_v28, main_v29]
/-- The results of the first aggregation (gather, weight, scatter-add) between regions 0 and 1. -/
def written1 : List (Ref sig .tc) :=
  [main_c_6, main_v31, main_v32, main_c_7, main_v33, main_v34, main_v35, main_v36, main_v37, main_v38, main_v39,
   main_v40, main_cst_8, main_v41, main_v42, main_v43]
/-- The results of the second aggregation, between regions 2 and 3. -/
def written3 : List (Ref sig .tc) :=
  [main_c_9, main_v46, main_v47, main_c_10, main_v48, main_v49, main_v50, main_v51, main_v52, main_v53, main_v54,
   main_v55, main_cst_11, main_v56, main_v57, main_v58]
/-- The results of the third aggregation, between regions 4 and 5. -/
def written5 : List (Ref sig .tc) :=
  [main_c_12, main_v61, main_v62, main_c_13, main_v63, main_v64, main_v65, main_v66, main_v67, main_v68, main_v69,
   main_v70, main_cst_14, main_v71, main_v72, main_v73]

theorem writes0 : (hostOps0 : List (HloOp τ sig (Elt F))).Forall
    fun op => op.writes ⊆ (written0.map (Proc.devRef (τ := τ) .tc)).toFinset := by
  simp only [hostOps0, List.Forall, StableHlo.nullary_writes, StableHlo.unary_writes, StableHlo.binary_writes,
    StableHlo.ternary_writes, StableHlo.reshape_writes]
  repeat' apply And.intro
  all_goals exact single_sub (by decide)
theorem writes0_1 : (hostOps0_1 : List (HloOp τ sig (Elt F))).Forall
    fun op => op.writes ⊆ (written0_1.map (Proc.devRef (τ := τ) .tc)).toFinset := by
  simp only [hostOps0_1, List.Forall, StableHlo.nullary_writes, StableHlo.unary_writes, StableHlo.binary_writes,
    StableHlo.ternary_writes, StableHlo.reshape_writes]
  repeat' apply And.intro
  all_goals exact single_sub (by decide)
theorem writes0_2 : (hostOps0_2 : List (HloOp τ sig (Elt F))).Forall
    fun op => op.writes ⊆ (written0_2.map (Proc.devRef (τ := τ) .tc)).toFinset := by
  simp only [hostOps0_2, List.Forall, StableHlo.nullary_writes, StableHlo.unary_writes, StableHlo.binary_writes,
    StableHlo.ternary_writes, StableHlo.reshape_writes]
  repeat' apply And.intro
  all_goals exact single_sub (by decide)
theorem writes1 : (hostOps1 : List (HloOp τ sig (Elt F))).Forall
    fun op => op.writes ⊆ (written1.map (Proc.devRef (τ := τ) .tc)).toFinset := by
  simp only [hostOps1, List.Forall, StableHlo.nullary_writes, StableHlo.unary_writes, StableHlo.binary_writes,
    StableHlo.ternary_writes, StableHlo.reshape_writes]
  repeat' apply And.intro
  all_goals exact single_sub (by decide)
theorem writes3 : (hostOps3 : List (HloOp τ sig (Elt F))).Forall
    fun op => op.writes ⊆ (written3.map (Proc.devRef (τ := τ) .tc)).toFinset := by
  simp only [hostOps3, List.Forall, StableHlo.nullary_writes, StableHlo.unary_writes, StableHlo.binary_writes,
    StableHlo.ternary_writes, StableHlo.reshape_writes]
  repeat' apply And.intro
  all_goals exact single_sub (by decide)
theorem writes5 : (hostOps5 : List (HloOp τ sig (Elt F))).Forall
    fun op => op.writes ⊆ (written5.map (Proc.devRef (τ := τ) .tc)).toFinset := by
  simp only [hostOps5, List.Forall, StableHlo.nullary_writes, StableHlo.unary_writes, StableHlo.binary_writes,
    StableHlo.ternary_writes, StableHlo.reshape_writes]
  repeat' apply And.intro
  all_goals exact single_sub (by decide)

/-! ## One step of the fold, at any contents and any buffer outside the step's results -/

theorem keep0 (V : Valuation τ sig (Elt F)) {r : Ref sig .tc} (hr : r ∉ written0) :
    StableHlo.after hostOps0 V (Proc.devRef .tc r) = V (Proc.devRef .tc r) :=
  StableHlo.after_of_writes_sub hostOps0 V writes0 hr
theorem keep0_1 (V : Valuation τ sig (Elt F)) {r : Ref sig .tc} (hr : r ∉ written0_1) :
    StableHlo.after hostOps0_1 V (Proc.devRef .tc r) = V (Proc.devRef .tc r) :=
  StableHlo.after_of_writes_sub hostOps0_1 V writes0_1 hr
theorem keep0_2 (V : Valuation τ sig (Elt F)) {r : Ref sig .tc} (hr : r ∉ written0_2) :
    StableHlo.after hostOps0_2 V (Proc.devRef .tc r) = V (Proc.devRef .tc r) :=
  StableHlo.after_of_writes_sub hostOps0_2 V writes0_2 hr
theorem keep1 (V : Valuation τ sig (Elt F)) {r : Ref sig .tc} (hr : r ∉ written1) :
    StableHlo.after hostOps1 V (Proc.devRef .tc r) = V (Proc.devRef .tc r) :=
  StableHlo.after_of_writes_sub hostOps1 V writes1 hr
theorem keep3 (V : Valuation τ sig (Elt F)) {r : Ref sig .tc} (hr : r ∉ written3) :
    StableHlo.after hostOps3 V (Proc.devRef .tc r) = V (Proc.devRef .tc r) :=
  StableHlo.after_of_writes_sub hostOps3 V writes3 hr
theorem keep5 (V : Valuation τ sig (Elt F)) {r : Ref sig .tc} (hr : r ∉ written5) :
    StableHlo.after hostOps5 V (Proc.devRef .tc r) = V (Proc.devRef .tc r) :=
  StableHlo.after_of_writes_sub hostOps5 V writes5 hr

variable (m : (ℓ : Loc nD τ sig) → Buf (Elt F) ℓ) (ρ : Dev nD → PrngReg) (c : Dev nD)

/-! ## From the launch: a buffer untouched so far holds its launch contents -/

/-- At the launch a core's buffer holds the memory's contents at its location. -/
theorem W0_launch (r : Ref sig .tc) : W0 m ρ c (Proc.devRef .tc r) = m ((c : Thread nD τ).loc r) := rfl

/-- Entering region 0, a buffer none of the three stretches before it writes holds its launch contents. -/
theorem W3_launch {r : Ref sig .tc} (h0 : r ∉ written0) (h1 : r ∉ written0_1) (h2 : r ∉ written0_2) :
    W3 m ρ c (Proc.devRef .tc r) = m ((c : Thread nD τ).loc r) :=
  (keep0_2 _ h2).trans ((keep0_1 _ h1).trans ((keep0 _ h0).trans (W0_launch m ρ c r)))

/-- Entering region 1: through region 0 (not one of its arrays) and the first aggregation. -/
theorem W5_launch {r : Ref sig .tc} (h : W3 m ρ c (Proc.devRef .tc r) = m ((c : Thread nD τ).loc r))
    (a0 : ∀ w, Pipeline.arrRef spec0 w ≠ r) (h1 : r ∉ written1) :
    W5 m ρ c (Proc.devRef .tc r) = m ((c : Thread nD τ).loc r) :=
  (keep1 _ h1).trans ((W4_of_ne m ρ c r a0).trans h)

/-- Entering region 2: through region 1. -/
theorem W6_launch {r : Ref sig .tc} (h : W5 m ρ c (Proc.devRef .tc r) = m ((c : Thread nD τ).loc r))
    (a1 : ∀ w, Pipeline.arrRef spec1 w ≠ r) :
    W6 m ρ c (Proc.devRef .tc r) = m ((c : Thread nD τ).loc r) :=
  (W6_of_ne m ρ c r a1).trans h

/-- Entering region 3: through region 2 and the second aggregation. -/
theorem W8_launch {r : Ref sig .tc} (h : W6 m ρ c (Proc.devRef .tc r) = m ((c : Thread nD τ).loc r))
    (a2 : ∀ w, Pipeline.arrRef spec2 w ≠ r) (h3 : r ∉ written3) :
    W8 m ρ c (Proc.devRef .tc r) = m ((c : Thread nD τ).loc r) :=
  (keep3 _ h3).trans ((W7_of_ne m ρ c r a2).trans h)

/-- Entering region 4: through region 3. -/
theorem W9_launch {r : Ref sig .tc} (h : W8 m ρ c (Proc.devRef .tc r) = m ((c : Thread nD τ).loc r))
    (a3 : ∀ w, Pipeline.arrRef spec3 w ≠ r) :
    W9 m ρ c (Proc.devRef .tc r) = m ((c : Thread nD τ).loc r) :=
  (W9_of_ne m ρ c r a3).trans h

/-- Entering region 5: through region 4 and the third aggregation. -/
theorem W11_launch {r : Ref sig .tc} (h : W9 m ρ c (Proc.devRef .tc r) = m ((c : Thread nD τ).loc r))
    (a4 : ∀ w, Pipeline.arrRef spec4 w ≠ r) (h5 : r ∉ written5) :
    W11 m ρ c (Proc.devRef .tc r) = m ((c : Thread nD τ).loc r) :=
  (keep5 _ h5).trans ((W10_of_ne m ρ c r a4).trans h)

/-- Leaving region 5. -/
theorem W12_launch {r : Ref sig .tc} (h : W11 m ρ c (Proc.devRef .tc r) = m ((c : Thread nD τ).loc r))
    (a5 : ∀ w, Pipeline.arrRef spec5 w ≠ r) :
    W12 m ρ c (Proc.devRef .tc r) = m ((c : Thread nD τ).loc r) :=
  (W12_of_ne m ρ c r a5).trans h

/-! ## From region 0's entry: a buffer untouched since then -/

/-- Leaving region 2, a buffer that is no array of regions 0, 1, 2 and no result of the first aggregation holds
    what it held entering region 0. -/
theorem W7_of_W3 {r : Ref sig .tc} (a0 : ∀ w, Pipeline.arrRef spec0 w ≠ r) (h1 : r ∉ written1)
    (a1 : ∀ w, Pipeline.arrRef spec1 w ≠ r) (a2 : ∀ w, Pipeline.arrRef spec2 w ≠ r) :
    W7 m ρ c (Proc.devRef .tc r) = W3 m ρ c (Proc.devRef .tc r) :=
  (W7_of_ne m ρ c r a2).trans ((W6_of_ne m ρ c r a1).trans ((keep1 _ h1).trans (W4_of_ne m ρ c r a0)))

/-- Leaving region 4, a buffer that is no array of regions 3, 4 and no result of the second aggregation holds
    what it held leaving region 2. -/
theorem W10_of_W7 {r : Ref sig .tc} (h3 : r ∉ written3) (a3 : ∀ w, Pipeline.arrRef spec3 w ≠ r)
    (a4 : ∀ w, Pipeline.arrRef spec4 w ≠ r) :
    W10 m ρ c (Proc.devRef .tc r) = W7 m ρ c (Proc.devRef .tc r) :=
  (W10_of_ne m ρ c r a4).trans ((W9_of_ne m ρ c r a3).trans (keep3 _ h3))

/-! ## The arguments, each where it is first read -/

theorem W3_arg0 : W3 m ρ c (Proc.devRef .tc main_arg0) = m ((c : Thread nD τ).loc main_arg0) :=
  W3_launch m ρ c (by decide) (by decide) (by decide)
theorem W3_arg3 : W3 m ρ c (Proc.devRef .tc main_arg3) = m ((c : Thread nD τ).loc main_arg3) :=
  W3_launch m ρ c (by decide) (by decide) (by decide)
theorem W5_arg4 : W5 m ρ c (Proc.devRef .tc main_arg4) = m ((c : Thread nD τ).loc main_arg4) :=
  W5_launch m ρ c (W3_launch m ρ c (by decide) (by decide) (by decide)) (by decide) (by decide)
theorem W5_arg9 : W5 m ρ c (Proc.devRef .tc main_arg9) = m ((c : Thread nD τ).loc main_arg9) :=
  W5_launch m ρ c (W3_launch m ρ c (by decide) (by decide) (by decide)) (by decide) (by decide)
theorem W5_arg10 : W5 m ρ c (Proc.devRef .tc main_arg10) = m ((c : Thread nD τ).loc main_arg10) :=
  W5_launch m ρ c (W3_launch m ρ c (by decide) (by decide) (by decide)) (by decide) (by decide)
theorem W5_arg11 : W5 m ρ c (Proc.devRef .tc main_arg11) = m ((c : Thread nD τ).loc main_arg11) :=
  W5_launch m ρ c (W3_launch m ρ c (by decide) (by decide) (by decide)) (by decide) (by decide)
theorem W5_arg12 : W5 m ρ c (Proc.devRef .tc main_arg12) = m ((c : Thread nD τ).loc main_arg12) :=
  W5_launch m ρ c (W3_launch m ρ c (by decide) (by decide) (by decide)) (by decide) (by decide)
theorem W6_arg5 : W6 m ρ c (Proc.devRef .tc main_arg5) = m ((c : Thread nD τ).loc main_arg5) :=
  W6_launch m ρ c (W5_launch m ρ c (W3_launch m ρ c (by decide) (by decide) (by decide)) (by decide) (by decide)) (by decide)
theorem W8_arg6 : W8 m ρ c (Proc.devRef .tc main_arg6) = m ((c : Thread nD τ).loc main_arg6) :=
  W8_launch m ρ c (W6_launch m ρ c (W5_launch m ρ c (W3_launch m ρ c (by decide) (by decide) (by decide)) (by decide) (by decide)) (by decide)) (by decide) (by decide)
theorem W8_arg13 : W8 m ρ c (Proc.devRef .tc main_arg13) = m ((c : Thread nD τ).loc main_arg13) :=
  W8_launch m ρ c (W6_launch m ρ c (W5_launch m ρ c (W3_launch m ρ c (by decide) (by decide) (by decide)) (by decide) (by decide)) (by decide)) (by decide) (by decide)
theorem W8_arg14 : W8 m ρ c (Proc.devRef .tc main_arg14) = m ((c : Thread nD τ).loc main_arg14) :=
  W8_launch m ρ c (W6_launch m ρ c (W5_launch m ρ c (W3_launch m ρ c (by decide) (by decide) (by decide)) (by decide) (by decide)) (by decide)) (by decide) (by decide)
theorem W8_arg15 : W8 m ρ c (Proc.devRef .tc main_arg15) = m ((c : Thread nD τ).loc main_arg15) :=
  W8_launch m ρ c (W6_launch m ρ c (W5_launch m ρ c (W3_launch m ρ c (by decide) (by decide) (by decide)) (by decide) (by decide)) (by decide)) (by decide) (by decide)
theorem W8_arg16 : W8 m ρ c (Proc.devRef .tc main_arg16) = m ((c : Thread nD τ).loc main_arg16) :=
  W8_launch m ρ c (W6_launch m ρ c (W5_launch m ρ c (W3_launch m ρ c (by decide) (by decide) (by decide)) (by decide) (by decide)) (by decide)) (by decide) (by decide)
theorem W9_arg7 : W9 m ρ c (Proc.devRef .tc main_arg7) = m ((c : Thread nD τ).loc main_arg7) :=
  W9_launch m ρ c (W8_launch m ρ c (W6_launch m ρ c (W5_launch m ρ c (W3_launch m ρ c (by decide) (by decide) (by decide)) (by decide) (by decide)) (by decide)) (by decide) (by decide)) (by decide)
theorem W11_arg8 : W11 m ρ c (Proc.devRef .tc main_arg8) = m ((c : Thread nD τ).loc main_arg8) :=
  W11_launch m ρ c (W9_launch m ρ c (W8_launch m ρ c (W6_launch m ρ c (W5_launch m ρ c (W3_launch m ρ c (by decide) (by decide) (by decide)) (by decide) (by decide)) (by decide)) (by decide) (by decide)) (by decide)) (by decide) (by decide)
theorem W11_arg17 : W11 m ρ c (Proc.devRef .tc main_arg17) = m ((c : Thread nD τ).loc main_arg17) :=
  W11_launch m ρ c (W9_launch m ρ c (W8_launch m ρ c (W6_launch m ρ c (W5_launch m ρ c (W3_launch m ρ c (by decide) (by decide) (by decide)) (by decide) (by decide)) (by decide)) (by decide) (by decide)) (by decide)) (by decide) (by decide)
theorem W11_arg18 : W11 m ρ c (Proc.devRef .tc main_arg18) = m ((c : Thread nD τ).loc main_arg18) :=
  W11_launch m ρ c (W9_launch m ρ c (W8_launch m ρ c (W6_launch m ρ c (W5_launch m ρ c (W3_launch m ρ c (by decide) (by decide) (by decide)) (by decide) (by decide)) (by decide)) (by decide) (by decide)) (by decide)) (by decide) (by decide)
theorem W11_arg19 : W11 m ρ c (Proc.devRef .tc main_arg19) = m ((c : Thread nD τ).loc main_arg19) :=
  W11_launch m ρ c (W9_launch m ρ c (W8_launch m ρ c (W6_launch m ρ c (W5_launch m ρ c (W3_launch m ρ c (by decide) (by decide) (by decide)) (by decide) (by decide)) (by decide)) (by decide) (by decide)) (by decide)) (by decide) (by decide)
theorem W11_arg20 : W11 m ρ c (Proc.devRef .tc main_arg20) = m ((c : Thread nD τ).loc main_arg20) :=
  W11_launch m ρ c (W9_launch m ρ c (W8_launch m ρ c (W6_launch m ρ c (W5_launch m ρ c (W3_launch m ρ c (by decide) (by decide) (by decide)) (by decide) (by decide)) (by decide)) (by decide) (by decide)) (by decide)) (by decide) (by decide)
theorem W12_arg2 : W12 m ρ c (Proc.devRef .tc main_arg2) = m ((c : Thread nD τ).loc main_arg2) :=
  W12_launch m ρ c (W11_launch m ρ c (W9_launch m ρ c (W8_launch m ρ c (W6_launch m ρ c (W5_launch m ρ c (W3_launch m ρ c (by decide) (by decide) (by decide)) (by decide) (by decide)) (by decide)) (by decide) (by decide)) (by decide)) (by decide) (by decide)) (by decide)
theorem W12_arg21 : W12 m ρ c (Proc.devRef .tc main_arg21) = m ((c : Thread nD τ).loc main_arg21) :=
  W12_launch m ρ c (W11_launch m ρ c (W9_launch m ρ c (W8_launch m ρ c (W6_launch m ρ c (W5_launch m ρ c (W3_launch m ρ c (by decide) (by decide) (by decide)) (by decide) (by decide)) (by decide)) (by decide) (by decide)) (by decide)) (by decide) (by decide)) (by decide)
theorem W12_arg22 : W12 m ρ c (Proc.devRef .tc main_arg22) = m ((c : Thread nD τ).loc main_arg22) :=
  W12_launch m ρ c (W11_launch m ρ c (W9_launch m ρ c (W8_launch m ρ c (W6_launch m ρ c (W5_launch m ρ c (W3_launch m ρ c (by decide) (by decide) (by decide)) (by decide) (by decide)) (by decide)) (by decide) (by decide)) (by decide)) (by decide) (by decide)) (by decide)
theorem W12_arg23 : W12 m ρ c (Proc.devRef .tc main_arg23) = m ((c : Thread nD τ).loc main_arg23) :=
  W12_launch m ρ c (W11_launch m ρ c (W9_launch m ρ c (W8_launch m ρ c (W6_launch m ρ c (W5_launch m ρ c (W3_launch m ρ c (by decide) (by decide) (by decide)) (by decide) (by decide)) (by decide)) (by decide) (by decide)) (by decide)) (by decide) (by decide)) (by decide)
theorem W12_arg24 : W12 m ρ c (Proc.devRef .tc main_arg24) = m ((c : Thread nD τ).loc main_arg24) :=
  W12_launch m ρ c (W11_launch m ρ c (W9_launch m ρ c (W8_launch m ρ c (W6_launch m ρ c (W5_launch m ρ c (W3_launch m ρ c (by decide) (by decide) (by decide)) (by decide) (by decide)) (by decide)) (by decide) (by decide)) (by decide)) (by decide) (by decide)) (by decide)
theorem W12_arg25 : W12 m ρ c (Proc.devRef .tc main_arg25) = m ((c : Thread nD τ).loc main_arg25) :=
  W12_launch m ρ c (W11_launch m ρ c (W9_launch m ρ c (W8_launch m ρ c (W6_launch m ρ c (W5_launch m ρ c (W3_launch m ρ c (by decide) (by decide) (by decide)) (by decide) (by decide)) (by decide)) (by decide) (by decide)) (by decide)) (by decide) (by decide)) (by decide)
theorem W12_arg26 : W12 m ρ c (Proc.devRef .tc main_arg26) = m ((c : Thread nD τ).loc main_arg26) :=
  W12_launch m ρ c (W11_launch m ρ c (W9_launch m ρ c (W8_launch m ρ c (W6_launch m ρ c (W5_launch m ρ c (W3_launch m ρ c (by decide) (by decide) (by decide)) (by decide) (by decide)) (by decide)) (by decide) (by decide)) (by decide)) (by decide) (by decide)) (by decide)
theorem W12_arg27 : W12 m ρ c (Proc.devRef .tc main_arg27) = m ((c : Thread nD τ).loc main_arg27) :=
  W12_launch m ρ c (W11_launch m ρ c (W9_launch m ρ c (W8_launch m ρ c (W6_launch m ρ c (W5_launch m ρ c (W3_launch m ρ c (by decide) (by decide) (by decide)) (by decide) (by decide)) (by decide)) (by decide) (by decide)) (by decide)) (by decide) (by decide)) (by decide)
theorem W12_arg28 : W12 m ρ c (Proc.devRef .tc main_arg28) = m ((c : Thread nD τ).loc main_arg28) :=
  W12_launch m ρ c (W11_launch m ρ c (W9_launch m ρ c (W8_launch m ρ c (W6_launch m ρ c (W5_launch m ρ c (W3_launch m ρ c (by decide) (by decide) (by decide)) (by decide) (by decide)) (by decide)) (by decide) (by decide)) (by decide)) (by decide) (by decide)) (by decide)
theorem W12_arg29 : W12 m ρ c (Proc.devRef .tc main_arg29) = m ((c : Thread nD τ).loc main_arg29) :=
  W12_launch m ρ c (W11_launch m ρ c (W9_launch m ρ c (W8_launch m ρ c (W6_launch m ρ c (W5_launch m ρ c (W3_launch m ρ c (by decide) (by decide) (by decide)) (by decide) (by decide)) (by decide)) (by decide) (by decide)) (by decide)) (by decide) (by decide)) (by decide)
theorem W12_arg30 : W12 m ρ c (Proc.devRef .tc main_arg30) = m ((c : Thread nD τ).loc main_arg30) :=
  W12_launch m ρ c (W11_launch m ρ c (W9_launch m ρ c (W8_launch m ρ c (W6_launch m ρ c (W5_launch m ρ c (W3_launch m ρ c (by decide) (by decide) (by decide)) (by decide) (by decide)) (by decide)) (by decide) (by decide)) (by decide)) (by decide) (by decide)) (by decide)
theorem W12_arg31 : W12 m ρ c (Proc.devRef .tc main_arg31) = m ((c : Thread nD τ).loc main_arg31) :=
  W12_launch m ρ c (W11_launch m ρ c (W9_launch m ρ c (W8_launch m ρ c (W6_launch m ρ c (W5_launch m ρ c (W3_launch m ρ c (by decide) (by decide) (by decide)) (by decide) (by decide)) (by decide)) (by decide) (by decide)) (by decide)) (by decide) (by decide)) (by decide)
theorem W12_arg32 : W12 m ρ c (Proc.devRef .tc main_arg32) = m ((c : Thread nD τ).loc main_arg32) :=
  W12_launch m ρ c (W11_launch m ρ c (W9_launch m ρ c (W8_launch m ρ c (W6_launch m ρ c (W5_launch m ρ c (W3_launch m ρ c (by decide) (by decide) (by decide)) (by decide) (by decide)) (by decide)) (by decide) (by decide)) (by decide)) (by decide) (by decide)) (by decide)
theorem W12_arg33 : W12 m ρ c (Proc.devRef .tc main_arg33) = m ((c : Thread nD τ).loc main_arg33) :=
  W12_launch m ρ c (W11_launch m ρ c (W9_launch m ρ c (W8_launch m ρ c (W6_launch m ρ c (W5_launch m ρ c (W3_launch m ρ c (by decide) (by decide) (by decide)) (by decide) (by decide)) (by decide)) (by decide) (by decide)) (by decide)) (by decide) (by decide)) (by decide)
theorem W12_arg34 : W12 m ρ c (Proc.devRef .tc main_arg34) = m ((c : Thread nD τ).loc main_arg34) :=
  W12_launch m ρ c (W11_launch m ρ c (W9_launch m ρ c (W8_launch m ρ c (W6_launch m ρ c (W5_launch m ρ c (W3_launch m ρ c (by decide) (by decide) (by decide)) (by decide) (by decide)) (by decide)) (by decide) (by decide)) (by decide)) (by decide) (by decide)) (by decide)

/-! ## The edge arrays (sources, targets, weights) at the exits of regions 0, 2, 4 -/

theorem W4_v3 : W4 m ρ c (Proc.devRef .tc main_v3) = W3 m ρ c (Proc.devRef .tc main_v3) :=
  W4_of_ne m ρ c main_v3 (by decide)
theorem W7_v3 : W7 m ρ c (Proc.devRef .tc main_v3) = W3 m ρ c (Proc.devRef .tc main_v3) :=
  W7_of_W3 m ρ c (by decide) (by decide) (by decide) (by decide)
theorem W10_v3 : W10 m ρ c (Proc.devRef .tc main_v3) = W3 m ρ c (Proc.devRef .tc main_v3) :=
  (W10_of_W7 m ρ c (by decide) (by decide) (by decide)).trans (W7_v3 m ρ c)
theorem W4_v6 : W4 m ρ c (Proc.devRef .tc main_v6) = W3 m ρ c (Proc.devRef .tc main_v6) :=
  W4_of_ne m ρ c main_v6 (by decide)
theorem W7_v6 : W7 m ρ c (Proc.devRef .tc main_v6) = W3 m ρ c (Proc.devRef .tc main_v6) :=
  W7_of_W3 m ρ c (by decide) (by decide) (by decide) (by decide)
theorem W10_v6 : W10 m ρ c (Proc.devRef .tc main_v6) = W3 m ρ c (Proc.devRef .tc main_v6) :=
  (W10_of_W7 m ρ c (by decide) (by decide) (by decide)).trans (W7_v6 m ρ c)
theorem W4_v29 : W4 m ρ c (Proc.devRef .tc main_v29) = W3 m ρ c (Proc.devRef .tc main_v29) :=
  W4_of_ne m ρ c main_v29 (by decide)
theorem W7_v29 : W7 m ρ c (Proc.devRef .tc main_v29) = W3 m ρ c (Proc.devRef .tc main_v29) :=
  W7_of_W3 m ρ c (by decide) (by decide) (by decide) (by decide)
theorem W10_v29 : W10 m ρ c (Proc.devRef .tc main_v29) = W3 m ρ c (Proc.devRef .tc main_v29) :=
  (W10_of_W7 m ρ c (by decide) (by decide) (by decide)).trans (W7_v29 m ρ c)

end Cert.Gcn.Keep
-- ==== Proof.Thread.lean ====
/-
  The fold of buffer contents through the kernel program's nineteen segments, read where it matters.

  Stage by stage the buffers hold the network's stages of the ARGUMENT arrays: after the first stretches the edge
  sources, targets and weights; after each product region the layer's product; after the stretch that follows, its
  weighted aggregate; after each normalising region the layer's output; after the last stretches the head of the third
  layer's output. A region's output array is the stage's whole-array function of what the region found in its input
  arrays; a stretch's result is the stage of what it found; nothing in between writes the arguments or the edge buffers.
  At the end the result buffer holds G of the arguments.
-/
import proofs.«169095_j43130061586774_1_alg».proof.Proof.Chains
import proofs.«169095_j43130061586774_1_alg».proof.Proof.Gen.ReferenceIdeal
import proofs.«169095_j43130061586774_1_alg».proof.Proof.Gen.KernelIdeal.Frame
import proofs.«169095_j43130061586774_1_alg».proof.Proof.Stretches
import proofs.«169095_j43130061586774_1_alg».proof.Proof.RegionMM0
import proofs.«169095_j43130061586774_1_alg».proof.Proof.RegionMM2
import proofs.«169095_j43130061586774_1_alg».proof.Proof.RegionMM4
import proofs.«169095_j43130061586774_1_alg».proof.Proof.RegionBN1
import proofs.«169095_j43130061586774_1_alg».proof.Proof.RegionBN3
import proofs.«169095_j43130061586774_1_alg».proof.Proof.RegionBN5
import proofs.«169095_j43130061586774_1_alg».proof.Proof.Keep

set_option maxRecDepth 16384

noncomputable section

namespace Cert.Gcn.Thread

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

-- ⟪b⟫ is the argument array b as launched on core c
set_option quotPrecheck false in
local notation:max "⟪" b "⟫" => m ((c : Thread nD τ).loc b)

/-! ## The edges, built before the first region -/

theorem edge_sources : W3 m ρ c (Proc.devRef .tc main_v3) = Cert.Gcn.srcOf ⟪main_arg1⟫ :=
  Cert.Gcn.Stretch.sources (W0 m ρ c)

theorem edge_targets : W3 m ρ c (Proc.devRef .tc main_v6) = Cert.Gcn.dstOf ⟪main_arg1⟫ :=
  Cert.Gcn.Stretch.targets (W0 m ρ c)

theorem edge_weights : W3 m ρ c (Proc.devRef .tc main_v29) = Cert.Gcn.normOf (Cert.Gcn.srcOf ⟪main_arg1⟫) (Cert.Gcn.dstOf ⟪main_arg1⟫) :=
  Cert.Gcn.Stretch.weights (W0 m ρ c)

/-! ## Layer 1 -/

theorem product1 : W4 m ρ c (Proc.devRef .tc main_v30) = Cert.Gcn.mm1 ⟪main_arg0⟫ ⟪main_arg3⟫ := by
  refine (W4_arr m ρ c 2).trans ((Cert.Gcn.RegionMM.region0 (V3 m ρ) c).trans ?_)
  show Cert.Gcn.mm1 (W3 m ρ c (Proc.devRef .tc main_arg0)) (W3 m ρ c (Proc.devRef .tc main_arg3)) = _
  rw [Cert.Gcn.Keep.W3_arg0, Cert.Gcn.Keep.W3_arg3]

theorem aggregate1 : W5 m ρ c (Proc.devRef .tc main_v43) = Cert.Gcn.agg256 (Cert.Gcn.mm1 ⟪main_arg0⟫ ⟪main_arg3⟫) (Cert.Gcn.srcOf ⟪main_arg1⟫) (Cert.Gcn.dstOf ⟪main_arg1⟫) (Cert.Gcn.normOf (Cert.Gcn.srcOf ⟪main_arg1⟫) (Cert.Gcn.dstOf ⟪main_arg1⟫)) := by
  refine (Cert.Gcn.Stretch.aggregate1 (W4 m ρ c)).trans ?_
  rw [product1, Cert.Gcn.Keep.W4_v3, Cert.Gcn.Keep.W4_v6, Cert.Gcn.Keep.W4_v29, edge_sources, edge_targets, edge_weights]

theorem output1 : W6 m ρ c (Proc.devRef .tc main_v44) = (Cert.Gcn.layer1 ⟪main_arg0⟫ (Cert.Gcn.srcOf ⟪main_arg1⟫) (Cert.Gcn.dstOf ⟪main_arg1⟫) ⟪main_arg3⟫ ⟪main_arg4⟫ ⟪main_arg9⟫ ⟪main_arg10⟫ ⟪main_arg11⟫ ⟪main_arg12⟫) := by
  refine (W6_arr m ρ c 6).trans ((Cert.Gcn.RegionBN.region1 (V5 m ρ) c).trans ?_)
  show Cert.Gcn.bnrelu256 (W5 m ρ c (Proc.devRef .tc main_v43)) (W5 m ρ c (Proc.devRef .tc main_arg4)) (W5 m ρ c (Proc.devRef .tc main_arg9)) (W5 m ρ c (Proc.devRef .tc main_arg10)) (W5 m ρ c (Proc.devRef .tc main_arg11)) (W5 m ρ c (Proc.devRef .tc main_arg12)) = _
  rw [aggregate1, Cert.Gcn.Keep.W5_arg4, Cert.Gcn.Keep.W5_arg9, Cert.Gcn.Keep.W5_arg10, Cert.Gcn.Keep.W5_arg11, Cert.Gcn.Keep.W5_arg12]
  rfl

/-! ## Layer 2 -/

theorem product2 : W7 m ρ c (Proc.devRef .tc main_v45) = Cert.Gcn.mm2 (Cert.Gcn.layer1 ⟪main_arg0⟫ (Cert.Gcn.srcOf ⟪main_arg1⟫) (Cert.Gcn.dstOf ⟪main_arg1⟫) ⟪main_arg3⟫ ⟪main_arg4⟫ ⟪main_arg9⟫ ⟪main_arg10⟫ ⟪main_arg11⟫ ⟪main_arg12⟫) ⟪main_arg5⟫ := by
  refine (W7_arr m ρ c 2).trans ((Cert.Gcn.RegionMM.region2 (V6 m ρ) c).trans ?_)
  show Cert.Gcn.mm2 (W6 m ρ c (Proc.devRef .tc main_v44)) (W6 m ρ c (Proc.devRef .tc main_arg5)) = _
  rw [output1, Cert.Gcn.Keep.W6_arg5]

theorem aggregate2 : W8 m ρ c (Proc.devRef .tc main_v58) = Cert.Gcn.agg256 (Cert.Gcn.mm2 (Cert.Gcn.layer1 ⟪main_arg0⟫ (Cert.Gcn.srcOf ⟪main_arg1⟫) (Cert.Gcn.dstOf ⟪main_arg1⟫) ⟪main_arg3⟫ ⟪main_arg4⟫ ⟪main_arg9⟫ ⟪main_arg10⟫ ⟪main_arg11⟫ ⟪main_arg12⟫) ⟪main_arg5⟫) (Cert.Gcn.srcOf ⟪main_arg1⟫) (Cert.Gcn.dstOf ⟪main_arg1⟫) (Cert.Gcn.normOf (Cert.Gcn.srcOf ⟪main_arg1⟫) (Cert.Gcn.dstOf ⟪main_arg1⟫)) := by
  refine (Cert.Gcn.Stretch.aggregate2 (W7 m ρ c)).trans ?_
  rw [product2, Cert.Gcn.Keep.W7_v3, Cert.Gcn.Keep.W7_v6, Cert.Gcn.Keep.W7_v29, edge_sources, edge_targets, edge_weights]

theorem output2 : W9 m ρ c (Proc.devRef .tc main_v59) = (Cert.Gcn.layer2 (Cert.Gcn.layer1 ⟪main_arg0⟫ (Cert.Gcn.srcOf ⟪main_arg1⟫) (Cert.Gcn.dstOf ⟪main_arg1⟫) ⟪main_arg3⟫ ⟪main_arg4⟫ ⟪main_arg9⟫ ⟪main_arg10⟫ ⟪main_arg11⟫ ⟪main_arg12⟫) (Cert.Gcn.srcOf ⟪main_arg1⟫) (Cert.Gcn.dstOf ⟪main_arg1⟫) ⟪main_arg5⟫ ⟪main_arg6⟫ ⟪main_arg13⟫ ⟪main_arg14⟫ ⟪main_arg15⟫ ⟪main_arg16⟫) := by
  refine (W9_arr m ρ c 6).trans ((Cert.Gcn.RegionBN.region3 (V8 m ρ) c).trans ?_)
  show Cert.Gcn.bnrelu256 (W8 m ρ c (Proc.devRef .tc main_v58)) (W8 m ρ c (Proc.devRef .tc main_arg6)) (W8 m ρ c (Proc.devRef .tc main_arg13)) (W8 m ρ c (Proc.devRef .tc main_arg14)) (W8 m ρ c (Proc.devRef .tc main_arg15)) (W8 m ρ c (Proc.devRef .tc main_arg16)) = _
  rw [aggregate2, Cert.Gcn.Keep.W8_arg6, Cert.Gcn.Keep.W8_arg13, Cert.Gcn.Keep.W8_arg14, Cert.Gcn.Keep.W8_arg15, Cert.Gcn.Keep.W8_arg16]
  rfl

/-! ## Layer 3 -/

theorem product3 : W10 m ρ c (Proc.devRef .tc main_v60) = Cert.Gcn.mm3 (Cert.Gcn.layer2 (Cert.Gcn.layer1 ⟪main_arg0⟫ (Cert.Gcn.srcOf ⟪main_arg1⟫) (Cert.Gcn.dstOf ⟪main_arg1⟫) ⟪main_arg3⟫ ⟪main_arg4⟫ ⟪main_arg9⟫ ⟪main_arg10⟫ ⟪main_arg11⟫ ⟪main_arg12⟫) (Cert.Gcn.srcOf ⟪main_arg1⟫) (Cert.Gcn.dstOf ⟪main_arg1⟫) ⟪main_arg5⟫ ⟪main_arg6⟫ ⟪main_arg13⟫ ⟪main_arg14⟫ ⟪main_arg15⟫ ⟪main_arg16⟫) ⟪main_arg7⟫ := by
  refine (W10_arr m ρ c 2).trans ((Cert.Gcn.RegionMM.region4 (V9 m ρ) c).trans ?_)
  show Cert.Gcn.mm3 (W9 m ρ c (Proc.devRef .tc main_v59)) (W9 m ρ c (Proc.devRef .tc main_arg7)) = _
  rw [output2, Cert.Gcn.Keep.W9_arg7]

theorem aggregate3 : W11 m ρ c (Proc.devRef .tc main_v73) = Cert.Gcn.agg128 (Cert.Gcn.mm3 (Cert.Gcn.layer2 (Cert.Gcn.layer1 ⟪main_arg0⟫ (Cert.Gcn.srcOf ⟪main_arg1⟫) (Cert.Gcn.dstOf ⟪main_arg1⟫) ⟪main_arg3⟫ ⟪main_arg4⟫ ⟪main_arg9⟫ ⟪main_arg10⟫ ⟪main_arg11⟫ ⟪main_arg12⟫) (Cert.Gcn.srcOf ⟪main_arg1⟫) (Cert.Gcn.dstOf ⟪main_arg1⟫) ⟪main_arg5⟫ ⟪main_arg6⟫ ⟪main_arg13⟫ ⟪main_arg14⟫ ⟪main_arg15⟫ ⟪main_arg16⟫) ⟪main_arg7⟫) (Cert.Gcn.srcOf ⟪main_arg1⟫) (Cert.Gcn.dstOf ⟪main_arg1⟫) (Cert.Gcn.normOf (Cert.Gcn.srcOf ⟪main_arg1⟫) (Cert.Gcn.dstOf ⟪main_arg1⟫)) := by
  refine (Cert.Gcn.Stretch.aggregate3 (W10 m ρ c)).trans ?_
  rw [product3, Cert.Gcn.Keep.W10_v3, Cert.Gcn.Keep.W10_v6, Cert.Gcn.Keep.W10_v29, edge_sources, edge_targets, edge_weights]

theorem output3 : W12 m ρ c (Proc.devRef .tc main_v74) = (Cert.Gcn.layer3 (Cert.Gcn.layer2 (Cert.Gcn.layer1 ⟪main_arg0⟫ (Cert.Gcn.srcOf ⟪main_arg1⟫) (Cert.Gcn.dstOf ⟪main_arg1⟫) ⟪main_arg3⟫ ⟪main_arg4⟫ ⟪main_arg9⟫ ⟪main_arg10⟫ ⟪main_arg11⟫ ⟪main_arg12⟫) (Cert.Gcn.srcOf ⟪main_arg1⟫) (Cert.Gcn.dstOf ⟪main_arg1⟫) ⟪main_arg5⟫ ⟪main_arg6⟫ ⟪main_arg13⟫ ⟪main_arg14⟫ ⟪main_arg15⟫ ⟪main_arg16⟫) (Cert.Gcn.srcOf ⟪main_arg1⟫) (Cert.Gcn.dstOf ⟪main_arg1⟫) ⟪main_arg7⟫ ⟪main_arg8⟫ ⟪main_arg17⟫ ⟪main_arg18⟫ ⟪main_arg19⟫ ⟪main_arg20⟫) := by
  refine (W12_arr m ρ c 6).trans ((Cert.Gcn.RegionBN.region5 (V11 m ρ) c).trans ?_)
  show Cert.Gcn.bnrelu128 (W11 m ρ c (Proc.devRef .tc main_v73)) (W11 m ρ c (Proc.devRef .tc main_arg8)) (W11 m ρ c (Proc.devRef .tc main_arg17)) (W11 m ρ c (Proc.devRef .tc main_arg18)) (W11 m ρ c (Proc.devRef .tc main_arg19)) (W11 m ρ c (Proc.devRef .tc main_arg20)) = _
  rw [aggregate3, Cert.Gcn.Keep.W11_arg8, Cert.Gcn.Keep.W11_arg17, Cert.Gcn.Keep.W11_arg18, Cert.Gcn.Keep.W11_arg19, Cert.Gcn.Keep.W11_arg20]
  rfl

/-! ## The head, and the whole -/

/-- THE RESULT: at the end of the fold the result buffer holds G of the argument arrays. -/
theorem result : W19 m ρ c (Proc.devRef .tc main_v129) = Cert.Gcn.G ⟪main_arg0⟫ ⟪main_arg1⟫ ⟪main_arg2⟫ ⟪main_arg3⟫ ⟪main_arg4⟫ ⟪main_arg5⟫ ⟪main_arg6⟫ ⟪main_arg7⟫ ⟪main_arg8⟫ ⟪main_arg9⟫ ⟪main_arg10⟫ ⟪main_arg11⟫ ⟪main_arg12⟫ ⟪main_arg13⟫ ⟪main_arg14⟫ ⟪main_arg15⟫ ⟪main_arg16⟫ ⟪main_arg17⟫ ⟪main_arg18⟫ ⟪main_arg19⟫ ⟪main_arg20⟫ ⟪main_arg21⟫ ⟪main_arg22⟫ ⟪main_arg23⟫ ⟪main_arg24⟫ ⟪main_arg25⟫ ⟪main_arg26⟫ ⟪main_arg27⟫ ⟪main_arg28⟫ ⟪main_arg29⟫ ⟪main_arg30⟫ ⟪main_arg31⟫ ⟪main_arg32⟫ ⟪main_arg33⟫ ⟪main_arg34⟫ := by
  refine (Cert.Gcn.Stretch.head (W12 m ρ c)).trans ?_
  rw [output3, Cert.Gcn.Keep.W12_arg2, Cert.Gcn.Keep.W12_arg21, Cert.Gcn.Keep.W12_arg22, Cert.Gcn.Keep.W12_arg23, Cert.Gcn.Keep.W12_arg24, Cert.Gcn.Keep.W12_arg25, Cert.Gcn.Keep.W12_arg26, Cert.Gcn.Keep.W12_arg27, Cert.Gcn.Keep.W12_arg28, Cert.Gcn.Keep.W12_arg29, Cert.Gcn.Keep.W12_arg30, Cert.Gcn.Keep.W12_arg31, Cert.Gcn.Keep.W12_arg32, Cert.Gcn.Keep.W12_arg33, Cert.Gcn.Keep.W12_arg34]
  rfl

end Cert.Gcn.Thread

end
-- ==== Proof.RefIsG.lean ====
/-
  The reference program's result is G of the argument arrays.

  The reference's run states its result as its operations composed over the launch contents of the arguments. That
  composition is, operation for operation, the network G: the edge lists, the degree weights, three layers of
  product, weighted aggregation and normalised ramp, the per-graph mean and the head.
-/
import proofs.«169095_j43130061586774_1_alg».proof.Proof.Chains
import proofs.«169095_j43130061586774_1_alg».proof.Proof.RefRunPatched

noncomputable section

namespace Cert.Gcn.Ref

open Cert.ReferenceIdeal Cert.ReferenceIdeal.Gen Cert.ReferenceIdeal.ValueP Idealize.ShloMosaic Idealize.ShloMosaic.TcCoe Idealize.SL.Sem

variable {F : FTy → Type} [FloatOps F]

set_option maxRecDepth 16384 in
set_option maxHeartbeats 1000000 in
/-- The composed term of the reference's run unfolds to G literally. -/
theorem res_eq (m : (ℓ : Loc nD τ sig) → Buf (Elt F) ℓ) (c : Dev nD) :
    res_main_v229 (F := F) m c = Cert.Gcn.G (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) := by
  unfold res_main_v229
  rfl

end Cert.Gcn.Ref

end
-- ==== Proof.lean ====
/-
  The kernel program and the reference compute one function of the argument arrays.

  Both programs are a three-layer graph network on 50000 nodes followed by a per-graph mean and a small head. The
  reference applies plain array operations; the kernel program computes the three dense products and the three
  "bias, normalise by running statistics, ramp" stages on the device, a block of 2000 node rows at a time, and
  everything else (the edge lists with their self loops, the degree weights, the gathers and the sums over arriving
  edges, the mean and the head) by the same array operations as the reference. On the extended reals, where every
  float operation is the exact one and a change of float format is the identity, a block of rows of a product is
  the rows of the whole product, and a pointwise stage of a block of rows is the rows of the pointwise stage of the
  whole array; so each device region leaves in its output array exactly the reference's stage of its input arrays,
  and the two programs' results are the same term G of the arguments (Proof/Chains.lean). No law of arithmetic is
  used beyond reading both sides index by index: in particular nothing needs the inputs to be finite.

  Proof/KernelRun.lean runs the kernel program and keeps every surviving buffer; Proof/Thread.lean reads the result
  buffer through the segments; Proof/RefIsG.lean reads the reference's run. The three frames are the generated
  frame proofs and the reference's generated run; no operation was rewritten by idealization, so "preserves" is trivial.
-/
import proofs.«169095_j43130061586774_1_alg».proof.Defs
import proofs.«169095_j43130061586774_1_alg».proof.Proof.Gen.Kernel
import proofs.«169095_j43130061586774_1_alg».proof.Proof.Gen.Kernel.Skeleton
import proofs.«169095_j43130061586774_1_alg».proof.Proof.Gen.Kernel.Launch
import proofs.«169095_j43130061586774_1_alg».proof.Proof.Gen.Kernel.Points
import proofs.«169095_j43130061586774_1_alg».proof.Proof.Gen.Kernel.Frame
import proofs.«169095_j43130061586774_1_alg».proof.Proof.Gen.KernelIdeal
import proofs.«169095_j43130061586774_1_alg».proof.Proof.Gen.KernelIdeal.Skeleton
import proofs.«169095_j43130061586774_1_alg».proof.Proof.Gen.KernelIdeal.Launch
import proofs.«169095_j43130061586774_1_alg».proof.Proof.Gen.KernelIdeal.Points
import proofs.«169095_j43130061586774_1_alg».proof.Proof.Gen.KernelIdeal.Frame
import proofs.«169095_j43130061586774_1_alg».proof.Proof.Gen.ReferenceIdeal
import proofs.«169095_j43130061586774_1_alg».proof.Proof.Gen.Pre_finite_inputs
import proofs.«169095_j43130061586774_1_alg».proof.Proof.RefRunPatched
import proofs.«169095_j43130061586774_1_alg».proof.Proof.KernelRun
import proofs.«169095_j43130061586774_1_alg».proof.Proof.Thread
import proofs.«169095_j43130061586774_1_alg».proof.Proof.RefIsG
import Idealize.ShloMosaic.Adequacy
import Idealize.ShloMosaic.Init

set_option maxRecDepth 16384

noncomputable section

namespace Cert.Proof

open Idealize.ShloMosaic Idealize.SL.Sem

/-- The word-level kernel program runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Idealization rewrote no operation. -/
theorem preserves : Cert.preserves_Kernel_KernelIdeal := trivial

set_option maxHeartbeats 2000000 in
/-- From memories that agree on the arguments both programs end with G of the arguments in their result buffer. -/
theorem algebraic : Cert.algebraic_KernelIdeal_ReferenceIdeal := by
  intro m ρ m' ρ' _ hagree
  refine ⟨fun c => Cert.Gcn.G (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)), ?_, ?_⟩
  · -- the kernel program: every surviving buffer ends at the last stage of the fold; the result buffer's is G
    refine (θ_run Cert.KernelIdeal.defs _ _).mono (fun r h c => ?_) (Cert.Gcn.KernelRun.run_all (F := Ideal) m ρ)
    exact ⟨(h c _ (Cert.KernelIdeal.Gen.mem_uc Cert.KernelIdeal.main_v129 (by decide))).trans (Cert.Gcn.Thread.result m ρ c),
       (h c _ (Cert.KernelIdeal.Gen.mem_uc Cert.KernelIdeal.main_arg0 (by decide))).trans (Cert.KernelIdeal.Gen.W19_main_arg0 m ρ c),
       (h c _ (Cert.KernelIdeal.Gen.mem_uc Cert.KernelIdeal.main_arg1 (by decide))).trans (Cert.KernelIdeal.Gen.W19_main_arg1 m ρ c),
       (h c _ (Cert.KernelIdeal.Gen.mem_uc Cert.KernelIdeal.main_arg2 (by decide))).trans (Cert.KernelIdeal.Gen.W19_main_arg2 m ρ c),
       (h c _ (Cert.KernelIdeal.Gen.mem_uc Cert.KernelIdeal.main_arg3 (by decide))).trans (Cert.KernelIdeal.Gen.W19_main_arg3 m ρ c),
       (h c _ (Cert.KernelIdeal.Gen.mem_uc Cert.KernelIdeal.main_arg4 (by decide))).trans (Cert.KernelIdeal.Gen.W19_main_arg4 m ρ c),
       (h c _ (Cert.KernelIdeal.Gen.mem_uc Cert.KernelIdeal.main_arg5 (by decide))).trans (Cert.KernelIdeal.Gen.W19_main_arg5 m ρ c),
       (h c _ (Cert.KernelIdeal.Gen.mem_uc Cert.KernelIdeal.main_arg6 (by decide))).trans (Cert.KernelIdeal.Gen.W19_main_arg6 m ρ c),
       (h c _ (Cert.KernelIdeal.Gen.mem_uc Cert.KernelIdeal.main_arg7 (by decide))).trans (Cert.KernelIdeal.Gen.W19_main_arg7 m ρ c),
       (h c _ (Cert.KernelIdeal.Gen.mem_uc Cert.KernelIdeal.main_arg8 (by decide))).trans (Cert.KernelIdeal.Gen.W19_main_arg8 m ρ c),
       (h c _ (Cert.KernelIdeal.Gen.mem_uc Cert.KernelIdeal.main_arg9 (by decide))).trans (Cert.KernelIdeal.Gen.W19_main_arg9 m ρ c),
       (h c _ (Cert.KernelIdeal.Gen.mem_uc Cert.KernelIdeal.main_arg10 (by decide))).trans (Cert.KernelIdeal.Gen.W19_main_arg10 m ρ c),
       (h c _ (Cert.KernelIdeal.Gen.mem_uc Cert.KernelIdeal.main_arg11 (by decide))).trans (Cert.KernelIdeal.Gen.W19_main_arg11 m ρ c),
       (h c _ (Cert.KernelIdeal.Gen.mem_uc Cert.KernelIdeal.main_arg12 (by decide))).trans (Cert.KernelIdeal.Gen.W19_main_arg12 m ρ c),
       (h c _ (Cert.KernelIdeal.Gen.mem_uc Cert.KernelIdeal.main_arg13 (by decide))).trans (Cert.KernelIdeal.Gen.W19_main_arg13 m ρ c),
       (h c _ (Cert.KernelIdeal.Gen.mem_uc Cert.KernelIdeal.main_arg14 (by decide))).trans (Cert.KernelIdeal.Gen.W19_main_arg14 m ρ c),
       (h c _ (Cert.KernelIdeal.Gen.mem_uc Cert.KernelIdeal.main_arg15 (by decide))).trans (Cert.KernelIdeal.Gen.W19_main_arg15 m ρ c),
       (h c _ (Cert.KernelIdeal.Gen.mem_uc Cert.KernelIdeal.main_arg16 (by decide))).trans (Cert.KernelIdeal.Gen.W19_main_arg16 m ρ c),
       (h c _ (Cert.KernelIdeal.Gen.mem_uc Cert.KernelIdeal.main_arg17 (by decide))).trans (Cert.KernelIdeal.Gen.W19_main_arg17 m ρ c),
       (h c _ (Cert.KernelIdeal.Gen.mem_uc Cert.KernelIdeal.main_arg18 (by decide))).trans (Cert.KernelIdeal.Gen.W19_main_arg18 m ρ c),
       (h c _ (Cert.KernelIdeal.Gen.mem_uc Cert.KernelIdeal.main_arg19 (by decide))).trans (Cert.KernelIdeal.Gen.W19_main_arg19 m ρ c),
       (h c _ (Cert.KernelIdeal.Gen.mem_uc Cert.KernelIdeal.main_arg20 (by decide))).trans (Cert.KernelIdeal.Gen.W19_main_arg20 m ρ c),
       (h c _ (Cert.KernelIdeal.Gen.mem_uc Cert.KernelIdeal.main_arg21 (by decide))).trans (Cert.KernelIdeal.Gen.W19_main_arg21 m ρ c),
       (h c _ (Cert.KernelIdeal.Gen.mem_uc Cert.KernelIdeal.main_arg22 (by decide))).trans (Cert.KernelIdeal.Gen.W19_main_arg22 m ρ c),
       (h c _ (Cert.KernelIdeal.Gen.mem_uc Cert.KernelIdeal.main_arg23 (by decide))).trans (Cert.KernelIdeal.Gen.W19_main_arg23 m ρ c),
       (h c _ (Cert.KernelIdeal.Gen.mem_uc Cert.KernelIdeal.main_arg24 (by decide))).trans (Cert.KernelIdeal.Gen.W19_main_arg24 m ρ c),
       (h c _ (Cert.KernelIdeal.Gen.mem_uc Cert.KernelIdeal.main_arg25 (by decide))).trans (Cert.KernelIdeal.Gen.W19_main_arg25 m ρ c),
       (h c _ (Cert.KernelIdeal.Gen.mem_uc Cert.KernelIdeal.main_arg26 (by decide))).trans (Cert.KernelIdeal.Gen.W19_main_arg26 m ρ c),
       (h c _ (Cert.KernelIdeal.Gen.mem_uc Cert.KernelIdeal.main_arg27 (by decide))).trans (Cert.KernelIdeal.Gen.W19_main_arg27 m ρ c),
       (h c _ (Cert.KernelIdeal.Gen.mem_uc Cert.KernelIdeal.main_arg28 (by decide))).trans (Cert.KernelIdeal.Gen.W19_main_arg28 m ρ c),
       (h c _ (Cert.KernelIdeal.Gen.mem_uc Cert.KernelIdeal.main_arg29 (by decide))).trans (Cert.KernelIdeal.Gen.W19_main_arg29 m ρ c),
       (h c _ (Cert.KernelIdeal.Gen.mem_uc Cert.KernelIdeal.main_arg30 (by decide))).trans (Cert.KernelIdeal.Gen.W19_main_arg30 m ρ c),
       (h c _ (Cert.KernelIdeal.Gen.mem_uc Cert.KernelIdeal.main_arg31 (by decide))).trans (Cert.KernelIdeal.Gen.W19_main_arg31 m ρ c),
       (h c _ (Cert.KernelIdeal.Gen.mem_uc Cert.KernelIdeal.main_arg32 (by decide))).trans (Cert.KernelIdeal.Gen.W19_main_arg32 m ρ c),
       (h c _ (Cert.KernelIdeal.Gen.mem_uc Cert.KernelIdeal.main_arg33 (by decide))).trans (Cert.KernelIdeal.Gen.W19_main_arg33 m ρ c),
       (h c _ (Cert.KernelIdeal.Gen.mem_uc Cert.KernelIdeal.main_arg34 (by decide))).trans (Cert.KernelIdeal.Gen.W19_main_arg34 m ρ c)⟩
  · -- the reference: its composed term is G of its own arguments, which are the kernel program's
    refine (θ_run Cert.ReferenceIdeal.defs _ _).mono (fun r h c => ⟨(h c).1.trans ?_, (h c).2⟩)
      (Cert.ReferenceIdeal.ValueP.run (F := Ideal) m' ρ')
    obtain ⟨a0, a1, a2, a3, a4, a5, a6, a7, a8, a9, a10, a11, a12, a13, a14, a15, a16, a17, a18, a19, a20, a21, a22, a23, a24, a25, a26, a27, a28, a29, a30, a31, a32, a33, a34⟩ := hagree c
    rw [Cert.Gcn.Ref.res_eq, a0, a1, a2, a3, a4, a5, a6, a7, a8, a9, a10, a11, a12, a13, a14, a15, a16, a17, a18, a19, a20, a21, a22, a23, a24, a25, a26, a27, a28, a29, a30, a31, a32, a33, a34]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
